-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part6 {F : FTy → Type} [FloatOps F] (main_arg23 : FVec F S128x64 .f32) (main_arg24 : FVec F S64 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x64 .f32 := Host.absf main_arg23
  let main_cst_40 : FVec F S_ .f32 := constant S_ .f32 0x7F800000#32
  let main_v105 : FVec F S128x64 .f32 := broadcastInDim S128x64 ![] bcast_S_S128x64 main_cst_40
  let main_v106 : IVec S128x64 1 := cmpf .olt main_v104 main_v105
  let main_c_41 : IVec S_ 1 := constantI S_ 1 1#1
  let main_v107 : IVec S_ 1 := (fun x v => Host.reduce IntOp.andi x v reducesTo_S128x64_S_d0_1 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  main_v113

def fn_part5 {F : FTy → Type} [FloatOps F] (main_arg20 : FVec F S64 .f32) (main_arg21 : FVec F S64x128 .f32) (main_arg22 : FVec F S128 .f32) (main_arg23 : FVec F S128x64 .f32) (main_arg24 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x128 .f32 := Host.absf main_arg21
  let main_cst_36 : FVec F S_ .f32 := constant S_ .f32 0x7F800000#32
  let main_v95 : FVec F S64x128 .f32 := broadcastInDim S64x128 ![] bcast_S_S64x128 main_cst_36
  let main_v96 : IVec S64x128 1 := cmpf .olt main_v94 main_v95
  let main_c_37 : IVec S_ 1 := constantI S_ 1 1#1
  let main_v97 : IVec S_ 1 := (fun x v => Host.reduce IntOp.andi x v reducesTo_S64x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S64 .f32) (main_arg17 : FVec F S64x64 .f32) (main_arg18 : FVec F S64 .f32) (main_arg19 : FVec F S64 .f32) (main_arg20 : FVec F S64 .f32) (main_arg21 : FVec F S64x128 .f32) (main_arg22 : FVec F S128 .f32) (main_arg23 : FVec F S128x64 .f32) (main_arg24 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64x128 .f32) (main_arg22 : FVec F S128 .f32) (main_arg23 : FVec F S128x64 .f32) (main_arg24 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64x128 .f32) (main_arg22 : FVec F S128 .f32) (main_arg23 : FVec F S128x64 .f32) (main_arg24 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64x128 .f32) (main_arg22 : FVec F S128 .f32) (main_arg23 : FVec F S128x64 .f32) (main_arg24 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64x128 .f32) (main_arg22 : FVec F S128 .f32) (main_arg23 : FVec F S128x64 .f32) (main_arg24 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S10x8x64 : Shape := ⟨3, ![10, 8, 64]⟩
abbrev S5000x64 : Shape := ⟨2, ![5000, 64]⟩
abbrev S1x8x64 : Shape := ⟨3, ![1, 8, 64]⟩
abbrev S1x1x64 : Shape := ⟨3, ![1, 1, 64]⟩
abbrev S25000x128 : Shape := ⟨2, ![25000, 128]⟩
abbrev S1x128 : Shape := ⟨2, ![1, 128]⟩
abbrev S5000x128 : Shape := ⟨2, ![5000, 128]⟩
abbrev S512x64 : Shape := ⟨2, ![512, 64]⟩
abbrev S50000x1 : Shape := ⟨2, ![50000, 1]⟩
abbrev S512x128 : Shape := ⟨2, ![512, 128]⟩

abbrev nBuf : Space → Nat
  | .hbm => 199
  | .vmem => 72
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64, .f32⟩
  | 20 => ⟨S64, .f32⟩
  | 21 => ⟨S64x128, .f32⟩
  | 22 => ⟨S128, .f32⟩
  | 23 => ⟨S128x64, .f32⟩
  | 24 => ⟨S64, .f32⟩
  | 25 => ⟨S50000x64, .bf16⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .bf16⟩
  | 37 => ⟨S800000x64, .f32⟩
  | 38 => ⟨S1x800000, .i32⟩
  | 39 => ⟨S800000, .i32⟩
  | 40 => ⟨S_, .f32⟩
  | 41 => ⟨S50000x64, .f32⟩
  | 42 => ⟨S800000x1, .i32⟩
  | 43 => ⟨S50000x64, .f32⟩
  | 44 => ⟨S1x64, .f32⟩
  | 45 => ⟨S1x64, .f32⟩
  | 46 => ⟨S50000x64, .f32⟩
  | 47 => ⟨S10x8x64, .f32⟩
  | 48 => ⟨S10x8x64, .f32⟩
  | 49 => ⟨S_, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | 65 => ⟨S64, .f32⟩
  | 66 => ⟨S64, .f32⟩
  | 67 => ⟨S_, .f32⟩
  | 68 => ⟨S64, .f32⟩
  | 69 => ⟨S64, .f32⟩
  | 70 => ⟨S25000x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S25000x128, .bf16⟩
  | 80 => ⟨S50000x64, .bf16⟩
  | 81 => ⟨S1x800000, .i32⟩
  | 82 => ⟨S800000, .i32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .bf16⟩
  | 92 => ⟨S800000x64, .f32⟩
  | 93 => ⟨S1x800000, .i32⟩
  | 94 => ⟨S800000, .i32⟩
  | 95 => ⟨S_, .f32⟩
  | 96 => ⟨S50000x64, .f32⟩
  | 97 => ⟨S800000x1, .i32⟩
  | 98 => ⟨S50000x64, .f32⟩
  | 99 => ⟨S1x64, .f32⟩
  | 100 => ⟨S1x64, .f32⟩
  | 101 => ⟨S50000x64, .f32⟩
  | 102 => ⟨S10x8x64, .f32⟩
  | 103 => ⟨S10x8x64, .f32⟩
  | 104 => ⟨S_, .f32⟩
  | 105 => ⟨S64, .f32⟩
  | 106 => ⟨S_, .f32⟩
  | 107 => ⟨S64, .f32⟩
  | 108 => ⟨S64, .f32⟩
  | 109 => ⟨S_, .f32⟩
  | 110 => ⟨S64, .f32⟩
  | 111 => ⟨S_, .f32⟩
  | 112 => ⟨S64, .f32⟩
  | 113 => ⟨S64, .f32⟩
  | 114 => ⟨S_, .f32⟩
  | 115 => ⟨S64, .f32⟩
  | 116 => ⟨S64, .f32⟩
  | 117 => ⟨S_, .f32⟩
  | 118 => ⟨S64, .f32⟩
  | 119 => ⟨S64, .f32⟩
  | 120 => ⟨S64, .f32⟩
  | 121 => ⟨S64, .f32⟩
  | 122 => ⟨S_, .f32⟩
  | 123 => ⟨S64, .f32⟩
  | 124 => ⟨S64, .f32⟩
  | 125 => ⟨S25000x128, .f32⟩
  | 126 => ⟨S128, .f32⟩
  | 127 => ⟨S1x128, .f32⟩
  | _ => ⟨S50000x64, .f32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S25000x128, .bf16⟩
  | 7 => ⟨S50000x64, .bf16⟩
  | 8 => ⟨S1x800000, .i32⟩
  | 9 => ⟨S800000, .i32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .bf16⟩
  | 19 => ⟨S800000x64, .f32⟩
  | 20 => ⟨S1x800000, .i32⟩
  | 21 => ⟨S800000, .i32⟩
  | 22 => ⟨S_, .f32⟩
  | 23 => ⟨S50000x64, .f32⟩
  | 24 => ⟨S800000x1, .i32⟩
  | 25 => ⟨S50000x64, .f32⟩
  | 26 => ⟨S1x64, .f32⟩
  | 27 => ⟨S1x64, .f32⟩
  | 28 => ⟨S50000x64, .f32⟩
  | 29 => ⟨S10x8x64, .f32⟩
  | 30 => ⟨S10x8x64, .f32⟩
  | 31 => ⟨S_, .f32⟩
  | 32 => ⟨S64, .f32⟩
  | 33 => ⟨S_, .f32⟩
  | 34 => ⟨S64, .f32⟩
  | 35 => ⟨S64, .f32⟩
  | 36 => ⟨S_, .f32⟩
  | 37 => ⟨S64, .f32⟩
  | 38 => ⟨S_, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S64, .f32⟩
  | 48 => ⟨S64, .f32⟩
  | 49 => ⟨S_, .f32⟩
  | 50 => ⟨S64, .f32⟩
  | 51 => ⟨S64, .f32⟩
  | 52 => ⟨S25000x128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S25000x128, .bf16⟩
  | 62 => ⟨S50000x64, .bf16⟩
  | 63 => ⟨S50000x64, .f32⟩
  | 64 => ⟨S_, .f32⟩
  | 65 => ⟨S512x64, .f32⟩
  | 66 => ⟨S50000x1, .i32⟩
  | 67 => ⟨S512x64, .f32⟩
  | 68 => ⟨S1x128, .f32⟩
  | 69 => ⟨S1x64, .f32⟩
  | 70 => ⟨S512x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .bf16⟩
  | .local _ .vmem, ⟨3, _⟩ => ⟨S5000x64, .bf16⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x8x64, .f32⟩
  | .local _ .vmem, ⟨11, _⟩ => ⟨S1x8x64, .f32⟩
  | .local _ .vmem, ⟨12, _⟩ => ⟨S1x8x64, .f32⟩
  | .local _ .vmem, ⟨13, _⟩ => ⟨S1x8x64, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .bf16⟩
  | .local _ .vmem, ⟨21, _⟩ => ⟨S5000x128, .bf16⟩
  | .local _ .vmem, ⟨22, _⟩ => ⟨S5000x64, .f32⟩
  | .local _ .vmem, ⟨23, _⟩ => ⟨S5000x64, .f32⟩
  | .local _ .vmem, ⟨24, _⟩ => ⟨S5000x64, .bf16⟩
  | .local _ .vmem, ⟨25, _⟩ => ⟨S5000x64, .bf16⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S1x8x64, .f32⟩
  | .local _ .vmem, ⟨33, _⟩ => ⟨S1x8x64, .f32⟩
  | .local _ .vmem, ⟨34, _⟩ => ⟨S1x8x64, .f32⟩
  | .local _ .vmem, ⟨35, _⟩ => ⟨S1x8x64, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .bf16⟩
  | .local _ .vmem, ⟨43, _⟩ => ⟨S5000x128, .bf16⟩
  | .local _ .vmem, ⟨44, _⟩ => ⟨S5000x64, .f32⟩
  | .local _ .vmem, ⟨45, _⟩ => ⟨S5000x64, .f32⟩
  | .local _ .vmem, ⟨46, _⟩ => ⟨S5000x64, .bf16⟩
  | .local _ .vmem, ⟨47, _⟩ => ⟨S5000x64, .bf16⟩
  | .local _ .vmem, ⟨48, _⟩ => ⟨S64x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S1x8x64, .f32⟩
  | .local _ .vmem, ⟨55, _⟩ => ⟨S1x8x64, .f32⟩
  | .local _ .vmem, ⟨56, _⟩ => ⟨S1x8x64, .f32⟩
  | .local _ .vmem, ⟨57, _⟩ => ⟨S1x8x64, .f32⟩
  | .local _ .vmem, ⟨58, _⟩ => ⟨S5000x128, .f32⟩
  | .local _ .vmem, ⟨59, _⟩ => ⟨S5000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S5000x128, .bf16⟩
  | .local _ .vmem, ⟨65, _⟩ => ⟨S5000x128, .bf16⟩
  | .local _ .vmem, ⟨66, _⟩ => ⟨S512x64, .f32⟩
  | .local _ .vmem, ⟨67, _⟩ => ⟨S64x128, .f32⟩
  | .local _ .vmem, ⟨68, _⟩ => ⟨S1x128, .f32⟩
  | .local _ .vmem, ⟨69, _⟩ => ⟨S128x64, .f32⟩
  | .local _ .vmem, ⟨70, _⟩ => ⟨S1x64, .f32⟩
  | .local _ .vmem, ⟨71, _⟩ => ⟨S512x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_c : Ref sig .tc := ⟨.hbm, 28, rfl⟩
abbrev main_v3 : Ref sig .tc := ⟨.hbm, 29, rfl⟩
abbrev main_v4 : Ref sig .tc := ⟨.hbm, 30, rfl⟩
abbrev main_c_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18_0 : Ref sig .tc := ⟨.hbm, 46, rfl⟩
abbrev main_v18_1 : Ref sig .tc := ⟨.hbm, 47, rfl⟩
abbrev main_v18_2 : Ref sig .tc := ⟨.hbm, 48, rfl⟩
abbrev main_cst_1 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_7 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_c_8 : Ref sig .tc := ⟨.hbm, 83, rfl⟩
abbrev main_v46 : Ref sig .tc := ⟨.hbm, 84, rfl⟩
abbrev main_v47 : Ref sig .tc := ⟨.hbm, 85, rfl⟩
abbrev main_c_9 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_10 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61_0 : Ref sig .tc := ⟨.hbm, 101, rfl⟩
abbrev main_v61_1 : Ref sig .tc := ⟨.hbm, 102, rfl⟩
abbrev main_v61_2 : Ref sig .tc := ⟨.hbm, 103, rfl⟩
abbrev main_cst_11 : Ref sig .tc := ⟨.hbm, 104, rfl⟩
abbrev main_v62 : Ref sig .tc := ⟨.hbm, 105, rfl⟩
abbrev main_cst_12 : Ref sig .tc := ⟨.hbm, 106, rfl⟩
abbrev main_v63 : Ref sig .tc := ⟨.hbm, 107, rfl⟩
abbrev main_v64 : Ref sig .tc := ⟨.hbm, 108, rfl⟩
abbrev main_cst_13 : Ref sig .tc := ⟨.hbm, 109, rfl⟩
abbrev main_v65 : Ref sig .tc := ⟨.hbm, 110, rfl⟩
abbrev main_cst_14 : Ref sig .tc := ⟨.hbm, 111, rfl⟩
abbrev main_v66 : Ref sig .tc := ⟨.hbm, 112, rfl⟩
abbrev main_v67 : Ref sig .tc := ⟨.hbm, 113, rfl⟩
abbrev main_cst_15 : Ref sig .tc := ⟨.hbm, 114, rfl⟩
abbrev main_v68 : Ref sig .tc := ⟨.hbm, 115, rfl⟩
abbrev main_v69 : Ref sig .tc := ⟨.hbm, 116, rfl⟩
abbrev main_cst_16 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_17 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_c_18 : Ref sig .tc := ⟨.hbm, 138, rfl⟩
abbrev main_v89 : Ref sig .tc := ⟨.hbm, 139, rfl⟩
abbrev main_v90 : Ref sig .tc := ⟨.hbm, 140, rfl⟩
abbrev main_c_19 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_20 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104_0 : Ref sig .tc := ⟨.hbm, 156, rfl⟩
abbrev main_v104_1 : Ref sig .tc := ⟨.hbm, 157, rfl⟩
abbrev main_v104_2 : Ref sig .tc := ⟨.hbm, 158, rfl⟩
abbrev main_cst_21 : Ref sig .tc := ⟨.hbm, 159, rfl⟩
abbrev main_v105 : Ref sig .tc := ⟨.hbm, 160, rfl⟩
abbrev main_cst_22 : Ref sig .tc := ⟨.hbm, 161, rfl⟩
abbrev main_v106 : Ref sig .tc := ⟨.hbm, 162, rfl⟩
abbrev main_v107 : Ref sig .tc := ⟨.hbm, 163, rfl⟩
abbrev main_cst_23 : Ref sig .tc := ⟨.hbm, 164, rfl⟩
abbrev main_v108 : Ref sig .tc := ⟨.hbm, 165, rfl⟩
abbrev main_cst_24 : Ref sig .tc := ⟨.hbm, 166, rfl⟩
abbrev main_v109 : Ref sig .tc := ⟨.hbm, 167, rfl⟩
abbrev main_v110 : Ref sig .tc := ⟨.hbm, 168, rfl⟩
abbrev main_cst_25 : Ref sig .tc := ⟨.hbm, 169, rfl⟩
abbrev main_v111 : Ref sig .tc := ⟨.hbm, 170, rfl⟩
abbrev main_v112 : Ref sig .tc := ⟨.hbm, 171, rfl⟩
abbrev main_cst_26 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_cst_27 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_cst_28 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg7_1 : Ref sig .tc := ⟨.vmem, 55, rfl⟩
abbrev cc4_stg8_0 : Ref sig .tc := ⟨.vmem, 56, rfl⟩
abbrev cc4_stg8_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc6_stg0_0 : Ref sig .tc := ⟨.vmem, 66, rfl⟩
abbrev cc6_stg1_0 : Ref sig .tc := ⟨.vmem, 67, rfl⟩
abbrev cc6_stg2_0 : Ref sig .tc := ⟨.vmem, 68, rfl⟩
abbrev cc6_stg3_0 : Ref sig .tc := ⟨.vmem, 69, rfl⟩
abbrev cc6_stg4_0 : Ref sig .tc := ⟨.vmem, 70, rfl⟩
abbrev cc6_stg5_0 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem6_1 : DmaSem sig := 53
abbrev cc4_sem7_0 : DmaSem sig := 54
abbrev cc4_sem7_1 : DmaSem sig := 55
abbrev cc4_sem8_0 : DmaSem sig := 56
abbrev cc4_sem8_1 : DmaSem sig := 57
abbrev cc5_sem0_0 : DmaSem sig := 58
abbrev cc5_sem0_1 : DmaSem sig := 59
abbrev cc5_sem1_0 : DmaSem sig := 60
abbrev cc5_sem2_0 : DmaSem sig := 61
abbrev cc5_sem3_0 : DmaSem sig := 62
abbrev cc5_sem4_0 : DmaSem sig := 63
abbrev cc5_sem5_0 : DmaSem sig := 64
abbrev cc5_sem5_1 : DmaSem sig := 65
abbrev cc6_sem0_0 : DmaSem sig := 66
abbrev cc6_sem1_0 : DmaSem sig := 67
abbrev cc6_sem2_0 : DmaSem sig := 68
abbrev cc6_sem3_0 : DmaSem sig := 69
abbrev cc6_sem4_0 : DmaSem sig := 70
abbrev cc6_sem5_0 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x8x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x8x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x8x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x8x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  bitsLt_bf16_f32 : FTy.bits .bf16 < FTy.bits .f32
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S64 : S5000x64.Reduces [0] S64
  shapeCasts_S1x64_S1x1x64 : S1x64.ShapeCasts S1x1x64
  shapeCasts_S1x1x64_S1x1x64 : S1x1x64.ShapeCasts S1x1x64
  broadcasts_S1x1x64_S1x8x64 : S1x1x64.Broadcasts S1x8x64
  inb_S1x8x64_S1x8x64_0_0_0 : ∀ a, (![0, 0, 0] : Fin 3 → Nat) a + S1x8x64.size a ≤ S1x8x64.size a
  h_S1x8x64 : 0 < S1x8x64.numel
  reducesTo_S10x8x64_S64_d0_1 : S10x8x64.ReducesTo [0, 1] S64
  h_S_ : 0 < S_.numel
  bcast_S_S64 : S_.BroadcastsInDim S64 (![] : Fin 0 → Fin S64.rank)
  shapeCasts_S50000x64_S25000x128 : S50000x64.ShapeCasts S25000x128
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  shapeCasts_S25000x128_S50000x64 : S25000x128.ShapeCasts S50000x64
  bcast_S_S512x64 : S_.BroadcastsInDim S512x64 (![] : Fin 0 → Fin S512x64.rank)
  bcast_S50000_S50000x1_0 : S50000.BroadcastsInDim S50000x1 (![0] : Fin 1 → Fin S50000x1.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x128_S64x128_0_0 : ∀ a, (![0, 0] : Fin 2 → Nat) a + S64x128.size a ≤ S64x128.size a
  h_S64x128 : 0 < S64x128.numel
  broadcasts_S1x128_S512x128 : S1x128.Broadcasts S512x128
  inb_S128x64_S128x64_0_0 : ∀ a, (![0, 0] : Fin 2 → Nat) a + S128x64.size a ≤ S128x64.size a
  h_S128x64 : 0 < S128x64.numel
  broadcasts_S1x64_S512x64 : S1x64.Broadcasts S512x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S512x64_S50000x1_S50000x64_1_0_0_1_wf : ScatterDims.WF S512x64 S50000x1 S50000x64 [1] [0] [0] 1
  dot_S512x64_S64x128_S512x128_1_0_0_1_n_n_wf : DotDims.WF S512x64 S64x128 S512x128 [1] [0] [0] [1] [] []
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .bf16 = 32 ∨ (Rect.block (s := S50000x64) S5000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x64.size a ≤ S10x8x64.size a
  hwx0_7 : ∀ i : grid0.Coords, EltTy.bits .f32 = 32 ∨ (Rect.block (s := S10x8x64) S1x8x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x64.size a ≤ S10x8x64.size a
  hwx0_8 : ∀ i : grid0.Coords, EltTy.bits .f32 = 32 ∨ (Rect.block (s := S10x8x64) S1x8x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S25000x128.size a
  hwx1_5 : ∀ i : grid1.Coords, EltTy.bits .bf16 = 32 ∨ (Rect.block (s := S25000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .bf16 = 32 ∨ (Rect.block (s := S50000x64) S5000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x8x64.size a ≤ S10x8x64.size a
  hwx2_7 : ∀ i : grid2.Coords, EltTy.bits .f32 = 32 ∨ (Rect.block (s := S10x8x64) S1x8x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x8x64.size a ≤ S10x8x64.size a
  hwx2_8 : ∀ i : grid2.Coords, EltTy.bits .f32 = 32 ∨ (Rect.block (s := S10x8x64) S1x8x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S25000x128.size a
  hwx3_0 : ∀ i : grid3.Coords, EltTy.bits .f32 = 32 ∨ (Rect.block (s := S25000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S25000x128.size a
  hwx3_5 : ∀ i : grid3.Coords, EltTy.bits .bf16 = 32 ∨ (Rect.block (s := S25000x128) S5000x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .bf16 = 32 ∨ (Rect.block (s := S50000x64) S5000x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x8x64.size a ≤ S10x8x64.size a
  hwx4_7 : ∀ i : grid4.Coords, EltTy.bits .f32 = 32 ∨ (Rect.block (s := S10x8x64) S1x8x64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x8x64.size a ≤ S10x8x64.size a
  hwx4_8 : ∀ i : grid4.Coords, EltTy.bits .f32 = 32 ∨ (Rect.block (s := S10x8x64) S1x8x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S25000x128.size a
  hwx5_0 : ∀ i : grid5.Coords, EltTy.bits .f32 = 32 ∨ (Rect.block (s := S25000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S25000x128.size a
  hwx5_5 : ∀ i : grid5.Coords, EltTy.bits .bf16 = 32 ∨ (Rect.block (s := S25000x128) S5000x128.size (cc5_transform_5 i) (hinb5_5 i)).WholeWords (EltTy.packing .bf16)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x64.size a ≤ S512x64.size a
  hwx6_0 : ∀ i : grid6.Coords, EltTy.bits .f32 = 32 ∨ (Rect.block (s := S512x64) S512x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x64.size a ≤ S512x64.size a
  hwx6_5 : ∀ i : grid6.Coords, EltTy.bits .f32 = 32 ∨ (Rect.block (s := S512x64) S512x64.size (cc6_transform_5 i) (hinb6_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_v15) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x8x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v18_2) S1x8x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v61_1) S1x8x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v61_2) S1x8x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v76) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v85) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v101) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v102) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v103) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v104_0) S5000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v104_1) S1x8x64.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v104_2) S1x8x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v119) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v121) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v123) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v125) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v127) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v128) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v133) S512x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg21) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v134) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg23) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v135) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v136) S512x64.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S512x64 : Shape := ⟨2, ![512, 64]⟩
abbrev S50000x1 : Shape := ⟨2, ![50000, 1]⟩
abbrev S512x128 : Shape := ⟨2, ![512, 128]⟩
abbrev S1x128 : Shape := ⟨2, ![1, 128]⟩

abbrev nBuf : Space → Nat
  | .hbm => 226
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64, .f32⟩
  | 20 => ⟨S64, .f32⟩
  | 21 => ⟨S64x128, .f32⟩
  | 22 => ⟨S128, .f32⟩
  | 23 => ⟨S128x64, .f32⟩
  | 24 => ⟨S64, .f32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S1x800000, .i32⟩
  | 37 => ⟨S800000, .i32⟩
  | 38 => ⟨S_, .f32⟩
  | 39 => ⟨S50000x64, .f32⟩
  | 40 => ⟨S800000x1, .i32⟩
  | 41 => ⟨S50000x64, .f32⟩
  | 42 => ⟨S50000x64, .f32⟩
  | 43 => ⟨S50000x64, .f32⟩
  | 44 => ⟨S1x64, .f32⟩
  | 45 => ⟨S50000x64, .f32⟩
  | 46 => ⟨S50000x64, .f32⟩
  | 47 => ⟨S_, .f32⟩
  | 48 => ⟨S50000x64, .f32⟩
  | 49 => ⟨S50000x64, .f32⟩
  | 50 => ⟨S50000x64, .f32⟩
  | 51 => ⟨S1x64, .f32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S_, .f32⟩
  | 58 => ⟨S64, .f32⟩
  | 59 => ⟨S_, .f32⟩
  | 60 => ⟨S64, .f32⟩
  | 61 => ⟨S64, .f32⟩
  | 62 => ⟨S1x64, .f32⟩
  | 63 => ⟨S50000x64, .f32⟩
  | 64 => ⟨S50000x64, .f32⟩
  | 65 => ⟨S50000x64, .f32⟩
  | 66 => ⟨S_, .f32⟩
  | 67 => ⟨S64, .f32⟩
  | 68 => ⟨S_, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S_, .f32⟩
  | 75 => ⟨S64, .f32⟩
  | 76 => ⟨S64, .f32⟩
  | 77 => ⟨S64, .f32⟩
  | 78 => ⟨S1x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S1x800000, .i32⟩
  | 88 => ⟨S800000, .i32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S1x800000, .i32⟩
  | 99 => ⟨S800000, .i32⟩
  | 100 => ⟨S_, .f32⟩
  | 101 => ⟨S50000x64, .f32⟩
  | 102 => ⟨S800000x1, .i32⟩
  | 103 => ⟨S50000x64, .f32⟩
  | 104 => ⟨S50000x64, .f32⟩
  | 105 => ⟨S50000x64, .f32⟩
  | 106 => ⟨S1x64, .f32⟩
  | 107 => ⟨S50000x64, .f32⟩
  | 108 => ⟨S50000x64, .f32⟩
  | 109 => ⟨S_, .f32⟩
  | 110 => ⟨S50000x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000x64, .f32⟩
  | 118 => ⟨S50000x64, .f32⟩
  | 119 => ⟨S_, .f32⟩
  | 120 => ⟨S64, .f32⟩
  | 121 => ⟨S_, .f32⟩
  | 122 => ⟨S64, .f32⟩
  | 123 => ⟨S64, .f32⟩
  | 124 => ⟨S1x64, .f32⟩
  | 125 => ⟨S50000x64, .f32⟩
  | 126 => ⟨S50000x64, .f32⟩
  | 127 => ⟨S50000x64, .f32⟩
  | _ => ⟨S50000x64, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S1x64, .f32⟩
  | 6 => ⟨S50000x64, .f32⟩
  | 7 => ⟨S50000x64, .f32⟩
  | 8 => ⟨S_, .f32⟩
  | 9 => ⟨S64, .f32⟩
  | 10 => ⟨S64, .f32⟩
  | 11 => ⟨S64, .f32⟩
  | 12 => ⟨S1x64, .f32⟩
  | 13 => ⟨S50000x64, .f32⟩
  | 14 => ⟨S50000x64, .f32⟩
  | 15 => ⟨S1x64, .f32⟩
  | 16 => ⟨S50000x64, .f32⟩
  | 17 => ⟨S50000x64, .f32⟩
  | 18 => ⟨S1x64, .f32⟩
  | 19 => ⟨S50000x64, .f32⟩
  | 20 => ⟨S50000x64, .f32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S1x800000, .i32⟩
  | 33 => ⟨S800000, .i32⟩
  | 34 => ⟨S_, .f32⟩
  | 35 => ⟨S50000x64, .f32⟩
  | 36 => ⟨S800000x1, .i32⟩
  | 37 => ⟨S50000x64, .f32⟩
  | 38 => ⟨S50000x64, .f32⟩
  | 39 => ⟨S50000x64, .f32⟩
  | 40 => ⟨S1x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S50000x64, .f32⟩
  | 47 => ⟨S1x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S_, .f32⟩
  | 54 => ⟨S64, .f32⟩
  | 55 => ⟨S_, .f32⟩
  | 56 => ⟨S64, .f32⟩
  | 57 => ⟨S64, .f32⟩
  | 58 => ⟨S1x64, .f32⟩
  | 59 => ⟨S50000x64, .f32⟩
  | 60 => ⟨S50000x64, .f32⟩
  | 61 => ⟨S50000x64, .f32⟩
  | 62 => ⟨S_, .f32⟩
  | 63 => ⟨S64, .f32⟩
  | 64 => ⟨S_, .f32⟩
  | 65 => ⟨S64, .f32⟩
  | 66 => ⟨S64, .f32⟩
  | 67 => ⟨S1x64, .f32⟩
  | 68 => ⟨S50000x64, .f32⟩
  | 69 => ⟨S50000x64, .f32⟩
  | 70 => ⟨S_, .f32⟩
  | 71 => ⟨S64, .f32⟩
  | 72 => ⟨S64, .f32⟩
  | 73 => ⟨S64, .f32⟩
  | 74 => ⟨S1x64, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S1x64, .f32⟩
  | 81 => ⟨S50000x64, .f32⟩
  | 82 => ⟨S50000x64, .f32⟩
  | 83 => ⟨S_, .f32⟩
  | 84 => ⟨S512x64, .f32⟩
  | 85 => ⟨S50000x1, .i32⟩
  | 86 => ⟨S512x64, .f32⟩
  | 87 => ⟨S512x128, .f32⟩
  | 88 => ⟨S1x128, .f32⟩
  | 89 => ⟨S512x128, .f32⟩
  | 90 => ⟨S512x128, .f32⟩
  | 91 => ⟨S512x64, .f32⟩
  | 92 => ⟨S1x64, .f32⟩
  | 93 => ⟨S512x64, .f32⟩
  | 94 => ⟨S512x64, .f32⟩
  | 95 => ⟨S_, .f32⟩
  | 96 => ⟨S512x64, .f32⟩
  | 97 => ⟨S512x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_c : Ref sig .tc := ⟨.hbm, 27, rfl⟩
abbrev main_v2 : Ref sig .tc := ⟨.hbm, 28, rfl⟩
abbrev main_v3 : Ref sig .tc := ⟨.hbm, 29, rfl⟩
abbrev main_c_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_cst_3 : Ref sig .tc := ⟨.hbm, 57, rfl⟩
abbrev main_v27 : Ref sig .tc := ⟨.hbm, 58, rfl⟩
abbrev main_cst_4 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_5 : Ref sig .tc := ⟨.hbm, 66, rfl⟩
abbrev main_v34 : Ref sig .tc := ⟨.hbm, 67, rfl⟩
abbrev main_cst_6 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_7 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_8 : Ref sig .tc := ⟨.hbm, 89, rfl⟩
abbrev main_v54 : Ref sig .tc := ⟨.hbm, 90, rfl⟩
abbrev main_v55 : Ref sig .tc := ⟨.hbm, 91, rfl⟩
abbrev main_c_9 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_10 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_11 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_12 : Ref sig .tc := ⟨.hbm, 116, rfl⟩
abbrev main_v77 : Ref sig .tc := ⟨.hbm, 117, rfl⟩
abbrev main_v78 : Ref sig .tc := ⟨.hbm, 118, rfl⟩
abbrev main_cst_13 : Ref sig .tc := ⟨.hbm, 119, rfl⟩
abbrev main_v79 : Ref sig .tc := ⟨.hbm, 120, rfl⟩
abbrev main_cst_14 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_15 : Ref sig .tc := ⟨.hbm, 128, rfl⟩
abbrev main_v86 : Ref sig .tc := ⟨.hbm, 129, rfl⟩
abbrev main_cst_16 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_17 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_18 : Ref sig .tc := ⟨.hbm, 151, rfl⟩
abbrev main_v106 : Ref sig .tc := ⟨.hbm, 152, rfl⟩
abbrev main_v107 : Ref sig .tc := ⟨.hbm, 153, rfl⟩
abbrev main_c_19 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_20 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_21 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_22 : Ref sig .tc := ⟨.hbm, 178, rfl⟩
abbrev main_v129 : Ref sig .tc := ⟨.hbm, 179, rfl⟩
abbrev main_v130 : Ref sig .tc := ⟨.hbm, 180, rfl⟩
abbrev main_cst_23 : Ref sig .tc := ⟨.hbm, 181, rfl⟩
abbrev main_v131 : Ref sig .tc := ⟨.hbm, 182, rfl⟩
abbrev main_cst_24 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_25 : Ref sig .tc := ⟨.hbm, 190, rfl⟩
abbrev main_v138 : Ref sig .tc := ⟨.hbm, 191, rfl⟩
abbrev main_cst_26 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_cst_27 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_cst_28 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_cst_29 : Ref sig .tc := ⟨.hbm, 223, rfl⟩
abbrev main_v167 : Ref sig .tc := ⟨.hbm, 224, rfl⟩
abbrev main_v168 : Ref sig .tc := ⟨.hbm, 225, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S1x64_S512x64_0_1 : S1x64.BroadcastsInDim S512x64 (![0, 1] : Fin 2 → Fin S512x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  dot_S512x64_S64x128_S512x128_1_0_0_1_n_n_wf : DotDims.WF S512x64 S64x128 S512x128 [1] [0] [0] [1] [] []
  dot_S512x128_S128x64_S512x64_1_0_0_1_n_n_wf : DotDims.WF S512x128 S128x64 S512x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

class Facts : Prop extends Facts₀ where

variable [Facts]
-- ==== Proof.KernelRun.lean ====
/-
  The kernel program's run with its result named: every weakly fair execution of @main terminates without a fault,
  the result array ends at what the last region's write-backs leave, and the arguments end as launched.
-/
import proofs.«177788_j17205638988409_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments with the final contents read at the result buffer as well as at the arguments: the
    last thread state holds every unscoped buffer at the contents the fold through @main ends with. -/
theorem run_result : θ_run defs (onTc (τ := τ) (main (F := F))) ⟨m, fun _ => 0, ρ⟩ (fun r => ∀ c : Dev nD,
      r.2.mem ((c.tc : Thread nD τ).loc main_v136) = W14 m ρ c (Proc.devRef .tc main_v136)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v136 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c)⟩)

end Cert.KernelIdeal.Gen

end
-- ==== Proof.GinSpec.lean ====
/-
  The functions this certificate is about, stated once over plain index types.

  A graph network of three identical layers followed by a pooled two-layer head.  One layer takes a node-feature
  matrix `H` (50000 × 64) and the matrix `A` of its neighbour sums, applies a two-layer perceptron with rectifiers
  to `A + H`, row by row, and normalises every column of the result `Z` by that column's mean and variance over
  all 50000 rows.  Two ways of computing the column statistics meet here: from the centred squares
  (mean of `(z - μ)²`), and from column sums of `z` and of `z²` taken tile by tile (ten tiles of 5000 rows, each
  partial sum stored eight times over), with the variance formed as `E z² - μ²` and clamped below at zero.
  On finite entries the two agree: the clamp is idle because a mean of squares is nonnegative.
-/
import Idealize.ShloMosaic.Lib.ValueIdx
import Idealize.ShloMosaic.PureOps.Ideal.Laws

noncomputable section

namespace Cert.GinSpec

open Idealize.ShloMosaic Idealize.ShloMosaic.ValueIdx
open scoped BigOperators

/-- A matrix of extended reals over a rank-2 index. -/
abbrev Mat (r c : Nat) : Type := (⟨2, ![r, c]⟩ : Shape).Idx → EReal
/-- A rank-3 array of extended reals. -/
abbrev Arr3 (a b c : Nat) : Type := (⟨3, ![a, b, c]⟩ : Shape).Idx → EReal

/-- The float words that occur: zero, the variance offset, the row count 50000 and the replication count 8. -/
abbrev zeroW : EReal := Ideal.ofBits .f32 0x00000000#32
abbrev epsW : EReal := Ideal.ofBits .f32 0x3727C5AC#32
abbrev rowsW : EReal := Ideal.ofBits .f32 0x47435000#32
abbrev eightW : EReal := Ideal.ofBits .f32 0x41000000#32

/-- The perceptron of one layer on the sum of two matrices, row by row:
    `max (max ((A + H) · Wa + Ba) 0 · Wb + Bb) 0`. The biases are rows `[1, 64]`. -/
def mlp {n : Nat} (A H : Mat n 64) (Wa : Mat 64 64) (Ba : Mat 1 64) (Wb : Mat 64 64) (Bb : Mat 1 64) : Mat n 64 :=
  fun i => max ((∑ k : Fin 64, max ((∑ j : Fin 64, (A (ix2 (i 0) j) + H (ix2 (i 0) j)) * Wa (ix2 j k)) + Ba (ix2 0 k)) zeroW
      * Wb (ix2 k (i 1))) + Bb (ix2 0 (i 1))) zeroW

/-- Row `r` of tile `t` (ten tiles of 5000 rows). -/
def tileRow (t : Fin 10) (r : Fin 5000) : Fin 50000 := ⟨5000 * t.val + r.val, by have := t.isLt; have := r.isLt; omega⟩

/-- Tile `t` of a 50000-row matrix. -/
def rowTile (Z : Mat 50000 64) (t : Fin 10) : Mat 5000 64 := fun j => Z (ix2 (tileRow t (j 0)) (j 1))

/-- The column sums of a matrix, and of its squares. -/
def colSum {n : Nat} (Z : Mat n 64) (c : Fin 64) : EReal := ∑ r : Fin n, Z (ix2 r c)
def colSumSq {n : Nat} (Z : Mat n 64) (c : Fin 64) : EReal := ∑ r : Fin n, Z (ix2 r c) * Z (ix2 r c)

/-- The per-tile column sums as stored: tile `t`'s sums, eight copies. -/
def tileSums (Z : Mat 50000 64) : Arr3 10 8 64 := fun i => colSum (rowTile Z (i 0)) (i 2)
def tileSumSqs (Z : Mat 50000 64) : Arr3 10 8 64 := fun i => colSumSq (rowTile Z (i 0)) (i 2)

/-- Mean and clamped variance of a column from the stored partial sums `S` (of `z`) and `Q` (of `z²`). -/
def meanOfSums (S : Arr3 10 8 64) (c : Fin 64) : EReal :=
  Ideal.div (Ideal.div (zeroW + ∑ t : Fin 10, ∑ s : Fin 8, S (ix3 t s c)) eightW) rowsW
def varOfSums (S Q : Arr3 10 8 64) (c : Fin 64) : EReal :=
  max (Ideal.div (Ideal.div (zeroW + ∑ t : Fin 10, ∑ s : Fin 8, Q (ix3 t s c)) eightW) rowsW - meanOfSums S c * meanOfSums S c) zeroW

/-- The normalisation in the lane-dense layout: two node rows side by side in one row of 128, the per-column
    parameters as rows `[1, 128]`. -/
def normDense (Z2 : Mat 25000 128) (M2 V2 G2 B2 : Mat 1 128) : Mat 25000 128 :=
  fun i => (Z2 i - M2 (ix2 0 (i 1))) * Ideal.rsqrt (V2 (ix2 0 (i 1)) + epsW) * G2 (ix2 0 (i 1)) + B2 (ix2 0 (i 1))

/-- Column mean and variance from the centred squares. -/
def meanCol (Z : Mat 50000 64) (c : Fin 64) : EReal := Ideal.div (zeroW + ∑ r : Fin 50000, Z (ix2 r c)) rowsW
def varCol (Z : Mat 50000 64) (c : Fin 64) : EReal :=
  Ideal.div (zeroW + ∑ r : Fin 50000, (Z (ix2 r c) - meanCol Z c) * (Z (ix2 r c) - meanCol Z c)) rowsW

/-- The normalised matrix from given column statistics `μ`, `v`, scale `g` and shift `b`. -/
def normWith (Z : Mat 50000 64) (μ v g b : Fin 64 → EReal) : Mat 50000 64 :=
  fun i => (Z i - μ (i 1)) * Ideal.rsqrt (v (i 1) + epsW) * g (i 1) + b (i 1)

/-- The head on the pooled matrix: `max ((X · Wl + Bl) · Wf + Bf) 0`. -/
def head (X : Mat 512 64) (Wl : Mat 64 128) (Bl : Mat 1 128) (Wf : Mat 128 64) (Bf : Mat 1 64) : Mat 512 64 :=
  fun i => max ((∑ k : Fin 128, ((∑ j : Fin 64, X (ix2 (i 0) j) * Wl (ix2 j k)) + Bl (ix2 0 k)) * Wf (ix2 k (i 1)))
      + Bf (ix2 0 (i 1))) zeroW

end Cert.GinSpec

end
-- ==== Proof.LibDotGeneralIdx.lean ====
/-
  The host's matrix product read entry by entry over the extended reals, for any extents: rows by columns
  (`[m, k] · [k, n]`, the entry at `(a, b)` is `∑ c, A (a, c) · B (c, b)`). The dimension numbers are written out
  literally, so a program's own record of them unifies with the statement by unfolding.
-/
import Idealize.ShloMosaic.Lib.ValueIdx
import Idealize.ShloMosaic.PureOps.Ideal.Laws

open scoped BigOperators

noncomputable section

namespace Cert.LibDotGeneralIdx

open Idealize.ShloMosaic Idealize.ShloMosaic.ValueIdx

/-- Rows by columns on the host: the entry at `(a, b)` of an `m × k` by `k × n` product is the sum over the
    contracted coordinate of the products of the two entries. -/
theorem dotGeneral_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (⟨[1], [0], [0], [1], [], [], w⟩ : DotDims ⟨2, ![m, k]⟩ ⟨2, ![k, n]⟩ ⟨2, ![m, n]⟩) prec A B
        (ix2 a b)
      = ∑ c : Fin k, A (ix2 a c) * B (ix2 c b) := by
  simp only [Host.dotGeneral]
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

end Cert.LibDotGeneralIdx

end
-- ==== Proof.RefOps.lean ====
/-
  The reference's whole-array operation trees read entry by entry.

  A jnp reference composes whole arrays: a matrix product on the host, a bias vector written as a one-row matrix and
  broadcast to every row, a rectifier against a broadcast zero; a column sum over the rows divided by the row count,
  the matrix less the broadcast mean, the mean of the centred squares, the reciprocal square root of variance plus
  offset, broadcast scale and shift.  Read at one entry `(r, c)` each of these is the plain formula over index types
  that the shared specification states: the product at `(a, b)` is `∑ k, X (a, k) · W (k, b)`; a vector broadcast to
  every row reads its entry `c`; a broadcast scalar reads the scalar; the sum over axis 0 at column `c` is the sum over
  the rows of the entries `(r, c)`.  The trees are stated over variables of the literal shapes, with the side
  conditions (broadcast, reduction and product well-formedness facts) as hypotheses, so any program's own record
  of them fits by unfolding.
-/
import proofs.«177788_j17205638988409_2_alg».proof.Proof.GinSpec
import proofs.«177788_j17205638988409_2_alg».proof.Proof.LibDotGeneralIdx
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

open scoped BigOperators

noncomputable section

namespace Cert.RefOps

open Idealize.ShloMosaic Idealize.ShloMosaic.ValueIdx Cert.GinSpec Cert.LibDotGeneralIdx

/-! ## Broadcasts read at an index -/

/-- A one-row matrix broadcast along both axes to `n` rows reads, at `(a, b)`, the row's entry `b`. -/
theorem bcastRows_apply {α : Type} {n m : Nat}
    (h2 : (⟨2, ![1, m]⟩ : Shape).BroadcastsInDim ⟨2, ![n, m]⟩ ![0, 1]) (x : (⟨2, ![1, m]⟩ : Shape).Idx → α)
    (a : Fin n) (b : Fin m) : broadcastInDim ⟨2, ![n, m]⟩ ![0, 1] h2 x (ix2 a b) = x (ix2 (0 : Fin 1) b) := by
  refine broadcastInDim_apply ![0, 1] h2 x (ix2 a b) (ix2 (0 : Fin 1) b) ?_
  intro c
  match c with
  | ⟨0, _⟩ => rfl
  | ⟨1, _⟩ =>
    show b.val = if m = 1 then 0 else b.val
    split
    · have := b.isLt; omega
    · rfl

/-- A vector written as a one-row matrix (broadcast along axis 1) reads, at `(a, b)`, the vector's entry `b`. -/
theorem bcastRow_apply {α : Type} {m : Nat}
    (h1 : (⟨1, ![m]⟩ : Shape).BroadcastsInDim ⟨2, ![1, m]⟩ ![1]) (x : (⟨1, ![m]⟩ : Shape).Idx → α)
    (a : Fin 1) (b : Fin m) : broadcastInDim ⟨2, ![1, m]⟩ ![1] h1 x (ix2 a b) = x (ix1 b) := by
  refine broadcastInDim_apply ![1] h1 x (ix2 a b) (ix1 b) ?_
  intro c
  match c with
  | ⟨0, _⟩ =>
    show b.val = if m = 1 then 0 else b.val
    split
    · have := b.isLt; omega
    · rfl

/-- A vector broadcast to every row of a matrix reads, at `(r, c)`, the vector's entry `c`. -/
theorem bcastVec_apply {α : Type} {n m : Nat}
    (h2 : (⟨2, ![1, m]⟩ : Shape).BroadcastsInDim ⟨2, ![n, m]⟩ ![0, 1])
    (h1 : (⟨1, ![m]⟩ : Shape).BroadcastsInDim ⟨2, ![1, m]⟩ ![1]) (v : (⟨1, ![m]⟩ : Shape).Idx → α)
    (r : Fin n) (c : Fin m) :
    broadcastInDim ⟨2, ![n, m]⟩ ![0, 1] h2 (broadcastInDim ⟨2, ![1, m]⟩ ![1] h1 v) (ix2 r c) = v (ix1 c) := by
  rw [bcastRows_apply, bcastRow_apply]

/-- The host's reciprocal square root at an index is the extended reals' one of the element. -/
theorem hostRsqrt_apply {s : Shape} {φ : FTy} (x : FVec Ideal s φ) (i : s.Idx) :
    Host.rsqrt x i = Ideal.rsqrt (x i) := rfl

/-! ## One dense layer with a rectifier, read at an entry -/

/-- `max (X · W + bias) 0` as the whole-array operations compose it, at the entry `(a, b)`. -/
theorem dense_relu_apply {n k m : Nat}
    (w : DotDims.WF ⟨2, ![n, k]⟩ ⟨2, ![k, m]⟩ ⟨2, ![n, m]⟩ [1] [0] [0] [1] [] [])
    (h2 : (⟨2, ![1, m]⟩ : Shape).BroadcastsInDim ⟨2, ![n, m]⟩ ![0, 1])
    (h1 : (⟨1, ![m]⟩ : Shape).BroadcastsInDim ⟨2, ![1, m]⟩ ![1])
    (h0 : (⟨0, ![]⟩ : Shape).BroadcastsInDim ⟨2, ![n, m]⟩ ![])
    (X : FVec Ideal ⟨2, ![n, k]⟩ .f32) (W : FVec Ideal ⟨2, ![k, m]⟩ .f32) (bv : FVec Ideal ⟨1, ![m]⟩ .f32)
    (a : Fin n) (b : Fin m) :
    maximumf (addf (Host.dotGeneral (F := Ideal) (⟨[1], [0], [0], [1], [], [], w⟩ : DotDims ⟨2, ![n, k]⟩ ⟨2, ![k, m]⟩ ⟨2, ![n, m]⟩) none X W)
        (broadcastInDim ⟨2, ![n, m]⟩ ![0, 1] h2 (broadcastInDim ⟨2, ![1, m]⟩ ![1] h1 bv)))
        (broadcastInDim ⟨2, ![n, m]⟩ ![] h0 (constant (F := Ideal) ⟨0, ![]⟩ .f32 0x00000000#32)) (ix2 a b)
      = max ((∑ c : Fin k, X (ix2 a c) * W (ix2 c b)) + broadcastInDim ⟨2, ![1, m]⟩ ![1] h1 bv (ix2 (0 : Fin 1) b))
          zeroW := by
  rw [maximumf_apply, addf_apply, dotGeneral_rc_apply, bcastRows_apply, broadcastInDim_scalar_apply, constant_apply]

/-- The same without the rectifier: `X · W + bias` at the entry `(a, b)`. -/
theorem dense_apply {n k m : Nat}
    (w : DotDims.WF ⟨2, ![n, k]⟩ ⟨2, ![k, m]⟩ ⟨2, ![n, m]⟩ [1] [0] [0] [1] [] [])
    (h2 : (⟨2, ![1, m]⟩ : Shape).BroadcastsInDim ⟨2, ![n, m]⟩ ![0, 1])
    (h1 : (⟨1, ![m]⟩ : Shape).BroadcastsInDim ⟨2, ![1, m]⟩ ![1])
    (X : FVec Ideal ⟨2, ![n, k]⟩ .f32) (W : FVec Ideal ⟨2, ![k, m]⟩ .f32) (bv : FVec Ideal ⟨1, ![m]⟩ .f32)
    (a : Fin n) (b : Fin m) :
    addf (Host.dotGeneral (F := Ideal) (⟨[1], [0], [0], [1], [], [], w⟩ : DotDims ⟨2, ![n, k]⟩ ⟨2, ![k, m]⟩ ⟨2, ![n, m]⟩) none X W)
        (broadcastInDim ⟨2, ![n, m]⟩ ![0, 1] h2 (broadcastInDim ⟨2, ![1, m]⟩ ![1] h1 bv)) (ix2 a b)
      = (∑ c : Fin k, X (ix2 a c) * W (ix2 c b)) + broadcastInDim ⟨2, ![1, m]⟩ ![1] h1 bv (ix2 (0 : Fin 1) b) := by
  rw [addf_apply, dotGeneral_rc_apply, bcastRows_apply]

/-! ## The perceptron's tree -/

/-- The reference's layer perceptron, as its whole-array operations compose, is `mlp` entry by entry. -/
theorem mlp_tree
    (w : DotDims.WF ⟨2, ![50000, 64]⟩ ⟨2, ![64, 64]⟩ ⟨2, ![50000, 64]⟩ [1] [0] [0] [1] [] [])
    (h2 : (⟨2, ![1, 64]⟩ : Shape).BroadcastsInDim ⟨2, ![50000, 64]⟩ ![0, 1])
    (h1 : (⟨1, ![64]⟩ : Shape).BroadcastsInDim ⟨2, ![1, 64]⟩ ![1])
    (h0 : (⟨0, ![]⟩ : Shape).BroadcastsInDim ⟨2, ![50000, 64]⟩ ![])
    (A H : FVec Ideal ⟨2, ![50000, 64]⟩ .f32) (Wa Wb : FVec Ideal ⟨2, ![64, 64]⟩ .f32)
    (ba bb : FVec Ideal ⟨1, ![64]⟩ .f32) :
    maximumf (addf (Host.dotGeneral (F := Ideal) (⟨[1], [0], [0], [1], [], [], w⟩ : DotDims ⟨2, ![50000, 64]⟩ ⟨2, ![64, 64]⟩ ⟨2, ![50000, 64]⟩) none
        (maximumf (addf (Host.dotGeneral (F := Ideal) (⟨[1], [0], [0], [1], [], [], w⟩ : DotDims ⟨2, ![50000, 64]⟩ ⟨2, ![64, 64]⟩ ⟨2, ![50000, 64]⟩) none (addf A H) Wa)
          (broadcastInDim ⟨2, ![50000, 64]⟩ ![0, 1] h2 (broadcastInDim ⟨2, ![1, 64]⟩ ![1] h1 ba)))
          (broadcastInDim ⟨2, ![50000, 64]⟩ ![] h0 (constant (F := Ideal) ⟨0, ![]⟩ .f32 0x00000000#32))) Wb)
        (broadcastInDim ⟨2, ![50000, 64]⟩ ![0, 1] h2 (broadcastInDim ⟨2, ![1, 64]⟩ ![1] h1 bb)))
        (broadcastInDim ⟨2, ![50000, 64]⟩ ![] h0 (constant (F := Ideal) ⟨0, ![]⟩ .f32 0x00000000#32))
      = mlp A H Wa (broadcastInDim ⟨2, ![1, 64]⟩ ![1] h1 ba) Wb (broadcastInDim ⟨2, ![1, 64]⟩ ![1] h1 bb) := by
  funext i
  obtain ⟨a, b, rfl⟩ : ∃ a b, i = ix2 a b := ⟨i 0, i 1, eq_ix2 i⟩
  rw [dense_relu_apply]
  unfold mlp
  refine congrArg (fun s => max (s + broadcastInDim ⟨2, ![1, 64]⟩ ![1] h1 bb (ix2 (0 : Fin 1) b)) zeroW)
    (Finset.sum_congr rfl fun c _ => ?_)
  rw [dense_relu_apply]
  rfl

/-! ## The normalisation's tree -/

/-- The host's sum over the rows, from the zero word, at column `c`. -/
theorem reduceRows_apply (hred : (⟨2, ![50000, 64]⟩ : Shape).ReducesTo [0] ⟨1, ![64]⟩)
    (hS : 0 < (⟨0, ![]⟩ : Shape).numel) (X : FVec Ideal ⟨2, ![50000, 64]⟩ .f32) (c : Fin 64) :
    Host.reduceAdd X (constant (F := Ideal) ⟨0, ![]⟩ .f32 0x00000000#32) hred hS (ix1 c) = zeroW + ∑ r : Fin 50000, X (ix2 r c) := by
  have h : (⟨2, ![50000, 64]⟩ : Shape).Reduces [0] ⟨1, ![64]⟩ := by decide
  rw [hostReduceAdd_apply, Ideal.hostReduceAdd_single hred h]
  refine congrArg (fun s => zeroW + s) (Finset.sum_congr rfl fun k _ => congrArg X ?_)
  funext a
  match a with
  | ⟨0, _⟩ => exact Fin.ext rfl
  | ⟨1, _⟩ => exact Fin.ext rfl

section Norm
variable
    (h2 : (⟨2, ![1, 64]⟩ : Shape).BroadcastsInDim ⟨2, ![50000, 64]⟩ ![0, 1])
    (h1 : (⟨1, ![64]⟩ : Shape).BroadcastsInDim ⟨2, ![1, 64]⟩ ![1])
    (hb : (⟨0, ![]⟩ : Shape).BroadcastsInDim ⟨1, ![64]⟩ ![])
    (hred : (⟨2, ![50000, 64]⟩ : Shape).ReducesTo [0] ⟨1, ![64]⟩) (hS : 0 < (⟨0, ![]⟩ : Shape).numel)
    (Z : FVec Ideal ⟨2, ![50000, 64]⟩ .f32)

/-- The reference's column mean, as its operations compose it, at column `c`. -/
theorem mean_tree_apply (c : Fin 64) : (Host.divf (Host.reduceAdd Z (constant (F := Ideal) ⟨0, ![]⟩ .f32 0x00000000#32) hred hS) (broadcastInDim ⟨1, ![64]⟩ ![] hb (constant (F := Ideal) ⟨0, ![]⟩ .f32 0x47435000#32))) (ix1 c) = meanCol Z c := by
  rw [hostDivf_apply, reduceRows_apply, broadcastInDim_scalar_apply, constant_apply]
  rfl

/-- The centred matrix at `(r, c)`. -/
theorem centred_tree_apply (r : Fin 50000) (c : Fin 64) :
    (subf Z (broadcastInDim ⟨2, ![50000, 64]⟩ ![0, 1] h2 (broadcastInDim ⟨2, ![1, 64]⟩ ![1] h1 (Host.divf (Host.reduceAdd Z (constant (F := Ideal) ⟨0, ![]⟩ .f32 0x00000000#32) hred hS) (broadcastInDim ⟨1, ![64]⟩ ![] hb (constant (F := Ideal) ⟨0, ![]⟩ .f32 0x47435000#32)))))) (ix2 r c) = Z (ix2 r c) - meanCol Z c := by
  rw [subf_apply, bcastVec_apply, mean_tree_apply]

/-- The reference's column variance (the mean of the centred squares) at column `c`. -/
theorem var_tree_apply (c : Fin 64) : (Host.divf (Host.reduceAdd (mulf (subf Z (broadcastInDim ⟨2, ![50000, 64]⟩ ![0, 1] h2 (broadcastInDim ⟨2, ![1, 64]⟩ ![1] h1 (Host.divf (Host.reduceAdd Z (constant (F := Ideal) ⟨0, ![]⟩ .f32 0x00000000#32) hred hS) (broadcastInDim ⟨1, ![64]⟩ ![] hb (constant (F := Ideal) ⟨0, ![]⟩ .f32 0x47435000#32)))))) (subf Z (broadcastInDim ⟨2, ![50000, 64]⟩ ![0, 1] h2 (broadcastInDim ⟨2, ![1, 64]⟩ ![1] h1 (Host.divf (Host.reduceAdd Z (constant (F := Ideal) ⟨0, ![]⟩ .f32 0x00000000#32) hred hS) (broadcastInDim ⟨1, ![64]⟩ ![] hb (constant (F := Ideal) ⟨0, ![]⟩ .f32 0x47435000#32))))))) (constant (F := Ideal) ⟨0, ![]⟩ .f32 0x00000000#32) hred hS) (broadcastInDim ⟨1, ![64]⟩ ![] hb (constant (F := Ideal) ⟨0, ![]⟩ .f32 0x47435000#32))) (ix1 c) = varCol Z c := by
  rw [hostDivf_apply, reduceRows_apply, broadcastInDim_scalar_apply, constant_apply]
  unfold varCol
  refine congrArg (fun s => Ideal.div (zeroW + s) rowsW) (Finset.sum_congr rfl fun r _ => ?_)
  rw [mulf_apply, centred_tree_apply]

/-- The reference's normalisation, as its whole-array operations compose, is `normWith` at the column statistics. -/
theorem norm_tree (g b : FVec Ideal ⟨1, ![64]⟩ .f32) :
    addf (mulf (mulf (subf Z (broadcastInDim ⟨2, ![50000, 64]⟩ ![0, 1] h2 (broadcastInDim ⟨2, ![1, 64]⟩ ![1] h1 (Host.divf (Host.reduceAdd Z (constant (F := Ideal) ⟨0, ![]⟩ .f32 0x00000000#32) hred hS) (broadcastInDim ⟨1, ![64]⟩ ![] hb (constant (F := Ideal) ⟨0, ![]⟩ .f32 0x47435000#32)))))) (broadcastInDim ⟨2, ![50000, 64]⟩ ![0, 1] h2 (broadcastInDim ⟨2, ![1, 64]⟩ ![1] h1 (Host.rsqrt (addf (Host.divf (Host.reduceAdd (mulf (subf Z (broadcastInDim ⟨2, ![50000, 64]⟩ ![0, 1] h2 (broadcastInDim ⟨2, ![1, 64]⟩ ![1] h1 (Host.divf (Host.reduceAdd Z (constant (F := Ideal) ⟨0, ![]⟩ .f32 0x00000000#32) hred hS) (broadcastInDim ⟨1, ![64]⟩ ![] hb (constant (F := Ideal) ⟨0, ![]⟩ .f32 0x47435000#32)))))) (subf Z (broadcastInDim ⟨2, ![50000, 64]⟩ ![0, 1] h2 (broadcastInDim ⟨2, ![1, 64]⟩ ![1] h1 (Host.divf (Host.reduceAdd Z (constant (F := Ideal) ⟨0, ![]⟩ .f32 0x00000000#32) hred hS) (broadcastInDim ⟨1, ![64]⟩ ![] hb (constant (F := Ideal) ⟨0, ![]⟩ .f32 0x47435000#32))))))) (constant (F := Ideal) ⟨0, ![]⟩ .f32 0x00000000#32) hred hS) (broadcastInDim ⟨1, ![64]⟩ ![] hb (constant (F := Ideal) ⟨0, ![]⟩ .f32 0x47435000#32))) (broadcastInDim ⟨1, ![64]⟩ ![] hb (constant (F := Ideal) ⟨0, ![]⟩ .f32 0x3727C5AC#32))))))) (broadcastInDim ⟨2, ![50000, 64]⟩ ![0, 1] h2 (broadcastInDim ⟨2, ![1, 64]⟩ ![1] h1 g))) (broadcastInDim ⟨2, ![50000, 64]⟩ ![0, 1] h2 (broadcastInDim ⟨2, ![1, 64]⟩ ![1] h1 b))
      = normWith Z (meanCol Z) (varCol Z) (fun c => g (ix1 c)) (fun c => b (ix1 c)) := by
  funext i
  obtain ⟨r, c, rfl⟩ : ∃ r c, i = ix2 r c := ⟨i 0, i 1, eq_ix2 i⟩
  rw [addf_apply, mulf_apply, mulf_apply, centred_tree_apply, bcastVec_apply, bcastVec_apply, bcastVec_apply,
    hostRsqrt_apply, addf_apply, var_tree_apply, broadcastInDim_scalar_apply, constant_apply]
  rfl

end Norm

/-! ## The head's tree -/

/-- The reference's head, as its whole-array operations compose, is `head` entry by entry. -/
theorem head_tree
    (w1 : DotDims.WF ⟨2, ![512, 64]⟩ ⟨2, ![64, 128]⟩ ⟨2, ![512, 128]⟩ [1] [0] [0] [1] [] [])
    (w2 : DotDims.WF ⟨2, ![512, 128]⟩ ⟨2, ![128, 64]⟩ ⟨2, ![512, 64]⟩ [1] [0] [0] [1] [] [])
    (h2l : (⟨2, ![1, 128]⟩ : Shape).BroadcastsInDim ⟨2, ![512, 128]⟩ ![0, 1])
    (h1l : (⟨1, ![128]⟩ : Shape).BroadcastsInDim ⟨2, ![1, 128]⟩ ![1])
    (h2f : (⟨2, ![1, 64]⟩ : Shape).BroadcastsInDim ⟨2, ![512, 64]⟩ ![0, 1])
    (h1f : (⟨1, ![64]⟩ : Shape).BroadcastsInDim ⟨2, ![1, 64]⟩ ![1])
    (h0 : (⟨0, ![]⟩ : Shape).BroadcastsInDim ⟨2, ![512, 64]⟩ ![])
    (X : FVec Ideal ⟨2, ![512, 64]⟩ .f32) (Wl : FVec Ideal ⟨2, ![64, 128]⟩ .f32) (bl : FVec Ideal ⟨1, ![128]⟩ .f32)
    (Wf : FVec Ideal ⟨2, ![128, 64]⟩ .f32) (bf : FVec Ideal ⟨1, ![64]⟩ .f32) :
    maximumf (addf (Host.dotGeneral (F := Ideal) (⟨[1], [0], [0], [1], [], [], w2⟩ : DotDims ⟨2, ![512, 128]⟩ ⟨2, ![128, 64]⟩ ⟨2, ![512, 64]⟩) none
        (addf (Host.dotGeneral (F := Ideal) (⟨[1], [0], [0], [1], [], [], w1⟩ : DotDims ⟨2, ![512, 64]⟩ ⟨2, ![64, 128]⟩ ⟨2, ![512, 128]⟩) none X Wl)
          (broadcastInDim ⟨2, ![512, 128]⟩ ![0, 1] h2l (broadcastInDim ⟨2, ![1, 128]⟩ ![1] h1l bl))) Wf)
        (broadcastInDim ⟨2, ![512, 64]⟩ ![0, 1] h2f (broadcastInDim ⟨2, ![1, 64]⟩ ![1] h1f bf)))
        (broadcastInDim ⟨2, ![512, 64]⟩ ![] h0 (constant (F := Ideal) ⟨0, ![]⟩ .f32 0x00000000#32))
      = head X Wl (broadcastInDim ⟨2, ![1, 128]⟩ ![1] h1l bl) Wf (broadcastInDim ⟨2, ![1, 64]⟩ ![1] h1f bf) := by
  funext i
  obtain ⟨a, b, rfl⟩ : ∃ a b, i = ix2 a b := ⟨i 0, i 1, eq_ix2 i⟩
  rw [dense_relu_apply]
  unfold head
  refine congrArg (fun s => max (s + broadcastInDim ⟨2, ![1, 64]⟩ ![1] h1f bf (ix2 (0 : Fin 1) b)) zeroW)
    (Finset.sum_congr rfl fun c _ => ?_)
  rw [dense_apply]

end Cert.RefOps

end
-- ==== Proof.NetSpec.lean ====
/-
  The whole network over the functions of the specification: three layers, each the column normalisation of the
  perceptron of `agg h + h`, then the head of the pooled matrix.  The neighbour aggregation `agg` (a gather of rows
  followed by an accumulating scatter along the edge list) and the pooling `pool` (an accumulating scatter along the
  graph assignment) enter as functions: both programs compute them by the same host operations, and only their
  preserving finiteness matters here.
-/
import proofs.«177788_j17205638988409_2_alg».proof.Proof.GinSpec

noncomputable section

namespace Cert.GinSpec

open Idealize.ShloMosaic Idealize.ShloMosaic.ValueIdx

/-- The perceptron output of a layer. -/
def layerZ (agg : Mat 50000 64 → Mat 50000 64) (h : Mat 50000 64) (wa : Mat 64 64) (ba : Mat 1 64) (wb : Mat 64 64)
    (bb : Mat 1 64) : Mat 50000 64 :=
  mlp (agg h) h wa ba wb bb

/-- One layer: the perceptron output normalised column by column with its own mean and variance. -/
def layer (agg : Mat 50000 64 → Mat 50000 64) (h : Mat 50000 64) (wa : Mat 64 64) (ba : Mat 1 64) (wb : Mat 64 64)
    (bb : Mat 1 64) (g be : Fin 64 → EReal) : Mat 50000 64 :=
  normWith (layerZ agg h wa ba wb bb) (meanCol (layerZ agg h wa ba wb bb)) (varCol (layerZ agg h wa ba wb bb)) g be

/-- The network. -/
def net (agg : Mat 50000 64 → Mat 50000 64) (pool : Mat 50000 64 → Mat 512 64) (x : Mat 50000 64)
    (wa1 : Mat 64 64) (ba1 : Mat 1 64) (wb1 : Mat 64 64) (bb1 : Mat 1 64) (g1 be1 : Fin 64 → EReal)
    (wa2 : Mat 64 64) (ba2 : Mat 1 64) (wb2 : Mat 64 64) (bb2 : Mat 1 64) (g2 be2 : Fin 64 → EReal)
    (wa3 : Mat 64 64) (ba3 : Mat 1 64) (wb3 : Mat 64 64) (bb3 : Mat 1 64) (g3 be3 : Fin 64 → EReal)
    (wl : Mat 64 128) (bl : Mat 1 128) (wf : Mat 128 64) (bf : Mat 1 64) : Mat 512 64 :=
  head (pool (layer agg (layer agg (layer agg x wa1 ba1 wb1 bb1 g1 be1) wa2 ba2 wb2 bb2 g2 be2) wa3 ba3 wb3 bb3 g3 be3))
    wl bl wf bf

end Cert.GinSpec

end
-- ==== Proof.BatchNormLaw.lean ====
/-
  The two ways of taking a column's mean and variance agree on real entries, and real entries stay real.

  A column of 50000 real numbers has mean `μ = (1/n) Σ z` and variance `(1/n) Σ (z - μ)²`.  The other route keeps,
  for each of ten tiles of 5000 rows, the tile's sums of `z` and of `z²` (each stored eight times), adds all
  eighty stored numbers, divides by eight and by `n`, and forms `E z² - μ²` clamped below at zero.  The eight
  copies cancel against the division by eight; the ten tiles of 5000 rows are exactly the 50000 rows
  (`(t, r) ↦ 5000 t + r` is a bijection); and in the reals `(1/n) Σ z² - μ² = (1/n) Σ (z - μ)²`, which is
  nonnegative, so the clamp does nothing.  All of it happens inside the reals: the extended reals' arithmetic on
  coerced reals is the reals' (sums, products, differences, maxima, division by a nonzero real).

  The second half shows that every stage of the network maps arrays of real entries to arrays of real entries; the
  one place that needs care is the reciprocal square root, taken of variance plus a positive offset, a positive real.
-/
import proofs.«177788_j17205638988409_2_alg».proof.Proof.GinSpec
import Idealize.ShloMosaic.PureOps.Ideal.Laws
import Mathlib

noncomputable section

open Idealize.ShloMosaic Idealize.ShloMosaic.ValueIdx
open scoped BigOperators

namespace Cert.GinSpec.Law

open Cert.GinSpec

/-- An array of extended reals every entry of which is a real number. -/
def FiniteArr {ι : Type} (f : ι → EReal) : Prop := ∀ i, ∃ x : ℝ, f i = (x : EReal)

/-- One extended real that is a real number. `FiniteArr f` says this of every `f i`. -/
abbrev IsReal (x : EReal) : Prop := ∃ r : ℝ, x = (r : EReal)

/-! ## The four float words -/

/-- The word of zero. -/
theorem zeroW_eq : zeroW = 0 := by
  show Ideal.ofBits .f32 0x00000000#32 = 0
  simp [Ideal.ofBits, Ideal.ieee]

/-- The row count: `(2^23 + 4411392) · 2^(142 - 150) = 50000`. -/
theorem rowsW_eq : rowsW = ((50000 : ℝ) : EReal) := by
  show Ideal.ofBits .f32 0x47435000#32 = _
  simp [Ideal.ofBits, Ideal.ieee, -EReal.coe_mul] <;> norm_num

/-- The replication count: `2^23 · 2^(130 - 150) = 8`. -/
theorem eightW_eq : eightW = ((8 : ℝ) : EReal) := by
  show Ideal.ofBits .f32 0x41000000#32 = _
  simp [Ideal.ofBits, Ideal.ieee, -EReal.coe_mul] <;> norm_num

/-- The variance offset is a positive real, `10995116 · 2^(-40)` (about `1e-5`). -/
theorem epsW_eq : ∃ e : ℝ, 0 < e ∧ epsW = (e : EReal) := by
  refine ⟨(10995116 : ℝ) * (2:ℝ) ^ (-40 : Int), by positivity, ?_⟩
  show Ideal.ofBits .f32 0x3727C5AC#32 = _
  simp [Ideal.ofBits, Ideal.ieee, -EReal.coe_mul] <;> norm_num

/-! ## Coercions out of sums and maxima -/

/-- The coercion of a finite real sum is the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion is monotone, so it commutes with the maximum. -/
theorem coe_max (a b : ℝ) : ((max a b : ℝ) : EReal) = max (a : EReal) (b : EReal) :=
  EReal.coe_strictMono.monotone.map_max

/-! ## Real numbers are closed under the operations that occur -/

theorem isReal_coe (r : ℝ) : IsReal (r : EReal) := ⟨r, rfl⟩
theorem isReal_zeroW : IsReal zeroW := ⟨0, by rw [zeroW_eq, EReal.coe_zero]⟩
theorem isReal_add {x y : EReal} (hx : IsReal x) (hy : IsReal y) : IsReal (x + y) := by
  obtain ⟨a, rfl⟩ := hx; obtain ⟨b, rfl⟩ := hy; exact ⟨a + b, (EReal.coe_add a b).symm⟩
theorem isReal_sub {x y : EReal} (hx : IsReal x) (hy : IsReal y) : IsReal (x - y) := by
  obtain ⟨a, rfl⟩ := hx; obtain ⟨b, rfl⟩ := hy; exact ⟨a - b, (EReal.coe_sub a b).symm⟩
theorem isReal_mul {x y : EReal} (hx : IsReal x) (hy : IsReal y) : IsReal (x * y) := by
  obtain ⟨a, rfl⟩ := hx; obtain ⟨b, rfl⟩ := hy; exact ⟨a * b, (EReal.coe_mul a b).symm⟩
theorem isReal_max {x y : EReal} (hx : IsReal x) (hy : IsReal y) : IsReal (max x y) := by
  obtain ⟨a, rfl⟩ := hx; obtain ⟨b, rfl⟩ := hy; exact ⟨max a b, (coe_max a b).symm⟩
theorem isReal_sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩
/-- Division by a nonzero real. -/
theorem isReal_div_coe {x : EReal} (hx : IsReal x) {y : ℝ} (hy : y ≠ 0) : IsReal (Ideal.div x (y : EReal)) := by
  rw [Ideal.div_coe hy]; exact isReal_mul hx (isReal_coe _)
/-- The reciprocal square root of a positive real is the real `(√r)⁻¹`. -/
theorem rsqrt_pos {r : ℝ} (hr : 0 < r) : Ideal.rsqrt (r : EReal) = (((Real.sqrt r)⁻¹ : ℝ) : EReal) := by
  rw [Ideal.rsqrt_coe, if_neg (not_lt.2 hr.le), if_neg hr.ne']
theorem isReal_rsqrt {r : ℝ} (hr : 0 < r) : IsReal (Ideal.rsqrt (r : EReal)) := ⟨_, rsqrt_pos hr⟩

/-! ## Ten tiles of 5000 rows are the 50000 rows -/

/-- Tile and row within the tile against the row: `(t, r) ↦ 5000 t + r`. -/
def tileEquiv : Fin 10 × Fin 5000 ≃ Fin 50000 where
  toFun p := tileRow p.1 p.2
  invFun i := (⟨i.val / 5000, by have := i.isLt; omega⟩, ⟨i.val % 5000, by omega⟩)
  left_inv p := by
    obtain ⟨t, r⟩ := p
    have ht := t.isLt; have hr := r.isLt
    exact Prod.ext (Fin.ext (by show (5000 * t.val + r.val) / 5000 = t.val; omega))
      (Fin.ext (by show (5000 * t.val + r.val) % 5000 = r.val; omega))
  right_inv i := Fin.ext (by show 5000 * (i.val / 5000) + i.val % 5000 = i.val; omega)

/-- A sum over the rows is the sum over the tiles of the sums over each tile's rows. -/
theorem sum_tiles {M : Type} [AddCommMonoid M] (f : Fin 50000 → M) :
    ∑ t : Fin 10, ∑ r : Fin 5000, f (tileRow t r) = ∑ i : Fin 50000, f i := by
  rw [← Equiv.sum_comp tileEquiv f, Fintype.sum_prod_type]
  rfl

/-- The stored partial sums — every tile's sum eight times over — added up, divided by eight and by the row count,
    are the mean over all rows. -/
theorem stored_sums (f : Fin 50000 → ℝ) :
    Ideal.div (Ideal.div (zeroW + ∑ t : Fin 10, ∑ _s : Fin 8, ((∑ r : Fin 5000, f (tileRow t r) : ℝ) : EReal)) eightW) rowsW
      = (((∑ i : Fin 50000, f i) * (1 / 50000) : ℝ) : EReal) := by
  rw [zeroW_eq, zero_add, eightW_eq, rowsW_eq, Ideal.div_coe (by norm_num), Ideal.div_coe (by norm_num)]
  simp only [← coe_sum, ← EReal.coe_mul]
  refine congrArg Real.toEReal ?_
  rw [← sum_tiles f]
  simp only [Finset.sum_const, Finset.card_univ, Fintype.card_fin, nsmul_eq_mul]
  rw [← Finset.mul_sum]
  push_cast
  ring

/-! ## The statistics law -/

section Stats
variable (Z : Mat 50000 64) (z : (⟨2, ![50000, 64]⟩ : Shape).Idx → ℝ) (hz : ∀ i, Z i = (z i : EReal)) (c : Fin 64)

/-- The real mean of column `c`. -/
def meanR : ℝ := (∑ i : Fin 50000, z (ix2 i c)) * (1 / 50000)
/-- The real variance of column `c`, from the centred squares. -/
def varR : ℝ := (∑ i : Fin 50000, (z (ix2 i c) - meanR z c) * (z (ix2 i c) - meanR z c)) * (1 / 50000)

theorem varR_nonneg : 0 ≤ varR z c :=
  mul_nonneg (Finset.sum_nonneg fun _ _ => mul_self_nonneg _) (by norm_num)

include hz in
theorem tileSums_eq (t : Fin 10) (s : Fin 8) :
    tileSums Z (ix3 t s c) = ((∑ r : Fin 5000, z (ix2 (tileRow t r) c) : ℝ) : EReal) := by
  show (∑ r : Fin 5000, Z (ix2 (tileRow t r) c)) = _
  rw [coe_sum]; exact Finset.sum_congr rfl fun r _ => hz _

include hz in
theorem tileSumSqs_eq (t : Fin 10) (s : Fin 8) :
    tileSumSqs Z (ix3 t s c)
      = ((∑ r : Fin 5000, z (ix2 (tileRow t r) c) * z (ix2 (tileRow t r) c) : ℝ) : EReal) := by
  show (∑ r : Fin 5000, Z (ix2 (tileRow t r) c) * Z (ix2 (tileRow t r) c)) = _
  rw [coe_sum]; exact Finset.sum_congr rfl fun r _ => by rw [hz, EReal.coe_mul]

include hz in
/-- The mean over all rows is the real mean. -/
theorem meanCol_eq : meanCol Z c = (meanR z c : EReal) := by
  unfold meanCol meanR
  simp only [hz]
  rw [zeroW_eq, zero_add, ← coe_sum, rowsW_eq, Ideal.div_coe (by norm_num), ← EReal.coe_mul]

include hz in
/-- The mean from the stored partial sums is the real mean. -/
theorem meanOfSums_eq : meanOfSums (tileSums Z) c = (meanR z c : EReal) := by
  unfold meanOfSums
  simp only [tileSums_eq Z z hz c]
  exact stored_sums fun i => z (ix2 i c)

include hz in
/-- The variance from the centred squares is the real variance. -/
theorem varCol_eq : varCol Z c = (varR z c : EReal) := by
  unfold varCol varR
  rw [meanCol_eq Z z hz c]
  simp only [hz, ← EReal.coe_sub, ← EReal.coe_mul, ← coe_sum]
  rw [zeroW_eq, zero_add, rowsW_eq, Ideal.div_coe (by norm_num), ← EReal.coe_mul]

/-- In the reals: the mean of the squares less the square of the mean is the mean of the centred squares. -/
theorem real_var (f : Fin 50000 → ℝ) :
    (∑ i, f i * f i) * (1 / 50000) - (∑ i, f i) * (1 / 50000) * ((∑ i, f i) * (1 / 50000))
      = (∑ i, (f i - (∑ i, f i) * (1 / 50000)) * (f i - (∑ i, f i) * (1 / 50000))) * (1 / 50000) := by
  generalize hm : (∑ i, f i) * (1 / 50000) = m
  have hS : ∑ i, f i = 50000 * m := by rw [← hm]; ring
  have h1 : ∑ i, (f i - m) * (f i - m) = (∑ i, f i * f i) - 2 * m * (∑ i, f i) + 50000 * (m * m) := by
    simp only [show ∀ i, (f i - m) * (f i - m) = f i * f i - 2 * m * f i + m * m from fun i => by ring]
    rw [Finset.sum_add_distrib, Finset.sum_sub_distrib, ← Finset.mul_sum, Finset.sum_const, Finset.card_univ,
      Fintype.card_fin, nsmul_eq_mul]
    push_cast
    ring
  rw [h1, hS]
  ring

include hz in
/-- The clamped variance from the stored partial sums is the real variance: the clamp is idle. -/
theorem varOfSums_eq : varOfSums (tileSums Z) (tileSumSqs Z) c = (varR z c : EReal) := by
  unfold varOfSums
  rw [meanOfSums_eq Z z hz c]
  simp only [tileSumSqs_eq Z z hz c]
  rw [stored_sums fun i => z (ix2 i c) * z (ix2 i c), ← EReal.coe_mul, ← EReal.coe_sub, zeroW_eq, ← EReal.coe_zero,
    ← coe_max]
  refine congrArg Real.toEReal ?_
  have h := real_var fun i => z (ix2 i c)
  unfold varR meanR
  rw [← h]
  exact max_eq_left (by rw [h]; exact varR_nonneg z c)

end Stats

/-- THE STATISTICS LAW, mean: on real entries the mean formed from the stored per-tile sums is the column mean. -/
theorem mean_law (Z : Mat 50000 64) (hZ : FiniteArr Z) (c : Fin 64) :
    meanOfSums (tileSums Z) c = meanCol Z c := by
  choose z hz using hZ
  rw [meanOfSums_eq Z z hz c, meanCol_eq Z z hz c]

/-- THE STATISTICS LAW, variance: on real entries `E z² - μ²` clamped at zero, formed from the stored per-tile sums,
    is the mean of the centred squares. -/
theorem var_law (Z : Mat 50000 64) (hZ : FiniteArr Z) (c : Fin 64) :
    varOfSums (tileSums Z) (tileSumSqs Z) c = varCol Z c := by
  choose z hz using hZ
  rw [varOfSums_eq Z z hz c, varCol_eq Z z hz c]

/-- The law as the normalisation uses it. -/
theorem normWith_law (Z : Mat 50000 64) (hZ : FiniteArr Z) (g b : Fin 64 → EReal) :
    normWith Z (meanOfSums (tileSums Z)) (varOfSums (tileSums Z) (tileSumSqs Z)) g b
      = normWith Z (meanCol Z) (varCol Z) g b := by
  have h1 : meanOfSums (tileSums Z) = meanCol Z := funext (mean_law Z hZ)
  have h2 : varOfSums (tileSums Z) (tileSumSqs Z) = varCol Z := funext (var_law Z hZ)
  rw [h1, h2]

/-! ## Finiteness is kept by every stage -/

/-- The perceptron of real arrays is real. -/
theorem finite_mlp {n : Nat} (A H : Mat n 64) (Wa : Mat 64 64) (Ba : Mat 1 64) (Wb : Mat 64 64) (Bb : Mat 1 64)
    (hA : FiniteArr A) (hH : FiniteArr H) (hWa : FiniteArr Wa) (hBa : FiniteArr Ba) (hWb : FiniteArr Wb)
    (hBb : FiniteArr Bb) : FiniteArr (mlp A H Wa Ba Wb Bb) := by
  intro i
  unfold mlp
  exact isReal_max (isReal_add (isReal_sum _ _ fun k => isReal_mul (isReal_max (isReal_add
    (isReal_sum _ _ fun j => isReal_mul (isReal_add (hA _) (hH _)) (hWa _)) (hBa _)) isReal_zeroW) (hWb _)) (hBb _))
    isReal_zeroW

/-- The head of real arrays is real. -/
theorem finite_head (X : Mat 512 64) (Wl : Mat 64 128) (Bl : Mat 1 128) (Wf : Mat 128 64) (Bf : Mat 1 64)
    (hX : FiniteArr X) (hWl : FiniteArr Wl) (hBl : FiniteArr Bl) (hWf : FiniteArr Wf) (hBf : FiniteArr Bf) :
    FiniteArr (head X Wl Bl Wf Bf) := by
  intro i
  unfold head
  exact isReal_max (isReal_add (isReal_sum _ _ fun k => isReal_mul (isReal_add
    (isReal_sum _ _ fun j => isReal_mul (hX _) (hWl _)) (hBl _)) (hWf _)) (hBf _)) isReal_zeroW

/-- The normalisation of a real matrix by its own column statistics, with real scale and shift, is real: the
    variance is a nonnegative real and the offset a positive one, so the reciprocal square root is taken of a
    positive real. -/
theorem finite_normWith (Z : Mat 50000 64) (g b : Fin 64 → EReal) (hZ : FiniteArr Z) (hg : FiniteArr g)
    (hb : FiniteArr b) : FiniteArr (normWith Z (meanCol Z) (varCol Z) g b) := by
  intro i
  choose z hz using hZ
  obtain ⟨e, he, hee⟩ := epsW_eq
  unfold normWith
  show IsReal ((Z i - meanCol Z (i 1)) * Ideal.rsqrt (varCol Z (i 1) + epsW) * g (i 1) + b (i 1))
  rw [varCol_eq Z z hz (i 1), meanCol_eq Z z hz (i 1), hee, ← EReal.coe_add]
  exact isReal_add (isReal_mul (isReal_mul (isReal_sub ⟨_, hz i⟩ (isReal_coe _))
    (isReal_rsqrt (add_pos_of_nonneg_of_pos (varR_nonneg z (i 1)) he))) (hg _)) (hb _)

/-- An accumulating scatter's shape: each entry plus a finite sum of update entries. -/
theorem finite_add_sum {ι κ : Type} (x : ι → EReal) (u : κ → EReal) (s : ι → Finset κ) (hx : FiniteArr x)
    (hu : FiniteArr u) : FiniteArr (fun i => x i + ∑ j ∈ s i, u j) :=
  fun i => isReal_add (hx i) (isReal_sum _ _ hu)

/-- Reading a real array through any index map gives a real array. -/
theorem finite_comp {ι κ : Type} (f : κ → EReal) (g : ι → κ) (hf : FiniteArr f) : FiniteArr (f ∘ g) :=
  fun i => hf (g i)

end Cert.GinSpec.Law

end
-- ==== Proof.RefNet.lean ====
/-
  The whole reference side: the run's result buffer holds the network of the specification.

  The reference is three layers and a head.  Each layer gathers the rows of its input at the edges' source nodes and
  adds them into the target nodes' rows (the aggregation), applies the perceptron to the sum with the input, and
  normalises each column by its mean and variance over all rows; the head pools the rows by graph and applies two
  dense maps and a rectifier.  The aggregation and the pooling are kept as the host operations the reference states
  (both programs compute them the same way); everything else is read entry by entry as the plain formulas of the
  specification.  Going from the innermost value outwards, each named intermediate value of the run is one of the
  specification's functions of the previous one.  Both host functions add finitely many entries to a zero, so they
  keep real entries real.
-/
import proofs.«177788_j17205638988409_2_alg».proof.Proof.Gen.ReferenceIdeal.Run
import proofs.«177788_j17205638988409_2_alg».proof.Proof.RefOps
import proofs.«177788_j17205638988409_2_alg».proof.Proof.NetSpec
import proofs.«177788_j17205638988409_2_alg».proof.Proof.BatchNormLaw

set_option maxRecDepth 32768

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo
open Cert.GinSpec Cert.GinSpec.Law Idealize.ShloMosaic.ValueIdx

/-! ## The two host functions, as the reference spells them -/

/-- The edges' source nodes: row 0 of the edge array, as a vector. -/
def srcIdx (e : IVec S2x800000 32) : IVec S800000 32 :=
  shapeCast _ (extractStridedSlice S1x800000 ![0, 0] e slices_S2x800000_S1x800000_0_0) shapeCasts_S1x800000_S800000

/-- The neighbour aggregation: the rows of `h` at the edges' source nodes (a negative index wrapped by the row
    count), added into the rows named by the edges' target nodes (row 1 of the edge array), from zero. -/
def aggR (e : IVec S2x800000 32) (h : FVec Ideal S50000x64 .f32) : FVec Ideal S50000x64 .f32 :=
  Host.scatterAdd (F := Ideal) scatter_S50000x64_S800000x1_S800000x64_1_0_0_1 (broadcastInDim S50000x64 ![] bcast_S_S50000x64 (constant (F := Ideal) S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x64_S800000x1_S800000x64_1_0_n_n_0_1_164 h (broadcastInDim S800000x1 ![0] bcast_S800000_S800000x1_0 (select (cmpi .slt (srcIdx e) (broadcastInDim S800000 ![] bcast_S_S800000 (constantI S_ 32 0#32))) (addi (srcIdx e) (broadcastInDim S800000 ![] bcast_S_S800000 (constantI S_ 32 50000#32))) (srcIdx e))))

/-- The pooling: the rows of `h` added into the rows named by the graph assignment, from zero. -/
def poolR (b : IVec S50000 32) (h : FVec Ideal S50000x64 .f32) : FVec Ideal S512x64 .f32 :=
  Host.scatterAdd (F := Ideal) scatter_S512x64_S50000x1_S50000x64_1_0_0_1 (broadcastInDim S512x64 ![] bcast_S_S512x64 (constant (F := Ideal) S_ .f32 0x00000000#32)) (broadcastInDim S50000x1 ![0] bcast_S50000_S50000x1_0 b) h

/-! ## Both keep real entries real -/

/-- Every entry of the aggregation is a zero plus a finite sum of entries of `h`. -/
theorem finite_aggR (e : IVec S2x800000 32) (h : FVec Ideal S50000x64 .f32) (hh : FiniteArr h) :
    FiniteArr (aggR e h) := by
  unfold aggR Host.scatterAdd
  exact finite_add_sum _ _ _ (fun _ => isReal_zeroW) (fun _ => hh _)

/-- Every entry of the pooled matrix is a zero plus a finite sum of entries of `h`. -/
theorem finite_poolR (b : IVec S50000 32) (h : FVec Ideal S50000x64 .f32) (hh : FiniteArr h) :
    FiniteArr (poolR b h) := by
  unfold poolR Host.scatterAdd
  exact finite_add_sum _ _ _ (fun _ => isReal_zeroW) hh

/-! ## One layer's perceptron and the head, with the host functions named -/

/-- The perceptron's tree on the aggregation of `h` plus `h` is the specification's perceptron output of a layer. -/
theorem layerZ_tree (e : IVec S2x800000 32) (h : FVec Ideal S50000x64 .f32) (wa wb : FVec Ideal S64x64 .f32)
    (ba bb : FVec Ideal S64 .f32) :
    maximumf (addf (Host.dotGeneral (F := Ideal) dot_S50000x64_S64x64_S50000x64_1_0_0_1_n_n none (maximumf (addf (Host.dotGeneral (F := Ideal) dot_S50000x64_S64x64_S50000x64_1_0_0_1_n_n none (addf (Host.scatterAdd (F := Ideal) scatter_S50000x64_S800000x1_S800000x64_1_0_0_1 (broadcastInDim S50000x64 ![] bcast_S_S50000x64 (constant (F := Ideal) S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x64_S800000x1_S800000x64_1_0_n_n_0_1_164 h (broadcastInDim S800000x1 ![0] bcast_S800000_S800000x1_0 (select (cmpi .slt (srcIdx e) (broadcastInDim S800000 ![] bcast_S_S800000 (constantI S_ 32 0#32))) (addi (srcIdx e) (broadcastInDim S800000 ![] bcast_S_S800000 (constantI S_ 32 50000#32))) (srcIdx e))))) h) wa) (broadcastInDim S50000x64 ![0, 1] bcast_S1x64_S50000x64_0_1 (broadcastInDim S1x64 ![1] bcast_S64_S1x64_1 ba))) (broadcastInDim S50000x64 ![] bcast_S_S50000x64 (constant (F := Ideal) S_ .f32 0x00000000#32))) wb) (broadcastInDim S50000x64 ![0, 1] bcast_S1x64_S50000x64_0_1 (broadcastInDim S1x64 ![1] bcast_S64_S1x64_1 bb))) (broadcastInDim S50000x64 ![] bcast_S_S50000x64 (constant (F := Ideal) S_ .f32 0x00000000#32))
      = layerZ (aggR e) h wa (broadcastInDim S1x64 ![1] bcast_S64_S1x64_1 ba) wb (broadcastInDim S1x64 ![1] bcast_S64_S1x64_1 bb) :=
  Cert.RefOps.mlp_tree _ _ _ _ (aggR e h) h _ _ _ _

/-- The head's tree on the pooling of `h` is the specification's head of the pooled matrix. -/
theorem head_pool_tree (b : IVec S50000 32) (h : FVec Ideal S50000x64 .f32) (wl : FVec Ideal S64x128 .f32)
    (bl : FVec Ideal S128 .f32) (wf : FVec Ideal S128x64 .f32) (bf : FVec Ideal S64 .f32) :
    maximumf (addf (Host.dotGeneral (F := Ideal) dot_S512x128_S128x64_S512x64_1_0_0_1_n_n none (addf (Host.dotGeneral (F := Ideal) dot_S512x64_S64x128_S512x128_1_0_0_1_n_n none (Host.scatterAdd (F := Ideal) scatter_S512x64_S50000x1_S50000x64_1_0_0_1 (broadcastInDim S512x64 ![] bcast_S_S512x64 (constant (F := Ideal) S_ .f32 0x00000000#32)) (broadcastInDim S50000x1 ![0] bcast_S50000_S50000x1_0 b) h) wl) (broadcastInDim S512x128 ![0, 1] bcast_S1x128_S512x128_0_1 (broadcastInDim S1x128 ![1] bcast_S128_S1x128_1 bl))) wf) (broadcastInDim S512x64 ![0, 1] bcast_S1x64_S512x64_0_1 (broadcastInDim S1x64 ![1] bcast_S64_S1x64_1 bf))) (broadcastInDim S512x64 ![] bcast_S_S512x64 (constant (F := Ideal) S_ .f32 0x00000000#32))
      = head (poolR b h) wl (broadcastInDim S1x128 ![1] bcast_S128_S1x128_1 bl) wf (broadcastInDim S1x64 ![1] bcast_S64_S1x64_1 bf) :=
  Cert.RefOps.head_tree _ _ _ _ _ _ _ (poolR b h) _ _ _ _

/-! ## The result's composed term, named

The text below is the run's composed term of the result buffer, letter for letter (it elaborates at a generic float
instance, where the arguments' formats are read off their types). -/

section Texts
variable {F : FTy → Type} [FloatOps F]

/-- Layer 3's output as the result's term spells it. -/
def n3Text (V0 : Valuation τ sig (Elt F)) : FVec F S50000x64 .f32 :=
  (addf (mulf (mulf (subf (res_main_v130 V0) (broadcastInDim S50000x64 ![0, 1] bcast_S1x64_S50000x64_0_1 (broadcastInDim S1x64 ![1] bcast_S64_S1x64_1 (res_main_v133 V0)))) (broadcastInDim S50000x64 ![0, 1] bcast_S1x64_S50000x64_0_1 (broadcastInDim S1x64 ![1] bcast_S64_S1x64_1 (Host.rsqrt (addf (Host.divf (Host.reduceAdd (mulf (res_main_v136 V0) (res_main_v136 V0)) (constant S_ .f32 0x00000000#32) reducesTo_S50000x64_S64_d0 h_S_) (broadcastInDim S64 ![] bcast_S_S64 (constant S_ .f32 0x47435000#32))) (broadcastInDim S64 ![] bcast_S_S64 (constant S_ .f32 0x3727C5AC#32))))))) (broadcastInDim S50000x64 ![0, 1] bcast_S1x64_S50000x64_0_1 (broadcastInDim S1x64 ![1] bcast_S64_S1x64_1 (V0 (Proc.devRef .tc main_arg19))))) (broadcastInDim S50000x64 ![0, 1] bcast_S1x64_S50000x64_0_1 (broadcastInDim S1x64 ![1] bcast_S64_S1x64_1 (V0 (Proc.devRef .tc main_arg20)))))

/-- The result buffer's composed term of the arguments. -/
def resText (V0 : Valuation τ sig (Elt F)) : (Proc.devRef .tc main_v168 : DevRef τ sig).ty.Contents (Elt F) :=
  maximumf (addf (Host.dotGeneral dot_S512x128_S128x64_S512x64_1_0_0_1_n_n none (addf (Host.dotGeneral dot_S512x64_S64x128_S512x128_1_0_0_1_n_n none (Host.scatterAdd scatter_S512x64_S50000x1_S50000x64_1_0_0_1 (broadcastInDim S512x64 ![] bcast_S_S512x64 (constant S_ .f32 0x00000000#32)) (broadcastInDim S50000x1 ![0] bcast_S50000_S50000x1_0 (V0 (Proc.devRef .tc main_arg2))) (addf (mulf (mulf (subf (res_main_v130 V0) (broadcastInDim S50000x64 ![0, 1] bcast_S1x64_S50000x64_0_1 (broadcastInDim S1x64 ![1] bcast_S64_S1x64_1 (res_main_v133 V0)))) (broadcastInDim S50000x64 ![0, 1] bcast_S1x64_S50000x64_0_1 (broadcastInDim S1x64 ![1] bcast_S64_S1x64_1 (Host.rsqrt (addf (Host.divf (Host.reduceAdd (mulf (res_main_v136 V0) (res_main_v136 V0)) (constant S_ .f32 0x00000000#32) reducesTo_S50000x64_S64_d0 h_S_) (broadcastInDim S64 ![] bcast_S_S64 (constant S_ .f32 0x47435000#32))) (broadcastInDim S64 ![] bcast_S_S64 (constant S_ .f32 0x3727C5AC#32))))))) (broadcastInDim S50000x64 ![0, 1] bcast_S1x64_S50000x64_0_1 (broadcastInDim S1x64 ![1] bcast_S64_S1x64_1 (V0 (Proc.devRef .tc main_arg19))))) (broadcastInDim S50000x64 ![0, 1] bcast_S1x64_S50000x64_0_1 (broadcastInDim S1x64 ![1] bcast_S64_S1x64_1 (V0 (Proc.devRef .tc main_arg20)))))) (V0 (Proc.devRef .tc main_arg21))) (broadcastInDim S512x128 ![0, 1] bcast_S1x128_S512x128_0_1 (broadcastInDim S1x128 ![1] bcast_S128_S1x128_1 (V0 (Proc.devRef .tc main_arg22))))) (V0 (Proc.devRef .tc main_arg23))) (broadcastInDim S512x64 ![0, 1] bcast_S1x64_S512x64_0_1 (broadcastInDim S1x64 ![1] bcast_S64_S1x64_1 (V0 (Proc.devRef .tc main_arg24))))) (broadcastInDim S512x64 ![] bcast_S_S512x64 (constant S_ .f32 0x00000000#32))

/-- It is what the run's last window leaves in the result buffer. -/
theorem val4_resText (V0 : Valuation τ sig (Elt F)) : val4 V0 (no_index (Proc.devRef .tc main_v168)) = resText V0 :=
  val4_main_v168 V0

end Texts

/-! ## The reference's result is the network of the specification -/

section Result
variable (L : Valuation τ sig (Elt Ideal))

/-- Layer 1's perceptron output. -/
theorem v26_eq : res_main_v26 (F := Ideal) L = (layerZ (aggR (L (Proc.devRef .tc main_arg1))) (L (Proc.devRef .tc main_arg0)) (L (Proc.devRef .tc main_arg3)) (broadcastInDim S1x64 ![1] bcast_S64_S1x64_1 (L (Proc.devRef .tc main_arg4))) (L (Proc.devRef .tc main_arg5)) (broadcastInDim S1x64 ![1] bcast_S64_S1x64_1 (L (Proc.devRef .tc main_arg6)))) := by
  unfold res_main_v26
  exact layerZ_tree _ _ _ _ _ _

/-- Layer 1's output. -/
theorem v51_eq : res_main_v51 (F := Ideal) L = (layer (aggR (L (Proc.devRef .tc main_arg1))) (L (Proc.devRef .tc main_arg0)) (L (Proc.devRef .tc main_arg3)) (broadcastInDim S1x64 ![1] bcast_S64_S1x64_1 (L (Proc.devRef .tc main_arg4))) (L (Proc.devRef .tc main_arg5)) (broadcastInDim S1x64 ![1] bcast_S64_S1x64_1 (L (Proc.devRef .tc main_arg6))) (fun k => (L (Proc.devRef .tc main_arg7)) (ix1 k)) (fun k => (L (Proc.devRef .tc main_arg8)) (ix1 k))) := by
  unfold res_main_v51 res_main_v32 res_main_v29
  rw [v26_eq L]
  exact Cert.RefOps.norm_tree _ _ _ _ _ _ _ _

/-- Layer 2's perceptron output. -/
theorem v78_eq : res_main_v78 (F := Ideal) L = (layerZ (aggR (L (Proc.devRef .tc main_arg1))) (layer (aggR (L (Proc.devRef .tc main_arg1))) (L (Proc.devRef .tc main_arg0)) (L (Proc.devRef .tc main_arg3)) (broadcastInDim S1x64 ![1] bcast_S64_S1x64_1 (L (Proc.devRef .tc main_arg4))) (L (Proc.devRef .tc main_arg5)) (broadcastInDim S1x64 ![1] bcast_S64_S1x64_1 (L (Proc.devRef .tc main_arg6))) (fun k => (L (Proc.devRef .tc main_arg7)) (ix1 k)) (fun k => (L (Proc.devRef .tc main_arg8)) (ix1 k))) (L (Proc.devRef .tc main_arg9)) (broadcastInDim S1x64 ![1] bcast_S64_S1x64_1 (L (Proc.devRef .tc main_arg10))) (L (Proc.devRef .tc main_arg11)) (broadcastInDim S1x64 ![1] bcast_S64_S1x64_1 (L (Proc.devRef .tc main_arg12)))) := by
  unfold res_main_v78
  rw [v51_eq L]
  exact layerZ_tree _ _ _ _ _ _

/-- Layer 2's output. -/
theorem v103_eq : res_main_v103 (F := Ideal) L = (layer (aggR (L (Proc.devRef .tc main_arg1))) (layer (aggR (L (Proc.devRef .tc main_arg1))) (L (Proc.devRef .tc main_arg0)) (L (Proc.devRef .tc main_arg3)) (broadcastInDim S1x64 ![1] bcast_S64_S1x64_1 (L (Proc.devRef .tc main_arg4))) (L (Proc.devRef .tc main_arg5)) (broadcastInDim S1x64 ![1] bcast_S64_S1x64_1 (L (Proc.devRef .tc main_arg6))) (fun k => (L (Proc.devRef .tc main_arg7)) (ix1 k)) (fun k => (L (Proc.devRef .tc main_arg8)) (ix1 k))) (L (Proc.devRef .tc main_arg9)) (broadcastInDim S1x64 ![1] bcast_S64_S1x64_1 (L (Proc.devRef .tc main_arg10))) (L (Proc.devRef .tc main_arg11)) (broadcastInDim S1x64 ![1] bcast_S64_S1x64_1 (L (Proc.devRef .tc main_arg12))) (fun k => (L (Proc.devRef .tc main_arg13)) (ix1 k)) (fun k => (L (Proc.devRef .tc main_arg14)) (ix1 k))) := by
  unfold res_main_v103 res_main_v84 res_main_v81
  rw [v78_eq L]
  exact Cert.RefOps.norm_tree _ _ _ _ _ _ _ _

/-- Layer 3's perceptron output. -/
theorem v130_eq : res_main_v130 (F := Ideal) L = (layerZ (aggR (L (Proc.devRef .tc main_arg1))) (layer (aggR (L (Proc.devRef .tc main_arg1))) (layer (aggR (L (Proc.devRef .tc main_arg1))) (L (Proc.devRef .tc main_arg0)) (L (Proc.devRef .tc main_arg3)) (broadcastInDim S1x64 ![1] bcast_S64_S1x64_1 (L (Proc.devRef .tc main_arg4))) (L (Proc.devRef .tc main_arg5)) (broadcastInDim S1x64 ![1] bcast_S64_S1x64_1 (L (Proc.devRef .tc main_arg6))) (fun k => (L (Proc.devRef .tc main_arg7)) (ix1 k)) (fun k => (L (Proc.devRef .tc main_arg8)) (ix1 k))) (L (Proc.devRef .tc main_arg9)) (broadcastInDim S1x64 ![1] bcast_S64_S1x64_1 (L (Proc.devRef .tc main_arg10))) (L (Proc.devRef .tc main_arg11)) (broadcastInDim S1x64 ![1] bcast_S64_S1x64_1 (L (Proc.devRef .tc main_arg12))) (fun k => (L (Proc.devRef .tc main_arg13)) (ix1 k)) (fun k => (L (Proc.devRef .tc main_arg14)) (ix1 k))) (L (Proc.devRef .tc main_arg15)) (broadcastInDim S1x64 ![1] bcast_S64_S1x64_1 (L (Proc.devRef .tc main_arg16))) (L (Proc.devRef .tc main_arg17)) (broadcastInDim S1x64 ![1] bcast_S64_S1x64_1 (L (Proc.devRef .tc main_arg18)))) := by
  unfold res_main_v130
  rw [v103_eq L]
  exact layerZ_tree _ _ _ _ _ _

/-- Layer 3's output. -/
theorem n3_eq : n3Text (F := Ideal) L = (layer (aggR (L (Proc.devRef .tc main_arg1))) (layer (aggR (L (Proc.devRef .tc main_arg1))) (layer (aggR (L (Proc.devRef .tc main_arg1))) (L (Proc.devRef .tc main_arg0)) (L (Proc.devRef .tc main_arg3)) (broadcastInDim S1x64 ![1] bcast_S64_S1x64_1 (L (Proc.devRef .tc main_arg4))) (L (Proc.devRef .tc main_arg5)) (broadcastInDim S1x64 ![1] bcast_S64_S1x64_1 (L (Proc.devRef .tc main_arg6))) (fun k => (L (Proc.devRef .tc main_arg7)) (ix1 k)) (fun k => (L (Proc.devRef .tc main_arg8)) (ix1 k))) (L (Proc.devRef .tc main_arg9)) (broadcastInDim S1x64 ![1] bcast_S64_S1x64_1 (L (Proc.devRef .tc main_arg10))) (L (Proc.devRef .tc main_arg11)) (broadcastInDim S1x64 ![1] bcast_S64_S1x64_1 (L (Proc.devRef .tc main_arg12))) (fun k => (L (Proc.devRef .tc main_arg13)) (ix1 k)) (fun k => (L (Proc.devRef .tc main_arg14)) (ix1 k))) (L (Proc.devRef .tc main_arg15)) (broadcastInDim S1x64 ![1] bcast_S64_S1x64_1 (L (Proc.devRef .tc main_arg16))) (L (Proc.devRef .tc main_arg17)) (broadcastInDim S1x64 ![1] bcast_S64_S1x64_1 (L (Proc.devRef .tc main_arg18))) (fun k => (L (Proc.devRef .tc main_arg19)) (ix1 k)) (fun k => (L (Proc.devRef .tc main_arg20)) (ix1 k))) := by
  unfold n3Text res_main_v136 res_main_v133
  rw [v130_eq L]
  exact Cert.RefOps.norm_tree _ _ _ _ _ _ _ _

/-- THE REFERENCE'S RESULT: the composed term of the run's result buffer is the network of the specification, with
    the two host functions above for aggregation and pooling. -/
theorem result_eq : resText (F := Ideal) L
      = net (aggR (L (Proc.devRef .tc main_arg1))) (poolR (L (Proc.devRef .tc main_arg2))) (L (Proc.devRef .tc main_arg0)) (L (Proc.devRef .tc main_arg3)) (broadcastInDim S1x64 ![1] bcast_S64_S1x64_1 (L (Proc.devRef .tc main_arg4))) (L (Proc.devRef .tc main_arg5)) (broadcastInDim S1x64 ![1] bcast_S64_S1x64_1 (L (Proc.devRef .tc main_arg6))) (fun k => (L (Proc.devRef .tc main_arg7)) (ix1 k)) (fun k => (L (Proc.devRef .tc main_arg8)) (ix1 k)) (L (Proc.devRef .tc main_arg9)) (broadcastInDim S1x64 ![1] bcast_S64_S1x64_1 (L (Proc.devRef .tc main_arg10))) (L (Proc.devRef .tc main_arg11)) (broadcastInDim S1x64 ![1] bcast_S64_S1x64_1 (L (Proc.devRef .tc main_arg12))) (fun k => (L (Proc.devRef .tc main_arg13)) (ix1 k)) (fun k => (L (Proc.devRef .tc main_arg14)) (ix1 k)) (L (Proc.devRef .tc main_arg15)) (broadcastInDim S1x64 ![1] bcast_S64_S1x64_1 (L (Proc.devRef .tc main_arg16))) (L (Proc.devRef .tc main_arg17)) (broadcastInDim S1x64 ![1] bcast_S64_S1x64_1 (L (Proc.devRef .tc main_arg18))) (fun k => (L (Proc.devRef .tc main_arg19)) (ix1 k)) (fun k => (L (Proc.devRef .tc main_arg20)) (ix1 k)) (L (Proc.devRef .tc main_arg21)) (broadcastInDim S1x128 ![1] bcast_S128_S1x128_1 (L (Proc.devRef .tc main_arg22))) (L (Proc.devRef .tc main_arg23)) (broadcastInDim S1x64 ![1] bcast_S64_S1x64_1 (L (Proc.devRef .tc main_arg24))) := by
  have h3 := n3_eq L
  unfold n3Text at h3
  unfold resText
  rw [h3]
  exact head_pool_tree _ _ _ _ _ _

end Result

/-! ## The run, restated -/

/-- Every weakly fair execution of the reference terminates with its result buffer at the network of the
    specification applied to the launch contents of the arguments, and the arguments unchanged. -/
theorem run_net (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v168) = net (aggR (m' ((c.tc : Thread nD τ).loc main_arg1))) (poolR (m' ((c.tc : Thread nD τ).loc main_arg2))) (m' ((c.tc : Thread nD τ).loc main_arg0)) (m' ((c.tc : Thread nD τ).loc main_arg3)) (broadcastInDim S1x64 ![1] bcast_S64_S1x64_1 (m' ((c.tc : Thread nD τ).loc main_arg4))) (m' ((c.tc : Thread nD τ).loc main_arg5)) (broadcastInDim S1x64 ![1] bcast_S64_S1x64_1 (m' ((c.tc : Thread nD τ).loc main_arg6))) (fun k => (m' ((c.tc : Thread nD τ).loc main_arg7)) (ix1 k)) (fun k => (m' ((c.tc : Thread nD τ).loc main_arg8)) (ix1 k)) (m' ((c.tc : Thread nD τ).loc main_arg9)) (broadcastInDim S1x64 ![1] bcast_S64_S1x64_1 (m' ((c.tc : Thread nD τ).loc main_arg10))) (m' ((c.tc : Thread nD τ).loc main_arg11)) (broadcastInDim S1x64 ![1] bcast_S64_S1x64_1 (m' ((c.tc : Thread nD τ).loc main_arg12))) (fun k => (m' ((c.tc : Thread nD τ).loc main_arg13)) (ix1 k)) (fun k => (m' ((c.tc : Thread nD τ).loc main_arg14)) (ix1 k)) (m' ((c.tc : Thread nD τ).loc main_arg15)) (broadcastInDim S1x64 ![1] bcast_S64_S1x64_1 (m' ((c.tc : Thread nD τ).loc main_arg16))) (m' ((c.tc : Thread nD τ).loc main_arg17)) (broadcastInDim S1x64 ![1] bcast_S64_S1x64_1 (m' ((c.tc : Thread nD τ).loc main_arg18))) (fun k => (m' ((c.tc : Thread nD τ).loc main_arg19)) (ix1 k)) (fun k => (m' ((c.tc : Thread nD τ).loc main_arg20)) (ix1 k)) (m' ((c.tc : Thread nD τ).loc main_arg21)) (broadcastInDim S1x128 ![1] bcast_S128_S1x128_1 (m' ((c.tc : Thread nD τ).loc main_arg22))) (m' ((c.tc : Thread nD τ).loc main_arg23)) (broadcastInDim S1x64 ![1] bcast_S64_S1x64_1 (m' ((c.tc : Thread nD τ).loc main_arg24)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24) :=
  (θ_run defs _ _).mono (fun _ h c => ⟨(h c).1.trans (result_eq _), (h c).2⟩) (Value.run (F := Ideal) m' ρ')

end Cert.ReferenceIdeal.RefValue

end
-- ==== Proof.Claims.lean ====
/-
  The five claims, assembled.

  The three frame claims are the generated run theorems with their result conjunct dropped; the idealization rewrote
  nothing, so its claim is trivial.  The algebraic claim pairs the two runs: the kernel program's run leaves its result
  buffer at the contents its last region's write-backs produce, the reference's run leaves its result buffer at the
  network of the specification applied to its own arguments, and the two memories agree on the arguments.  What
  remains is the kernel's VALUE: that those final contents are the network of the specification applied to the
  kernel's arguments, on inputs with real entries.  It enters here as a hypothesis.
-/
import proofs.«177788_j17205638988409_2_alg».proof.Defs
import proofs.«177788_j17205638988409_2_alg».proof.Proof.Gen.Kernel.Frame
import proofs.«177788_j17205638988409_2_alg».proof.Proof.Gen.KernelIdeal.Frame
import proofs.«177788_j17205638988409_2_alg».proof.Proof.KernelRun
import proofs.«177788_j17205638988409_2_alg».proof.Proof.RefNet
import proofs.«177788_j17205638988409_2_alg».proof.Proof.Gen.Pre_finite_inputs

set_option maxRecDepth 32768

noncomputable section

namespace Cert.Proof.Parts

open Idealize.ShloMosaic Idealize.ShloMosaic.TcCoe Idealize.SL.Sem Idealize.ShloMosaic.ValueIdx
open Cert.ReferenceIdeal.RefValue

/-- The kernel program runs and leaves its arguments as launched. -/
theorem frame_k : Cert.frame_Kernel := fun m ρ _ => Cert.Kernel.Gen.frame m ρ

/-- So does the kernel program read at the extended reals. -/
theorem frame_ki : Cert.frame_KernelIdeal := fun m ρ _ => Cert.KernelIdeal.Gen.frame m ρ

/-- So does the reference: its run theorem without the result conjunct. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The network of the specification applied to the kernel program's launch contents on device `c`: aggregation and
    pooling are the reference's host functions, biases are read as one-row matrices, scales and shifts as functions
    of the column. -/
def netOf (m : (ℓ : Loc Cert.KernelIdeal.nD Cert.KernelIdeal.τ Cert.KernelIdeal.sig) → Buf (Elt Ideal) ℓ) (c : Dev Cert.KernelIdeal.nD) :
    FVec Ideal Cert.ReferenceIdeal.S512x64 .f32 :=
  Cert.GinSpec.net (aggR (m ((c.tc : Thread Cert.KernelIdeal.nD Cert.KernelIdeal.τ).loc Cert.KernelIdeal.main_arg1))) (poolR (m ((c.tc : Thread Cert.KernelIdeal.nD Cert.KernelIdeal.τ).loc Cert.KernelIdeal.main_arg2))) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (broadcastInDim Cert.ReferenceIdeal.S1x64 ![1] Cert.ReferenceIdeal.Gen.bcast_S64_S1x64_1 (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (broadcastInDim Cert.ReferenceIdeal.S1x64 ![1] Cert.ReferenceIdeal.Gen.bcast_S64_S1x64_1 (m ((c.tc : Thread Cert.KernelIdeal.nD Cert.KernelIdeal.τ).loc Cert.KernelIdeal.main_arg6))) (fun k => (m ((c.tc : Thread Cert.KernelIdeal.nD Cert.KernelIdeal.τ).loc Cert.KernelIdeal.main_arg7)) (ix1 k)) (fun k => (m ((c.tc : Thread Cert.KernelIdeal.nD Cert.KernelIdeal.τ).loc Cert.KernelIdeal.main_arg8)) (ix1 k)) (m ((c.tc : Thread Cert.KernelIdeal.nD Cert.KernelIdeal.τ).loc Cert.KernelIdeal.main_arg9)) (broadcastInDim Cert.ReferenceIdeal.S1x64 ![1] Cert.ReferenceIdeal.Gen.bcast_S64_S1x64_1 (m ((c.tc : Thread Cert.KernelIdeal.nD Cert.KernelIdeal.τ).loc Cert.KernelIdeal.main_arg10))) (m ((c.tc : Thread Cert.KernelIdeal.nD Cert.KernelIdeal.τ).loc Cert.KernelIdeal.main_arg11)) (broadcastInDim Cert.ReferenceIdeal.S1x64 ![1] Cert.ReferenceIdeal.Gen.bcast_S64_S1x64_1 (m ((c.tc : Thread Cert.KernelIdeal.nD Cert.KernelIdeal.τ).loc Cert.KernelIdeal.main_arg12))) (fun k => (m ((c.tc : Thread Cert.KernelIdeal.nD Cert.KernelIdeal.τ).loc Cert.KernelIdeal.main_arg13)) (ix1 k)) (fun k => (m ((c.tc : Thread Cert.KernelIdeal.nD Cert.KernelIdeal.τ).loc Cert.KernelIdeal.main_arg14)) (ix1 k)) (m ((c.tc : Thread Cert.KernelIdeal.nD Cert.KernelIdeal.τ).loc Cert.KernelIdeal.main_arg15)) (broadcastInDim Cert.ReferenceIdeal.S1x64 ![1] Cert.ReferenceIdeal.Gen.bcast_S64_S1x64_1 (m ((c.tc : Thread Cert.KernelIdeal.nD Cert.KernelIdeal.τ).loc Cert.KernelIdeal.main_arg16))) (m ((c.tc : Thread Cert.KernelIdeal.nD Cert.KernelIdeal.τ).loc Cert.KernelIdeal.main_arg17)) (broadcastInDim Cert.ReferenceIdeal.S1x64 ![1] Cert.ReferenceIdeal.Gen.bcast_S64_S1x64_1 (m ((c.tc : Thread Cert.KernelIdeal.nD Cert.KernelIdeal.τ).loc Cert.KernelIdeal.main_arg18))) (fun k => (m ((c.tc : Thread Cert.KernelIdeal.nD Cert.KernelIdeal.τ).loc Cert.KernelIdeal.main_arg19)) (ix1 k)) (fun k => (m ((c.tc : Thread Cert.KernelIdeal.nD Cert.KernelIdeal.τ).loc Cert.KernelIdeal.main_arg20)) (ix1 k)) (m ((c.tc : Thread Cert.KernelIdeal.nD Cert.KernelIdeal.τ).loc Cert.KernelIdeal.main_arg21)) (broadcastInDim Cert.ReferenceIdeal.S1x128 ![1] Cert.ReferenceIdeal.Gen.bcast_S128_S1x128_1 (m ((c.tc : Thread Cert.KernelIdeal.nD Cert.KernelIdeal.τ).loc Cert.KernelIdeal.main_arg22))) (m ((c.tc : Thread Cert.KernelIdeal.nD Cert.KernelIdeal.τ).loc Cert.KernelIdeal.main_arg23)) (broadcastInDim Cert.ReferenceIdeal.S1x64 ![1] Cert.ReferenceIdeal.Gen.bcast_S64_S1x64_1 (m ((c.tc : Thread Cert.KernelIdeal.nD Cert.KernelIdeal.τ).loc Cert.KernelIdeal.main_arg24)))

/-- THE ALGEBRAIC CLAIM from the kernel's value: if on inputs with real entries the kernel program's final result
    contents are the network of the specification applied to its arguments, then from memories agreeing on the
    arguments both programs run, end with equal results, and leave the arguments unchanged. -/
theorem algebraic_of_value
    (hval : ∀ (m : (ℓ : Loc Cert.KernelIdeal.nD Cert.KernelIdeal.τ Cert.KernelIdeal.sig) → Buf (Elt Ideal) ℓ) (ρ : Dev Cert.KernelIdeal.nD → PrngReg),
      Cert.Pre_KernelIdeal m → ∀ c : Dev Cert.KernelIdeal.nD,
        Cert.KernelIdeal.Gen.W14 (F := Ideal) m ρ c (Proc.devRef .tc Cert.KernelIdeal.main_v136) = netOf m c) :
    Cert.algebraic_KernelIdeal_ReferenceIdeal := by
  intro m ρ m' ρ' hpre hagree
  refine ⟨fun c => netOf m c, ?_, ?_⟩
  · exact (θ_run Cert.KernelIdeal.defs _ _).mono (fun r h c => ⟨(h c).1.trans (hval m ρ hpre c), (h c).2⟩)
      (Cert.KernelIdeal.Gen.run_result (F := Ideal) m ρ)
  · refine (θ_run Cert.ReferenceIdeal.defs _ _).mono (fun r h c => ⟨?_, (h c).2⟩) (run_net m' ρ')
    obtain ⟨a0, a1, a2, a3, a4, a5, a6, a7, a8, a9, a10, a11, a12, a13, a14, a15, a16, a17, a18, a19, a20, a21, a22, a23, a24⟩ := hagree c
    rw [(h c).1, a0, a1, a2, a3, a4, a5, a6, a7, a8, a9, a10, a11, a12, a13, a14, a15, a16, a17, a18, a19, a20, a21, a22, a23, a24]
    rfl

end Cert.Proof.Parts

end
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.Stage1Payload.lean ====
/-
  The arithmetic of one stage-1 block, read index by index over the extended reals.

  A block is 5000 rows of 64 features.  The body adds the two input blocks, multiplies by a 64 × 64 matrix, adds a
  bias row, takes the positive part, and does the same once more: that is the perceptron of the specification on
  the block's rows.  It then sums each column of the result, and of its squares, over the block's 5000 rows, and
  stores each row of 64 sums eight times over (one copy per sublane).  The format changes between the two float
  widths are the identity on extended reals, so nothing is rounded here.
-/
import proofs.«177788_j17205638988409_2_alg».proof.Proof.Gen.KernelIdeal.Skeleton
import proofs.«177788_j17205638988409_2_alg».proof.Proof.GinSpec
import proofs.«177788_j17205638988409_2_alg».proof.Proof.LibMatmulIdx
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.Stage1

open Cert.KernelIdeal Cert.KernelIdeal.Gen Idealize.ShloMosaic Idealize.ShloMosaic.ValueIdx
open Cert.GinSpec (zeroW)

/-- The block's result at row p and column q: the two-layer perceptron on the sum of the two input rows p. -/
theorem pay2_apply (x0 : FVec Ideal S5000x64 .f32) (x1 : FVec Ideal S5000x64 .bf16) (x2 : FVec Ideal S64x64 .f32)
    (x3 : FVec Ideal S1x64 .f32) (x4 : FVec Ideal S64x64 .f32) (x5 : FVec Ideal S1x64 .f32) (p : Fin 5000) (q : Fin 64) :
    k0_pay2 (F := Ideal) x0 x1 x2 x3 x4 x5 (ix2 p q)
      = max ((∑ k : Fin 64, max ((∑ j : Fin 64, (x0 (ix2 p j) + x1 (ix2 p j)) * x2 (ix2 j k)) + x3 (ix2 0 k)) zeroW
          * x4 (ix2 k q)) + x5 (ix2 0 q)) zeroW := by
  have hB : ∀ (x : FVec Ideal S1x64 .f32) (r : Fin 5000) (c : Fin 64),
      broadcastTo S5000x64 (shapeCast S1x64 x shapeCasts_S1x64_S1x64) broadcasts_S1x64_S5000x64 (ix2 r c) = x (ix2 0 c) := by
    intro x r c
    rw [shapeCast_self]
    exact broadcastTo_1b_ab_apply x _ r c
  unfold k0_pay2
  refine (maximumf_apply _ _ _).trans ?_
  refine congrArg₂ max ?_ rfl
  refine (addf_apply _ _ _).trans ?_
  refine congrArg₂ (· + ·) ?_ (hB x5 p q)
  refine (Cert.LibMatmulIdx.matmul_rc_apply _ none _ _ p q).trans ?_
  refine Finset.sum_congr rfl fun k _ => ?_
  refine congrArg₂ (· * ·) ?_ rfl
  refine (truncf_apply (φ := .f32) (ψ := .bf16) _ bitsLt_bf16_f32 (ix2 p k)).trans ?_
  refine (maximumf_apply _ _ _).trans ?_
  refine congrArg₂ max ?_ rfl
  refine (addf_apply _ _ _).trans ?_
  refine congrArg₂ (· + ·) ?_ (hB x3 p k)
  refine (Cert.LibMatmulIdx.matmul_rc_apply _ none _ _ p k).trans ?_
  refine Finset.sum_congr rfl fun j _ => ?_
  rw [shapeCast_self, shapeCast_self]
  rfl

/-- The stage-1 block payload is the perceptron of the loaded blocks. -/
theorem pay2_eq (x0 : FVec Ideal S5000x64 .f32) (x1 : FVec Ideal S5000x64 .bf16) (x2 : FVec Ideal S64x64 .f32)
    (x3 : FVec Ideal S1x64 .f32) (x4 : FVec Ideal S64x64 .f32) (x5 : FVec Ideal S1x64 .f32) :
    k0_pay2 (F := Ideal) x0 x1 x2 x3 x4 x5 = Cert.GinSpec.mlp (n := 5000) x0 x1 x2 x3 x4 x5 := by
  funext j
  obtain ⟨p, q, rfl⟩ : ∃ (p : Fin 5000) (q : Fin 64), j = ix2 p q := ⟨j 0, j 1, eq_ix2 j⟩
  exact pay2_apply x0 x1 x2 x3 x4 x5 p q

/-- A column sum of a 5000-row block kept as a row, given a unit axis and copied over eight sublanes, read at any
    sublane and a column: the sum over the block's rows of that column. -/
theorem rowsum_bcast_apply (z : FVec Ideal S5000x64 .f32) (s : Fin 8) (q : Fin 64) :
    broadcastTo S1x8x64
        (shapeCast S1x1x64
          (shapeCast S1x1x64
            (shapeCast S1x64
              (multiReduction .add [0] S64 z 0x00000000#32 reduces_S5000x64_S64 (.inl rfl) rfl)
              shapeCasts_S64_S1x64)
            shapeCasts_S1x64_S1x1x64)
          shapeCasts_S1x1x64_S1x1x64)
        broadcasts_S1x1x64_S1x8x64 (ix3 (0 : Fin 1) s q)
      = ∑ r : Fin 5000, z (ix2 r q) := by
  refine (broadcastTo_apply _ broadcasts_S1x1x64_S1x8x64 (ix3 (0 : Fin 1) s q) (ix3 (0 : Fin 1) (0 : Fin 1) q) fun a => ?_).trans ?_
  · match a with
    | ⟨0, _⟩ => rfl
    | ⟨1, _⟩ => rfl
    | ⟨2, _⟩ => rfl
  rw [shapeCast_self]
  refine (shapeCast_ab_1ab_apply _ shapeCasts_S1x64_S1x1x64 (0 : Fin 1) (0 : Fin 1) q).trans ?_
  refine (shapeCast_a_1a_apply _ shapeCasts_S64_S1x64 (0 : Fin 1) q).trans ?_
  refine (Ideal.multiReduction_add_single z 0x00000000#32 reduces_S5000x64_S64 (.inl rfl) rfl (ix1 q)).trans ?_
  refine Finset.sum_congr rfl fun r _ => ?_
  refine congrArg z ?_
  funext a
  match a with
  | ⟨0, _⟩ => exact Fin.ext rfl
  | ⟨1, _⟩ => exact Fin.ext rfl

/-- The block's column sums as stored. -/
theorem pay4_apply (x0 : FVec Ideal S5000x64 .f32) (x1 : FVec Ideal S5000x64 .bf16) (x2 : FVec Ideal S64x64 .f32)
    (x3 : FVec Ideal S1x64 .f32) (x4 : FVec Ideal S64x64 .f32) (x5 : FVec Ideal S1x64 .f32) (s : Fin 8) (q : Fin 64) :
    k0_pay4 (F := Ideal) x0 x1 x2 x3 x4 x5 (ix3 (0 : Fin 1) s q)
      = Cert.GinSpec.colSum (Cert.GinSpec.mlp (n := 5000) x0 x1 x2 x3 x4 x5) q := by
  unfold k0_pay4
  rw [pay2_eq]
  exact rowsum_bcast_apply _ s q

/-- The block's column sums of squares as stored. -/
theorem pay1_pay3_apply (x0 : FVec Ideal S5000x64 .f32) (x1 : FVec Ideal S5000x64 .bf16) (x2 : FVec Ideal S64x64 .f32)
    (x3 : FVec Ideal S1x64 .f32) (x4 : FVec Ideal S64x64 .f32) (x5 : FVec Ideal S1x64 .f32) (s : Fin 8) (q : Fin 64) :
    k0_pay1 (F := Ideal) (k0_pay3 (F := Ideal) x0 x1 x2 x3 x4 x5) (ix3 (0 : Fin 1) s q)
      = Cert.GinSpec.colSumSq (Cert.GinSpec.mlp (n := 5000) x0 x1 x2 x3 x4 x5) q := by
  unfold k0_pay1 k0_pay3
  rw [pay2_eq]
  exact rowsum_bcast_apply _ s q

end Cert.KernelIdeal.Stage1

end
-- ==== Proof.Stage1Tile.lean ====
/-
  Row tiles of the perceptron, as pure algebra over the specification's index types.

  The perceptron of one layer works row by row: row r of its result depends on row r of the two input matrices
  and on the weights only.  So the tile of 5000 consecutive rows of the result is the perceptron of the same tiles
  of the two inputs.  Each stored partial sum is then a column sum of such a tile.  The last two lemmas say what it
  means for a block to be one tile of a whole array: the block, read through the map that sends a block index to
  the array index under it, is the array's function there.
-/
import proofs.«177788_j17205638988409_2_alg».proof.Proof.GinSpec

open scoped BigOperators

noncomputable section

namespace Cert.Stage1Tile

open Idealize.ShloMosaic Idealize.ShloMosaic.ValueIdx Cert.GinSpec

/-- The perceptron of two 5000-row matrices that are tile t of two 50000-row matrices is tile t of the perceptron of
    those. -/
theorem mlp_rowTile (A H : Mat 50000 64) (Wa : Mat 64 64) (Ba : Mat 1 64) (Wb : Mat 64 64) (Bb : Mat 1 64) (t : Fin 10)
    (a h : Mat 5000 64)
    (ha : ∀ (r : Fin 5000) (k : Fin 64), a (ix2 r k) = A (ix2 (tileRow t r) k))
    (hh : ∀ (r : Fin 5000) (k : Fin 64), h (ix2 r k) = H (ix2 (tileRow t r) k)) :
    mlp a h Wa Ba Wb Bb = rowTile (mlp A H Wa Ba Wb Bb) t := by
  funext j
  obtain ⟨p, q, rfl⟩ : ∃ (p : Fin 5000) (q : Fin 64), j = ix2 p q := ⟨j 0, j 1, eq_ix2 j⟩
  show max ((∑ k : Fin 64, max ((∑ i : Fin 64, (a (ix2 p i) + h (ix2 p i)) * Wa (ix2 i k)) + Ba (ix2 0 k)) zeroW
        * Wb (ix2 k q)) + Bb (ix2 0 q)) zeroW
      = max ((∑ k : Fin 64, max ((∑ i : Fin 64, (A (ix2 (tileRow t p) i) + H (ix2 (tileRow t p) i)) * Wa (ix2 i k))
        + Ba (ix2 0 k)) zeroW * Wb (ix2 k q)) + Bb (ix2 0 q)) zeroW
  simp only [ha, hh]

/-- A 5000-row block that is tile t of Z, read through a map E that sends row r of the block to row 5000 t + r of the
    array, is Z under E. -/
theorem rows_block (Z : Mat 50000 64) (t : Fin 10) (P : Mat 5000 64) (hP : P = rowTile Z t)
    (E : (⟨2, ![5000, 64]⟩ : Shape).Idx → (⟨2, ![50000, 64]⟩ : Shape).Idx)
    (hE : ∀ (r : Fin 5000) (k : Fin 64), E (ix2 r k) = ix2 (tileRow t r) k) :
    P = fun y => Z (E y) := by
  subst hP
  funext y
  obtain ⟨r, k, rfl⟩ : ∃ (r : Fin 5000) (k : Fin 64), y = ix2 r k := ⟨y 0, y 1, eq_ix2 y⟩
  rw [hE]
  rfl

/-- A block of eight copies of tile t's column sums, read through a map E that sends the block's one slab to slab t
    of the array of stored sums, is that array under E. -/
theorem sums_block (Z : Mat 50000 64) (t : Fin 10) (P : Arr3 1 8 64)
    (hP : ∀ (s : Fin 8) (q : Fin 64), P (ix3 (0 : Fin 1) s q) = colSum (rowTile Z t) q)
    (E : (⟨3, ![1, 8, 64]⟩ : Shape).Idx → (⟨3, ![10, 8, 64]⟩ : Shape).Idx)
    (hE : ∀ (u : Fin 1) (s : Fin 8) (q : Fin 64), E (ix3 u s q) = ix3 t s q) :
    P = fun y => tileSums Z (E y) := by
  funext y
  obtain ⟨u, s, q, rfl⟩ : ∃ (u : Fin 1) (s : Fin 8) (q : Fin 64), y = ix3 u s q := ⟨y 0, y 1, y 2, eq_ix3 y⟩
  obtain rfl : u = 0 := Subsingleton.elim _ _
  rw [hE, hP]
  rfl

/-- The same for the column sums of squares. -/
theorem sumsqs_block (Z : Mat 50000 64) (t : Fin 10) (P : Arr3 1 8 64)
    (hP : ∀ (s : Fin 8) (q : Fin 64), P (ix3 (0 : Fin 1) s q) = colSumSq (rowTile Z t) q)
    (E : (⟨3, ![1, 8, 64]⟩ : Shape).Idx → (⟨3, ![10, 8, 64]⟩ : Shape).Idx)
    (hE : ∀ (u : Fin 1) (s : Fin 8) (q : Fin 64), E (ix3 u s q) = ix3 t s q) :
    P = fun y => tileSumSqs Z (E y) := by
  funext y
  obtain ⟨u, s, q, rfl⟩ : ∃ (u : Fin 1) (s : Fin 8) (q : Fin 64), y = ix3 u s q := ⟨y 0, y 1, y 2, eq_ix3 y⟩
  obtain rfl : u = 0 := Subsingleton.elim _ _
  rw [hE, hP]
  rfl

end Cert.Stage1Tile

end
-- ==== Proof.Stage1Region0.lean ====
/-
  Region 0 of the run (a stage-1 pass over ten tiles of 5000 rows), as whole-array equalities.

  The grid has ten points.  At point t the two row-tiled inputs are read at tile t (rows 5000 t to 5000 t + 4999),
  the four weight arrays are read whole, and three blocks are written back: tile t of the 50000 x 64 result, and
  slab t of each of the two 10 x 8 x 64 arrays of partial sums.  The body's block is the perceptron of its input
  blocks; the perceptron acts row by row, so that block is tile t of the perceptron of the whole inputs.  The ten
  tiles cover every row, and the ten slabs cover each array of partial sums, so each output array ends holding one
  function of the arrays as the region found them.
-/
import proofs.«177788_j17205638988409_2_alg».proof.Proof.Gen.KernelIdeal.Frame
import proofs.«177788_j17205638988409_2_alg».proof.Proof.GinSpec
import proofs.«177788_j17205638988409_2_alg».proof.Proof.Stage1Payload
import proofs.«177788_j17205638988409_2_alg».proof.Proof.Stage1Tile
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Stage1

open Cert.KernelIdeal Cert.KernelIdeal.Gen Idealize.ShloMosaic Idealize.ShloMosaic.TcCoe Idealize.SL.Sem
open Idealize.ShloMosaic.ValueIdx
open Idealize.ShloMosaic.Pipeline (Dat)
open Cert.GinSpec (Mat Arr3 mlp tileRow rowTile colSum colSumSq tileSums tileSumSqs)

section Region0

variable (V : (c : Dev nD) → (b : Ref sig .tc) → Buf (Elt Ideal) ((c : Thread nD τ).loc b))

/-! ## The index maps, decided over the ten grid points -/

theorem zero20 : (![0, 0] : Fin 2 → Nat) = fun _ => 0 := funext fun a => by fin_cases a <;> rfl
theorem zero30 : (![0, 0, 0] : Fin 3 → Nat) = fun _ => 0 := funext fun a => by fin_cases a <;> rfl

/-- The two tiled inputs and the three outputs move with the grid point on their leading axis; the four weight arrays
    stay at block (0, 0). -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- A grid point as a tile number. -/
def tileOf0 (t : Fin cfg0.N) : Fin 10 := ⟨t.val, lt_of_lt_of_eq t.isLt N_0⟩

/-! ## The input blocks at a point -/

/-- Row r of the first input's block at point t is row 5000 t + r of its array. -/
theorem aggBlock0 (c : Dev nD) (t : Fin cfg0.N) (r : Fin 5000) (k : Fin 64) :
    (iblk0 V c 0 t : S5000x64.Idx → EReal) (ix2 r k) = (V c main_v15 : S50000x64.Idx → EReal) (ix2 (tileRow (tileOf0 t) r) k) := by
  obtain ⟨e0, e1, -⟩ := index0 t
  show (V c main_v15 : S50000x64.Idx → EReal) (((cfg0.win 0).blk t).view.emb (ix2 r k)) = _
  refine congrArg _ ?_
  funext a; apply Fin.ext
  match a with
  | ⟨0, _⟩ => show win0_0.index t (0 : Fin 2) * 5000 + 1 * r.val = 5000 * t.val + r.val; omega
  | ⟨1, _⟩ => show win0_0.index t (1 : Fin 2) * 64 + 1 * k.val = k.val; omega

/-- Row r of the second input's block at point t is row 5000 t + r of its array. -/
theorem hBlock0 (c : Dev nD) (t : Fin cfg0.N) (r : Fin 5000) (k : Fin 64) :
    (iblk0 V c 1 t : S5000x64.Idx → EReal) (ix2 r k) = (V c main_v0 : S50000x64.Idx → EReal) (ix2 (tileRow (tileOf0 t) r) k) := by
  obtain ⟨-, -, e0, e1, -⟩ := index0 t
  show (V c main_v0 : S50000x64.Idx → EReal) (((cfg0.win 1).blk t).view.emb (ix2 r k)) = _
  refine congrArg _ ?_
  funext a; apply Fin.ext
  match a with
  | ⟨0, _⟩ => show win0_1.index t (0 : Fin 2) * 5000 + 1 * r.val = 5000 * t.val + r.val; omega
  | ⟨1, _⟩ => show win0_1.index t (1 : Fin 2) * 64 + 1 * k.val = k.val; omega

/-- The first weight matrix is read whole at every point. -/
theorem waBlock0 (c : Dev nD) (t : Fin cfg0.N) : (iblk0 V c 2 t : S64x64.Idx → EReal) = V c main_arg3 := by
  obtain ⟨-, -, -, -, e0, e1, -⟩ := index0 t
  funext y
  show (V c main_arg3 : S64x64.Idx → EReal) (((cfg0.win 2).blk t).view.emb y) = _
  refine congrArg _ ?_
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The first bias row is read whole at every point. -/
theorem baBlock0 (c : Dev nD) (t : Fin cfg0.N) : (iblk0 V c 3 t : S1x64.Idx → EReal) = V c main_v16 := by
  obtain ⟨-, -, -, -, -, -, e0, e1, -⟩ := index0 t
  funext y
  show (V c main_v16 : S1x64.Idx → EReal) (((cfg0.win 3).blk t).view.emb y) = _
  refine congrArg _ ?_
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The second weight matrix is read whole at every point. -/
theorem wbBlock0 (c : Dev nD) (t : Fin cfg0.N) : (iblk0 V c 4 t : S64x64.Idx → EReal) = V c main_arg5 := by
  obtain ⟨-, -, -, -, -, -, -, -, e0, e1, -⟩ := index0 t
  funext y
  show (V c main_arg5 : S64x64.Idx → EReal) (((cfg0.win 4).blk t).view.emb y) = _
  refine congrArg _ ?_
  funext a; apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- The second bias row is read whole at every point. -/
theorem bbBlock0 (c : Dev nD) (t : Fin cfg0.N) : (iblk0 V c 5 t : S1x64.Idx → EReal) = V c main_v17 := by
  obtain ⟨-, -, -, -, -, -, -, -, -, -, e0, e1, -⟩ := index0 t
  funext y
  show (V c main_v17 : S1x64.Idx → EReal) (((cfg0.win 5).blk t).view.emb y) = _
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-! ## What the region computes, as one function of the arrays it finds -/

/-- The perceptron of the whole inputs. -/
abbrev zOf0 (c : Dev nD) : Mat 50000 64 :=
  mlp (n := 50000) (V c main_v15) (V c main_v0) (V c main_arg3) (V c main_v16) (V c main_arg5) (V c main_v17)

/-- The perceptron of the blocks at point t is tile t of the perceptron of the whole inputs. -/
theorem blockIsTile0 (c : Dev nD) (t : Fin cfg0.N) :
    mlp (n := 5000) (iblk0 V c 0 t) (iblk0 V c 1 t) (iblk0 V c 2 t) (iblk0 V c 3 t) (iblk0 V c 4 t) (iblk0 V c 5 t)
      = rowTile (zOf0 V c) (tileOf0 t) := by
  have e2 := waBlock0 V c t
  have e3 := baBlock0 V c t
  have e4 := wbBlock0 V c t
  have e5 := bbBlock0 V c t
  rw [e2, e3, e4, e5]
  exact Cert.Stage1Tile.mlp_rowTile (V c main_v15) (V c main_v0) (V c main_arg3) (V c main_v16) (V c main_arg5) (V c main_v17) (tileOf0 t)
    (iblk0 V c 0 t) (iblk0 V c 1 t) (aggBlock0 V c t) (hBlock0 V c t)

/-! ## What each point writes back -/

/-- Point t writes tile t of the result. -/
theorem wrote0_6 (c : Dev nD) (t : Fin cfg0.N) :
    (dat0 V c).flushed 6 t = ((cfg0.win 6).blk t).view.read (Elt Ideal) (zOf0 V c) := by
  show (cfg0.win 6).cut (grid0.coords t) ((dat0 V c).after 6 t) = _
  rw [after0_6]
  unfold out0_6
  rw [View.canon_unit_zero zero20]
  simp only [View.ld_unit_zero (S := S5000x64) zero20, View.ld_unit_zero (S := S64x64) zero20, View.ld_unit_zero (S := S1x64) zero20]
  rw [pay2_eq, blockIsTile0 V c t]
  obtain ⟨-, -, -, -, -, -, -, -, -, -, -, -, e0, e1, -⟩ := index0 t
  refine Cert.Stage1Tile.rows_block (zOf0 V c) (tileOf0 t) _ rfl (fun y => ((cfg0.win 6).blk t).view.emb y) fun r k => ?_
  funext a; apply Fin.ext
  match a with
  | ⟨0, _⟩ => show win0_6.index t (0 : Fin 2) * 5000 + 1 * r.val = 5000 * t.val + r.val; omega
  | ⟨1, _⟩ => show win0_6.index t (1 : Fin 2) * 64 + 1 * k.val = k.val; omega

/-- Point t writes slab t of the column sums. -/
theorem wrote0_7 (c : Dev nD) (t : Fin cfg0.N) :
    (dat0 V c).flushed 7 t = ((cfg0.win 7).blk t).view.read (Elt Ideal) (tileSums (zOf0 V c)) := by
  show (cfg0.win 7).cut (grid0.coords t) ((dat0 V c).after 7 t) = _
  rw [after0_7]
  unfold out0_7
  rw [View.canon_unit_zero zero30]
  simp only [View.ld_unit_zero (S := S5000x64) zero20, View.ld_unit_zero (S := S64x64) zero20, View.ld_unit_zero (S := S1x64) zero20]
  obtain ⟨-, -, -, -, -, -, -, -, -, -, -, -, -, -, e0, e1, e2, -⟩ := index0 t
  refine Cert.Stage1Tile.sums_block (zOf0 V c) (tileOf0 t) _ (fun s q => ?_) (fun y => ((cfg0.win 7).blk t).view.emb y) fun u s q => ?_
  · refine (pay4_apply _ _ _ _ _ _ s q).trans ?_
    rw [blockIsTile0 V c t]
  · have hu : u.val = 0 := by omega
    funext a; apply Fin.ext
    match a with
    | ⟨0, _⟩ => show win0_7.index t (0 : Fin 3) * 1 + 1 * u.val = t.val; omega
    | ⟨1, _⟩ => show win0_7.index t (1 : Fin 3) * 8 + 1 * s.val = s.val; omega
    | ⟨2, _⟩ => show win0_7.index t (2 : Fin 3) * 64 + 1 * q.val = q.val; omega

/-- Point t writes slab t of the column sums of squares. -/
theorem wrote0_8 (c : Dev nD) (t : Fin cfg0.N) :
    (dat0 V c).flushed 8 t = ((cfg0.win 8).blk t).view.read (Elt Ideal) (tileSumSqs (zOf0 V c)) := by
  show (cfg0.win 8).cut (grid0.coords t) ((dat0 V c).after 8 t) = _
  rw [after0_8]
  unfold out0_8
  rw [View.canon_unit_zero zero30]
  simp only [View.ld_unit_zero (S := S5000x64) zero20, View.ld_unit_zero (S := S64x64) zero20, View.ld_unit_zero (S := S1x64) zero20]
  obtain ⟨-, -, -, -, -, -, -, -, -, -, -, -, -, -, -, -, -, e0, e1, e2⟩ := index0 t
  refine Cert.Stage1Tile.sumsqs_block (zOf0 V c) (tileOf0 t) _ (fun s q => ?_) (fun y => ((cfg0.win 8).blk t).view.emb y) fun u s q => ?_
  · refine (pay1_pay3_apply _ _ _ _ _ _ s q).trans ?_
    rw [blockIsTile0 V c t]
  · have hu : u.val = 0 := by omega
    funext a; apply Fin.ext
    match a with
    | ⟨0, _⟩ => show win0_8.index t (0 : Fin 3) * 1 + 1 * u.val = t.val; omega
    | ⟨1, _⟩ => show win0_8.index t (1 : Fin 3) * 8 + 1 * s.val = s.val; omega
    | ⟨2, _⟩ => show win0_8.index t (2 : Fin 3) * 64 + 1 * q.val = q.val; omega

/-! ## The blocks cover the arrays -/

/-- An index of the result is in point t's block iff each coordinate is in the block's range on its axis. -/
theorem mem0_6 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v18_0).slice (win0_6.rect t)).set ↔ _
  rw [View.set_slice_whole, Rect.mem_set_unit]
  exact Iff.rfl

theorem mem0_7 (t : Fin cfg0.N) (i : S10x8x64.Idx) :
    i ∈ ((cfg0.win 7).blk t).view.set ↔ ∀ a : Fin 3, win0_7.index t a * S1x8x64.size a ≤ (i a).val ∧ (i a).val < win0_7.index t a * S1x8x64.size a + S1x8x64.size a := by
  show i ∈ ((View.whole main_v18_1).slice (win0_7.rect t)).set ↔ _
  rw [View.set_slice_whole, Rect.mem_set_unit]
  exact Iff.rfl

theorem mem0_8 (t : Fin cfg0.N) (i : S10x8x64.Idx) :
    i ∈ ((cfg0.win 8).blk t).view.set ↔ ∀ a : Fin 3, win0_8.index t a * S1x8x64.size a ≤ (i a).val ∧ (i a).val < win0_8.index t a * S1x8x64.size a + S1x8x64.size a := by
  show i ∈ ((View.whole main_v18_2).slice (win0_8.rect t)).set ↔ _
  rw [View.set_slice_whole, Rect.mem_set_unit]
  exact Iff.rfl

/-- Row r of the result lies in tile r / 5000. -/
theorem covered0_6 (i : S50000x64.Idx) :
    ∃ t : Fin cfg0.N, (cfg0.win 6).flush t = true ∧ i ∈ ((cfg0.win 6).blk t).view.set := by
  have hi0 : (i 0).val < 50000 := idx2_lt0 i
  have hi1 : (i 1).val < 64 := idx2_lt1 i
  have hN : cfg0.N = 10 := N_0
  have ht : (i 0).val / 5000 < cfg0.N := by omega
  obtain ⟨-, -, -, -, -, -, -, -, -, -, -, -, e0, e1, -⟩ := index0 ⟨(i 0).val / 5000, ht⟩
  have e0' : win0_6.index ⟨(i 0).val / 5000, ht⟩ (0 : Fin 2) = (i 0).val / 5000 := e0
  refine ⟨⟨(i 0).val / 5000, ht⟩, flush0_6 _, ?_⟩
  rw [mem0_6]
  intro a
  match a with
  | ⟨0, _⟩ => show win0_6.index ⟨(i 0).val / 5000, ht⟩ (0 : Fin 2) * 5000 ≤ (i 0).val ∧ (i 0).val < win0_6.index ⟨(i 0).val / 5000, ht⟩ (0 : Fin 2) * 5000 + 5000; omega
  | ⟨1, _⟩ => show win0_6.index ⟨(i 0).val / 5000, ht⟩ (1 : Fin 2) * 64 ≤ (i 1).val ∧ (i 1).val < win0_6.index ⟨(i 0).val / 5000, ht⟩ (1 : Fin 2) * 64 + 64; omega

/-- Slab t of the stored sums is point t's block. -/
theorem covered0_7 (i : S10x8x64.Idx) :
    ∃ t : Fin cfg0.N, (cfg0.win 7).flush t = true ∧ i ∈ ((cfg0.win 7).blk t).view.set := by
  have hi0 : (i 0).val < 10 := (i 0).isLt
  have hi1 : (i 1).val < 8 := (i 1).isLt
  have hi2 : (i 2).val < 64 := (i 2).isLt
  have hN : cfg0.N = 10 := N_0
  have ht : (i 0).val < cfg0.N := by omega
  obtain ⟨-, -, -, -, -, -, -, -, -, -, -, -, -, -, e0, e1, e2, -⟩ := index0 ⟨(i 0).val, ht⟩
  have e0' : win0_7.index ⟨(i 0).val, ht⟩ (0 : Fin 3) = (i 0).val := e0
  refine ⟨⟨(i 0).val, ht⟩, flush0_7 _, ?_⟩
  rw [mem0_7]
  intro a
  match a with
  | ⟨0, _⟩ => show win0_7.index ⟨(i 0).val, ht⟩ (0 : Fin 3) * 1 ≤ (i 0).val ∧ (i 0).val < win0_7.index ⟨(i 0).val, ht⟩ (0 : Fin 3) * 1 + 1; omega
  | ⟨1, _⟩ => show win0_7.index ⟨(i 0).val, ht⟩ (1 : Fin 3) * 8 ≤ (i 1).val ∧ (i 1).val < win0_7.index ⟨(i 0).val, ht⟩ (1 : Fin 3) * 8 + 8; omega
  | ⟨2, _⟩ => show win0_7.index ⟨(i 0).val, ht⟩ (2 : Fin 3) * 64 ≤ (i 2).val ∧ (i 2).val < win0_7.index ⟨(i 0).val, ht⟩ (2 : Fin 3) * 64 + 64; omega

theorem covered0_8 (i : S10x8x64.Idx) :
    ∃ t : Fin cfg0.N, (cfg0.win 8).flush t = true ∧ i ∈ ((cfg0.win 8).blk t).view.set := by
  have hi0 : (i 0).val < 10 := (i 0).isLt
  have hi1 : (i 1).val < 8 := (i 1).isLt
  have hi2 : (i 2).val < 64 := (i 2).isLt
  have hN : cfg0.N = 10 := N_0
  have ht : (i 0).val < cfg0.N := by omega
  obtain ⟨-, -, -, -, -, -, -, -, -, -, -, -, -, -, -, -, -, e0, e1, e2⟩ := index0 ⟨(i 0).val, ht⟩
  have e0' : win0_8.index ⟨(i 0).val, ht⟩ (0 : Fin 3) = (i 0).val := e0
  refine ⟨⟨(i 0).val, ht⟩, flush0_8 _, ?_⟩
  rw [mem0_8]
  intro a
  match a with
  | ⟨0, _⟩ => show win0_8.index ⟨(i 0).val, ht⟩ (0 : Fin 3) * 1 ≤ (i 0).val ∧ (i 0).val < win0_8.index ⟨(i 0).val, ht⟩ (0 : Fin 3) * 1 + 1; omega
  | ⟨1, _⟩ => show win0_8.index ⟨(i 0).val, ht⟩ (1 : Fin 3) * 8 ≤ (i 1).val ∧ (i 1).val < win0_8.index ⟨(i 0).val, ht⟩ (1 : Fin 3) * 8 + 8; omega
  | ⟨2, _⟩ => show win0_8.index ⟨(i 0).val, ht⟩ (2 : Fin 3) * 64 ≤ (i 2).val ∧ (i 2).val < win0_8.index ⟨(i 0).val, ht⟩ (2 : Fin 3) * 64 + 64; omega

/-! ## The arrays after the region, at any entry contents -/

theorem arr0_6 (c : Dev nD) : (dat0 V c).arrAt 6 cfg0.N = zOf0 V c :=
  (dat0 V c).arrAt_eq_of_cover 6 (zOf0 V c) (fun t _ => wrote0_6 V c t) covered0_6

theorem arr0_7 (c : Dev nD) : (dat0 V c).arrAt 7 cfg0.N = tileSums (zOf0 V c) :=
  (dat0 V c).arrAt_eq_of_cover 7 (tileSums (zOf0 V c)) (fun t _ => wrote0_7 V c t) covered0_7

theorem arr0_8 (c : Dev nD) : (dat0 V c).arrAt 8 cfg0.N = tileSumSqs (zOf0 V c) :=
  (dat0 V c).arrAt_eq_of_cover 8 (tileSumSqs (zOf0 V c)) (fun t _ => wrote0_8 V c t) covered0_8

end Region0

/-! ## The region in the run -/

variable (m : (ℓ : Loc nD τ sig) → Buf (Elt Ideal) ℓ) (ρ : Dev nD → PrngReg)

/-- After the region its first output holds the perceptron of the six input arrays as the region found them. -/
theorem region0_z (c : Dev nD) :
    W2 (F := Ideal) m ρ c (Proc.devRef .tc main_v18_0)
      = mlp (n := 50000) (V1 m ρ c main_v15) (V1 m ρ c main_v0) (V1 m ρ c main_arg3) (V1 m ρ c main_v16) (V1 m ρ c main_arg5) (V1 m ρ c main_v17) :=
  (W2_arr m ρ c 6).trans (arr0_6 (V1 m ρ) c)

/-- Its second output holds each tile's column sums, eight copies each. -/
theorem region0_sums (c : Dev nD) :
    W2 (F := Ideal) m ρ c (Proc.devRef .tc main_v18_1)
      = tileSums (mlp (n := 50000) (V1 m ρ c main_v15) (V1 m ρ c main_v0) (V1 m ρ c main_arg3) (V1 m ρ c main_v16) (V1 m ρ c main_arg5) (V1 m ρ c main_v17)) :=
  (W2_arr m ρ c 7).trans (arr0_7 (V1 m ρ) c)

/-- Its third output holds each tile's column sums of squares, eight copies each. -/
theorem region0_sumsqs (c : Dev nD) :
    W2 (F := Ideal) m ρ c (Proc.devRef .tc main_v18_2)
      = tileSumSqs (mlp (n := 50000) (V1 m ρ c main_v15) (V1 m ρ c main_v0) (V1 m ρ c main_arg3) (V1 m ρ c main_v16) (V1 m ρ c main_arg5) (V1 m ρ c main_v17)) :=
  (W2_arr m ρ c 8).trans (arr0_8 (V1 m ρ) c)

end Cert.KernelIdeal.Stage1

end
-- ==== Proof.Stage1Region2.lean ====
/-
  Region 2 of the run (a stage-1 pass over ten tiles of 5000 rows), as whole-array equalities.

  The grid has ten points.  At point t the two row-tiled inputs are read at tile t (rows 5000 t to 5000 t + 4999),
  the four weight arrays are read whole, and three blocks are written back: tile t of the 50000 x 64 result, and
  slab t of each of the two 10 x 8 x 64 arrays of partial sums.  The body's block is the perceptron of its input
  blocks; the perceptron acts row by row, so that block is tile t of the perceptron of the whole inputs.  The ten
  tiles cover every row, and the ten slabs cover each array of partial sums, so each output array ends holding one
  function of the arrays as the region found them.
-/
import proofs.«177788_j17205638988409_2_alg».proof.Proof.Gen.KernelIdeal.Frame
import proofs.«177788_j17205638988409_2_alg».proof.Proof.GinSpec
import proofs.«177788_j17205638988409_2_alg».proof.Proof.Stage1Payload
import proofs.«177788_j17205638988409_2_alg».proof.Proof.Stage1Tile
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Stage1

open Cert.KernelIdeal Cert.KernelIdeal.Gen Idealize.ShloMosaic Idealize.ShloMosaic.TcCoe Idealize.SL.Sem
open Idealize.ShloMosaic.ValueIdx
open Idealize.ShloMosaic.Pipeline (Dat)
open Cert.GinSpec (Mat Arr3 mlp tileRow rowTile colSum colSumSq tileSums tileSumSqs)

section Region2

variable (V : (c : Dev nD) → (b : Ref sig .tc) → Buf (Elt Ideal) ((c : Thread nD τ).loc b))

/-! ## The payloads of this region are those of region 0 -/

theorem pay2_same2 : k2_pay2 (F := Ideal) = k0_pay2 (F := Ideal) := rfl
theorem pay3_same2 : k2_pay3 (F := Ideal) = k0_pay3 (F := Ideal) := rfl
theorem pay4_same2 : k2_pay4 (F := Ideal) = k0_pay4 (F := Ideal) := rfl
theorem pay1_same2 : k2_pay1 (F := Ideal) = k0_pay1 (F := Ideal) := rfl

/-! ## The index maps, decided over the ten grid points -/

theorem zero22 : (![0, 0] : Fin 2 → Nat) = fun _ => 0 := funext fun a => by fin_cases a <;> rfl
theorem zero32 : (![0, 0, 0] : Fin 3 → Nat) = fun _ => 0 := funext fun a => by fin_cases a <;> rfl

/-- The two tiled inputs and the three outputs move with the grid point on their leading axis; the four weight arrays
    stay at block (0, 0). -/
theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 3) = t.val ∧ win2_7.index t (1 : Fin 3) = 0 ∧ win2_7.index t (2 : Fin 3) = 0
    ∧ win2_8.index t (0 : Fin 3) = t.val ∧ win2_8.index t (1 : Fin 3) = 0 ∧ win2_8.index t (2 : Fin 3) = 0 :=
  (by decide +kernel : ∀ t : Fin grid2.N, _)

/-- A grid point as a tile number. -/
def tileOf2 (t : Fin cfg2.N) : Fin 10 := ⟨t.val, lt_of_lt_of_eq t.isLt N_2⟩

/-! ## The input blocks at a point -/

/-- Row r of the first input's block at point t is row 5000 t + r of its array. -/
theorem aggBlock2 (c : Dev nD) (t : Fin cfg2.N) (r : Fin 5000) (k : Fin 64) :
    (iblk2 V c 0 t : S5000x64.Idx → EReal) (ix2 r k) = (V c main_v58 : S50000x64.Idx → EReal) (ix2 (tileRow (tileOf2 t) r) k) := by
  obtain ⟨e0, e1, -⟩ := index2 t
  show (V c main_v58 : S50000x64.Idx → EReal) (((cfg2.win 0).blk t).view.emb (ix2 r k)) = _
  refine congrArg _ ?_
  funext a; apply Fin.ext
  match a with
  | ⟨0, _⟩ => show win2_0.index t (0 : Fin 2) * 5000 + 1 * r.val = 5000 * t.val + r.val; omega
  | ⟨1, _⟩ => show win2_0.index t (1 : Fin 2) * 64 + 1 * k.val = k.val; omega

/-- Row r of the second input's block at point t is row 5000 t + r of its array. -/
theorem hBlock2 (c : Dev nD) (t : Fin cfg2.N) (r : Fin 5000) (k : Fin 64) :
    (iblk2 V c 1 t : S5000x64.Idx → EReal) (ix2 r k) = (V c main_v43 : S50000x64.Idx → EReal) (ix2 (tileRow (tileOf2 t) r) k) := by
  obtain ⟨-, -, e0, e1, -⟩ := index2 t
  show (V c main_v43 : S50000x64.Idx → EReal) (((cfg2.win 1).blk t).view.emb (ix2 r k)) = _
  refine congrArg _ ?_
  funext a; apply Fin.ext
  match a with
  | ⟨0, _⟩ => show win2_1.index t (0 : Fin 2) * 5000 + 1 * r.val = 5000 * t.val + r.val; omega
  | ⟨1, _⟩ => show win2_1.index t (1 : Fin 2) * 64 + 1 * k.val = k.val; omega

/-- The first weight matrix is read whole at every point. -/
theorem waBlock2 (c : Dev nD) (t : Fin cfg2.N) : (iblk2 V c 2 t : S64x64.Idx → EReal) = V c main_arg9 := by
  obtain ⟨-, -, -, -, e0, e1, -⟩ := index2 t
  funext y
  show (V c main_arg9 : S64x64.Idx → EReal) (((cfg2.win 2).blk t).view.emb y) = _
  refine congrArg _ ?_
  funext a; apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- The first bias row is read whole at every point. -/
theorem baBlock2 (c : Dev nD) (t : Fin cfg2.N) : (iblk2 V c 3 t : S1x64.Idx → EReal) = V c main_v59 := by
  obtain ⟨-, -, -, -, -, -, e0, e1, -⟩ := index2 t
  funext y
  show (V c main_v59 : S1x64.Idx → EReal) (((cfg2.win 3).blk t).view.emb y) = _
  refine congrArg _ ?_
  funext a; apply Fin.ext
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- The second weight matrix is read whole at every point. -/
theorem wbBlock2 (c : Dev nD) (t : Fin cfg2.N) : (iblk2 V c 4 t : S64x64.Idx → EReal) = V c main_arg11 := by
  obtain ⟨-, -, -, -, -, -, -, -, e0, e1, -⟩ := index2 t
  funext y
  show (V c main_arg11 : S64x64.Idx → EReal) (((cfg2.win 4).blk t).view.emb y) = _
  refine congrArg _ ?_
  funext a; apply Fin.ext
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- The second bias row is read whole at every point. -/
theorem bbBlock2 (c : Dev nD) (t : Fin cfg2.N) : (iblk2 V c 5 t : S1x64.Idx → EReal) = V c main_v60 := by
  obtain ⟨-, -, -, -, -, -, -, -, -, -, e0, e1, -⟩ := index2 t
  funext y
  show (V c main_v60 : S1x64.Idx → EReal) (((cfg2.win 5).blk t).view.emb y) = _
  refine congrArg _ ?_
  funext a; apply Fin.ext
  match a with
  | ⟨0, _⟩ => show win2_5.index t (0 : Fin 2) * 1 + 1 * (y 0).val = (y 0).val; omega
  | ⟨1, _⟩ => show win2_5.index t (1 : Fin 2) * 64 + 1 * (y 1).val = (y 1).val; omega

/-! ## What the region computes, as one function of the arrays it finds -/

/-- The perceptron of the whole inputs. -/
abbrev zOf2 (c : Dev nD) : Mat 50000 64 :=
  mlp (n := 50000) (V c main_v58) (V c main_v43) (V c main_arg9) (V c main_v59) (V c main_arg11) (V c main_v60)

/-- The perceptron of the blocks at point t is tile t of the perceptron of the whole inputs. -/
theorem blockIsTile2 (c : Dev nD) (t : Fin cfg2.N) :
    mlp (n := 5000) (iblk2 V c 0 t) (iblk2 V c 1 t) (iblk2 V c 2 t) (iblk2 V c 3 t) (iblk2 V c 4 t) (iblk2 V c 5 t)
      = rowTile (zOf2 V c) (tileOf2 t) := by
  have e2 := waBlock2 V c t
  have e3 := baBlock2 V c t
  have e4 := wbBlock2 V c t
  have e5 := bbBlock2 V c t
  rw [e2, e3, e4, e5]
  exact Cert.Stage1Tile.mlp_rowTile (V c main_v58) (V c main_v43) (V c main_arg9) (V c main_v59) (V c main_arg11) (V c main_v60) (tileOf2 t)
    (iblk2 V c 0 t) (iblk2 V c 1 t) (aggBlock2 V c t) (hBlock2 V c t)

/-! ## What each point writes back -/

/-- Point t writes tile t of the result. -/
theorem wrote2_6 (c : Dev nD) (t : Fin cfg2.N) :
    (dat2 V c).flushed 6 t = ((cfg2.win 6).blk t).view.read (Elt Ideal) (zOf2 V c) := by
  show (cfg2.win 6).cut (grid2.coords t) ((dat2 V c).after 6 t) = _
  rw [after2_6]
  unfold out2_6
  rw [View.canon_unit_zero zero22]
  simp only [View.ld_unit_zero (S := S5000x64) zero22, View.ld_unit_zero (S := S64x64) zero22, View.ld_unit_zero (S := S1x64) zero22]
  rw [pay2_same2, pay2_eq, blockIsTile2 V c t]
  obtain ⟨-, -, -, -, -, -, -, -, -, -, -, -, e0, e1, -⟩ := index2 t
  refine Cert.Stage1Tile.rows_block (zOf2 V c) (tileOf2 t) _ rfl (fun y => ((cfg2.win 6).blk t).view.emb y) fun r k => ?_
  funext a; apply Fin.ext
  match a with
  | ⟨0, _⟩ => show win2_6.index t (0 : Fin 2) * 5000 + 1 * r.val = 5000 * t.val + r.val; omega
  | ⟨1, _⟩ => show win2_6.index t (1 : Fin 2) * 64 + 1 * k.val = k.val; omega

/-- Point t writes slab t of the column sums. -/
theorem wrote2_7 (c : Dev nD) (t : Fin cfg2.N) :
    (dat2 V c).flushed 7 t = ((cfg2.win 7).blk t).view.read (Elt Ideal) (tileSums (zOf2 V c)) := by
  show (cfg2.win 7).cut (grid2.coords t) ((dat2 V c).after 7 t) = _
  rw [after2_7]
  unfold out2_7
  rw [View.canon_unit_zero zero32]
  simp only [View.ld_unit_zero (S := S5000x64) zero22, View.ld_unit_zero (S := S64x64) zero22, View.ld_unit_zero (S := S1x64) zero22]
  obtain ⟨-, -, -, -, -, -, -, -, -, -, -, -, -, -, e0, e1, e2, -⟩ := index2 t
  refine Cert.Stage1Tile.sums_block (zOf2 V c) (tileOf2 t) _ (fun s q => ?_) (fun y => ((cfg2.win 7).blk t).view.emb y) fun u s q => ?_
  · rw [pay4_same2]
    refine (pay4_apply _ _ _ _ _ _ s q).trans ?_
    rw [blockIsTile2 V c t]
  · have hu : u.val = 0 := by omega
    funext a; apply Fin.ext
    match a with
    | ⟨0, _⟩ => show win2_7.index t (0 : Fin 3) * 1 + 1 * u.val = t.val; omega
    | ⟨1, _⟩ => show win2_7.index t (1 : Fin 3) * 8 + 1 * s.val = s.val; omega
    | ⟨2, _⟩ => show win2_7.index t (2 : Fin 3) * 64 + 1 * q.val = q.val; omega

/-- Point t writes slab t of the column sums of squares. -/
theorem wrote2_8 (c : Dev nD) (t : Fin cfg2.N) :
    (dat2 V c).flushed 8 t = ((cfg2.win 8).blk t).view.read (Elt Ideal) (tileSumSqs (zOf2 V c)) := by
  show (cfg2.win 8).cut (grid2.coords t) ((dat2 V c).after 8 t) = _
  rw [after2_8]
  unfold out2_8
  rw [View.canon_unit_zero zero32]
  simp only [View.ld_unit_zero (S := S5000x64) zero22, View.ld_unit_zero (S := S64x64) zero22, View.ld_unit_zero (S := S1x64) zero22]
  obtain ⟨-, -, -, -, -, -, -, -, -, -, -, -, -, -, -, -, -, e0, e1, e2⟩ := index2 t
  refine Cert.Stage1Tile.sumsqs_block (zOf2 V c) (tileOf2 t) _ (fun s q => ?_) (fun y => ((cfg2.win 8).blk t).view.emb y) fun u s q => ?_
  · rw [pay1_same2, pay3_same2]
    refine (pay1_pay3_apply _ _ _ _ _ _ s q).trans ?_
    rw [blockIsTile2 V c t]
  · have hu : u.val = 0 := by omega
    funext a; apply Fin.ext
    match a with
    | ⟨0, _⟩ => show win2_8.index t (0 : Fin 3) * 1 + 1 * u.val = t.val; omega
    | ⟨1, _⟩ => show win2_8.index t (1 : Fin 3) * 8 + 1 * s.val = s.val; omega
    | ⟨2, _⟩ => show win2_8.index t (2 : Fin 3) * 64 + 1 * q.val = q.val; omega

/-! ## The blocks cover the arrays -/

/-- An index of the result is in point t's block iff each coordinate is in the block's range on its axis. -/
theorem mem2_6 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v61_0).slice (win2_6.rect t)).set ↔ _
  rw [View.set_slice_whole, Rect.mem_set_unit]
  exact Iff.rfl

theorem mem2_7 (t : Fin cfg2.N) (i : S10x8x64.Idx) :
    i ∈ ((cfg2.win 7).blk t).view.set ↔ ∀ a : Fin 3, win2_7.index t a * S1x8x64.size a ≤ (i a).val ∧ (i a).val < win2_7.index t a * S1x8x64.size a + S1x8x64.size a := by
  show i ∈ ((View.whole main_v61_1).slice (win2_7.rect t)).set ↔ _
  rw [View.set_slice_whole, Rect.mem_set_unit]
  exact Iff.rfl

theorem mem2_8 (t : Fin cfg2.N) (i : S10x8x64.Idx) :
    i ∈ ((cfg2.win 8).blk t).view.set ↔ ∀ a : Fin 3, win2_8.index t a * S1x8x64.size a ≤ (i a).val ∧ (i a).val < win2_8.index t a * S1x8x64.size a + S1x8x64.size a := by
  show i ∈ ((View.whole main_v61_2).slice (win2_8.rect t)).set ↔ _
  rw [View.set_slice_whole, Rect.mem_set_unit]
  exact Iff.rfl

/-- Row r of the result lies in tile r / 5000. -/
theorem covered2_6 (i : S50000x64.Idx) :
    ∃ t : Fin cfg2.N, (cfg2.win 6).flush t = true ∧ i ∈ ((cfg2.win 6).blk t).view.set := by
  have hi0 : (i 0).val < 50000 := idx2_lt0 i
  have hi1 : (i 1).val < 64 := idx2_lt1 i
  have hN : cfg2.N = 10 := N_2
  have ht : (i 0).val / 5000 < cfg2.N := by omega
  obtain ⟨-, -, -, -, -, -, -, -, -, -, -, -, e0, e1, -⟩ := index2 ⟨(i 0).val / 5000, ht⟩
  have e0' : win2_6.index ⟨(i 0).val / 5000, ht⟩ (0 : Fin 2) = (i 0).val / 5000 := e0
  refine ⟨⟨(i 0).val / 5000, ht⟩, flush2_6 _, ?_⟩
  rw [mem2_6]
  intro a
  match a with
  | ⟨0, _⟩ => show win2_6.index ⟨(i 0).val / 5000, ht⟩ (0 : Fin 2) * 5000 ≤ (i 0).val ∧ (i 0).val < win2_6.index ⟨(i 0).val / 5000, ht⟩ (0 : Fin 2) * 5000 + 5000; omega
  | ⟨1, _⟩ => show win2_6.index ⟨(i 0).val / 5000, ht⟩ (1 : Fin 2) * 64 ≤ (i 1).val ∧ (i 1).val < win2_6.index ⟨(i 0).val / 5000, ht⟩ (1 : Fin 2) * 64 + 64; omega

/-- Slab t of the stored sums is point t's block. -/
theorem covered2_7 (i : S10x8x64.Idx) :
    ∃ t : Fin cfg2.N, (cfg2.win 7).flush t = true ∧ i ∈ ((cfg2.win 7).blk t).view.set := by
  have hi0 : (i 0).val < 10 := (i 0).isLt
  have hi1 : (i 1).val < 8 := (i 1).isLt
  have hi2 : (i 2).val < 64 := (i 2).isLt
  have hN : cfg2.N = 10 := N_2
  have ht : (i 0).val < cfg2.N := by omega
  obtain ⟨-, -, -, -, -, -, -, -, -, -, -, -, -, -, e0, e1, e2, -⟩ := index2 ⟨(i 0).val, ht⟩
  have e0' : win2_7.index ⟨(i 0).val, ht⟩ (0 : Fin 3) = (i 0).val := e0
  refine ⟨⟨(i 0).val, ht⟩, flush2_7 _, ?_⟩
  rw [mem2_7]
  intro a
  match a with
  | ⟨0, _⟩ => show win2_7.index ⟨(i 0).val, ht⟩ (0 : Fin 3) * 1 ≤ (i 0).val ∧ (i 0).val < win2_7.index ⟨(i 0).val, ht⟩ (0 : Fin 3) * 1 + 1; omega
  | ⟨1, _⟩ => show win2_7.index ⟨(i 0).val, ht⟩ (1 : Fin 3) * 8 ≤ (i 1).val ∧ (i 1).val < win2_7.index ⟨(i 0).val, ht⟩ (1 : Fin 3) * 8 + 8; omega
  | ⟨2, _⟩ => show win2_7.index ⟨(i 0).val, ht⟩ (2 : Fin 3) * 64 ≤ (i 2).val ∧ (i 2).val < win2_7.index ⟨(i 0).val, ht⟩ (2 : Fin 3) * 64 + 64; omega

theorem covered2_8 (i : S10x8x64.Idx) :
    ∃ t : Fin cfg2.N, (cfg2.win 8).flush t = true ∧ i ∈ ((cfg2.win 8).blk t).view.set := by
  have hi0 : (i 0).val < 10 := (i 0).isLt
  have hi1 : (i 1).val < 8 := (i 1).isLt
  have hi2 : (i 2).val < 64 := (i 2).isLt
  have hN : cfg2.N = 10 := N_2
  have ht : (i 0).val < cfg2.N := by omega
  obtain ⟨-, -, -, -, -, -, -, -, -, -, -, -, -, -, -, -, -, e0, e1, e2⟩ := index2 ⟨(i 0).val, ht⟩
  have e0' : win2_8.index ⟨(i 0).val, ht⟩ (0 : Fin 3) = (i 0).val := e0
  refine ⟨⟨(i 0).val, ht⟩, flush2_8 _, ?_⟩
  rw [mem2_8]
  intro a
  match a with
  | ⟨0, _⟩ => show win2_8.index ⟨(i 0).val, ht⟩ (0 : Fin 3) * 1 ≤ (i 0).val ∧ (i 0).val < win2_8.index ⟨(i 0).val, ht⟩ (0 : Fin 3) * 1 + 1; omega
  | ⟨1, _⟩ => show win2_8.index ⟨(i 0).val, ht⟩ (1 : Fin 3) * 8 ≤ (i 1).val ∧ (i 1).val < win2_8.index ⟨(i 0).val, ht⟩ (1 : Fin 3) * 8 + 8; omega
  | ⟨2, _⟩ => show win2_8.index ⟨(i 0).val, ht⟩ (2 : Fin 3) * 64 ≤ (i 2).val ∧ (i 2).val < win2_8.index ⟨(i 0).val, ht⟩ (2 : Fin 3) * 64 + 64; omega

/-! ## The arrays after the region, at any entry contents -/

theorem arr2_6 (c : Dev nD) : (dat2 V c).arrAt 6 cfg2.N = zOf2 V c :=
  (dat2 V c).arrAt_eq_of_cover 6 (zOf2 V c) (fun t _ => wrote2_6 V c t) covered2_6

theorem arr2_7 (c : Dev nD) : (dat2 V c).arrAt 7 cfg2.N = tileSums (zOf2 V c) :=
  (dat2 V c).arrAt_eq_of_cover 7 (tileSums (zOf2 V c)) (fun t _ => wrote2_7 V c t) covered2_7

theorem arr2_8 (c : Dev nD) : (dat2 V c).arrAt 8 cfg2.N = tileSumSqs (zOf2 V c) :=
  (dat2 V c).arrAt_eq_of_cover 8 (tileSumSqs (zOf2 V c)) (fun t _ => wrote2_8 V c t) covered2_8

end Region2

/-! ## The region in the run -/

variable (m : (ℓ : Loc nD τ sig) → Buf (Elt Ideal) ℓ) (ρ : Dev nD → PrngReg)

/-- After the region its first output holds the perceptron of the six input arrays as the region found them. -/
theorem region2_z (c : Dev nD) :
    W6 (F := Ideal) m ρ c (Proc.devRef .tc main_v61_0)
      = mlp (n := 50000) (V5 m ρ c main_v58) (V5 m ρ c main_v43) (V5 m ρ c main_arg9) (V5 m ρ c main_v59) (V5 m ρ c main_arg11) (V5 m ρ c main_v60) :=
  (W6_arr m ρ c 6).trans (arr2_6 (V5 m ρ) c)

/-- Its second output holds each tile's column sums, eight copies each. -/
theorem region2_sums (c : Dev nD) :
    W6 (F := Ideal) m ρ c (Proc.devRef .tc main_v61_1)
      = tileSums (mlp (n := 50000) (V5 m ρ c main_v58) (V5 m ρ c main_v43) (V5 m ρ c main_arg9) (V5 m ρ c main_v59) (V5 m ρ c main_arg11) (V5 m ρ c main_v60)) :=
  (W6_arr m ρ c 7).trans (arr2_7 (V5 m ρ) c)

/-- Its third output holds each tile's column sums of squares, eight copies each. -/
theorem region2_sumsqs (c : Dev nD) :
    W6 (F := Ideal) m ρ c (Proc.devRef .tc main_v61_2)
      = tileSumSqs (mlp (n := 50000) (V5 m ρ c main_v58) (V5 m ρ c main_v43) (V5 m ρ c main_arg9) (V5 m ρ c main_v59) (V5 m ρ c main_arg11) (V5 m ρ c main_v60)) :=
  (W6_arr m ρ c 8).trans (arr2_8 (V5 m ρ) c)

end Cert.KernelIdeal.Stage1

end
-- ==== Proof.Stage1Region4.lean ====
/-
  Region 4 of the run (a stage-1 pass over ten tiles of 5000 rows), as whole-array equalities.

  The grid has ten points.  At point t the two row-tiled inputs are read at tile t (rows 5000 t to 5000 t + 4999),
  the four weight arrays are read whole, and three blocks are written back: tile t of the 50000 x 64 result, and
  slab t of each of the two 10 x 8 x 64 arrays of partial sums.  The body's block is the perceptron of its input
  blocks; the perceptron acts row by row, so that block is tile t of the perceptron of the whole inputs.  The ten
  tiles cover every row, and the ten slabs cover each array of partial sums, so each output array ends holding one
  function of the arrays as the region found them.
-/
import proofs.«177788_j17205638988409_2_alg».proof.Proof.Gen.KernelIdeal.Frame
import proofs.«177788_j17205638988409_2_alg».proof.Proof.GinSpec
import proofs.«177788_j17205638988409_2_alg».proof.Proof.Stage1Payload
import proofs.«177788_j17205638988409_2_alg».proof.Proof.Stage1Tile
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Stage1

open Cert.KernelIdeal Cert.KernelIdeal.Gen Idealize.ShloMosaic Idealize.ShloMosaic.TcCoe Idealize.SL.Sem
open Idealize.ShloMosaic.ValueIdx
open Idealize.ShloMosaic.Pipeline (Dat)
open Cert.GinSpec (Mat Arr3 mlp tileRow rowTile colSum colSumSq tileSums tileSumSqs)

section Region4

variable (V : (c : Dev nD) → (b : Ref sig .tc) → Buf (Elt Ideal) ((c : Thread nD τ).loc b))

/-! ## The payloads of this region are those of region 0 -/

theorem pay2_same4 : k4_pay2 (F := Ideal) = k0_pay2 (F := Ideal) := rfl
theorem pay3_same4 : k4_pay3 (F := Ideal) = k0_pay3 (F := Ideal) := rfl
theorem pay4_same4 : k4_pay4 (F := Ideal) = k0_pay4 (F := Ideal) := rfl
theorem pay1_same4 : k4_pay1 (F := Ideal) = k0_pay1 (F := Ideal) := rfl

/-! ## The index maps, decided over the ten grid points -/

theorem zero24 : (![0, 0] : Fin 2 → Nat) = fun _ => 0 := funext fun a => by fin_cases a <;> rfl
theorem zero34 : (![0, 0, 0] : Fin 3 → Nat) = fun _ => 0 := funext fun a => by fin_cases a <;> rfl

/-- The two tiled inputs and the three outputs move with the grid point on their leading axis; the four weight arrays
    stay at block (0, 0). -/
theorem index4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 3) = t.val ∧ win4_7.index t (1 : Fin 3) = 0 ∧ win4_7.index t (2 : Fin 3) = 0
    ∧ win4_8.index t (0 : Fin 3) = t.val ∧ win4_8.index t (1 : Fin 3) = 0 ∧ win4_8.index t (2 : Fin 3) = 0 :=
  (by decide +kernel : ∀ t : Fin grid4.N, _)

/-- A grid point as a tile number. -/
def tileOf4 (t : Fin cfg4.N) : Fin 10 := ⟨t.val, lt_of_lt_of_eq t.isLt N_4⟩

/-! ## The input blocks at a point -/

/-- Row r of the first input's block at point t is row 5000 t + r of its array. -/
theorem aggBlock4 (c : Dev nD) (t : Fin cfg4.N) (r : Fin 5000) (k : Fin 64) :
    (iblk4 V c 0 t : S5000x64.Idx → EReal) (ix2 r k) = (V c main_v101 : S50000x64.Idx → EReal) (ix2 (tileRow (tileOf4 t) r) k) := by
  obtain ⟨e0, e1, -⟩ := index4 t
  show (V c main_v101 : S50000x64.Idx → EReal) (((cfg4.win 0).blk t).view.emb (ix2 r k)) = _
  refine congrArg _ ?_
  funext a; apply Fin.ext
  match a with
  | ⟨0, _⟩ => show win4_0.index t (0 : Fin 2) * 5000 + 1 * r.val = 5000 * t.val + r.val; omega
  | ⟨1, _⟩ => show win4_0.index t (1 : Fin 2) * 64 + 1 * k.val = k.val; omega

/-- Row r of the second input's block at point t is row 5000 t + r of its array. -/
theorem hBlock4 (c : Dev nD) (t : Fin cfg4.N) (r : Fin 5000) (k : Fin 64) :
    (iblk4 V c 1 t : S5000x64.Idx → EReal) (ix2 r k) = (V c main_v86 : S50000x64.Idx → EReal) (ix2 (tileRow (tileOf4 t) r) k) := by
  obtain ⟨-, -, e0, e1, -⟩ := index4 t
  show (V c main_v86 : S50000x64.Idx → EReal) (((cfg4.win 1).blk t).view.emb (ix2 r k)) = _
  refine congrArg _ ?_
  funext a; apply Fin.ext
  match a with
  | ⟨0, _⟩ => show win4_1.index t (0 : Fin 2) * 5000 + 1 * r.val = 5000 * t.val + r.val; omega
  | ⟨1, _⟩ => show win4_1.index t (1 : Fin 2) * 64 + 1 * k.val = k.val; omega

/-- The first weight matrix is read whole at every point. -/
theorem waBlock4 (c : Dev nD) (t : Fin cfg4.N) : (iblk4 V c 2 t : S64x64.Idx → EReal) = V c main_arg15 := by
  obtain ⟨-, -, -, -, e0, e1, -⟩ := index4 t
  funext y
  show (V c main_arg15 : S64x64.Idx → EReal) (((cfg4.win 2).blk t).view.emb y) = _
  refine congrArg _ ?_
  funext a; apply Fin.ext
  match a with
  | ⟨0, _⟩ => show win4_2.index t (0 : Fin 2) * 64 + 1 * (y 0).val = (y 0).val; omega
  | ⟨1, _⟩ => show win4_2.index t (1 : Fin 2) * 64 + 1 * (y 1).val = (y 1).val; omega

/-- The first bias row is read whole at every point. -/
theorem baBlock4 (c : Dev nD) (t : Fin cfg4.N) : (iblk4 V c 3 t : S1x64.Idx → EReal) = V c main_v102 := by
  obtain ⟨-, -, -, -, -, -, e0, e1, -⟩ := index4 t
  funext y
  show (V c main_v102 : S1x64.Idx → EReal) (((cfg4.win 3).blk t).view.emb y) = _
  refine congrArg _ ?_
  funext a; apply Fin.ext
  match a with
  | ⟨0, _⟩ => show win4_3.index t (0 : Fin 2) * 1 + 1 * (y 0).val = (y 0).val; omega
  | ⟨1, _⟩ => show win4_3.index t (1 : Fin 2) * 64 + 1 * (y 1).val = (y 1).val; omega

/-- The second weight matrix is read whole at every point. -/
theorem wbBlock4 (c : Dev nD) (t : Fin cfg4.N) : (iblk4 V c 4 t : S64x64.Idx → EReal) = V c main_arg17 := by
  obtain ⟨-, -, -, -, -, -, -, -, e0, e1, -⟩ := index4 t
  funext y
  show (V c main_arg17 : S64x64.Idx → EReal) (((cfg4.win 4).blk t).view.emb y) = _
  refine congrArg _ ?_
  funext a; apply Fin.ext
  match a with
  | ⟨0, _⟩ => show win4_4.index t (0 : Fin 2) * 64 + 1 * (y 0).val = (y 0).val; omega
  | ⟨1, _⟩ => show win4_4.index t (1 : Fin 2) * 64 + 1 * (y 1).val = (y 1).val; omega

/-- The second bias row is read whole at every point. -/
theorem bbBlock4 (c : Dev nD) (t : Fin cfg4.N) : (iblk4 V c 5 t : S1x64.Idx → EReal) = V c main_v103 := by
  obtain ⟨-, -, -, -, -, -, -, -, -, -, e0, e1, -⟩ := index4 t
  funext y
  show (V c main_v103 : S1x64.Idx → EReal) (((cfg4.win 5).blk t).view.emb y) = _
  refine congrArg _ ?_
  funext a; apply Fin.ext
  match a with
  | ⟨0, _⟩ => show win4_5.index t (0 : Fin 2) * 1 + 1 * (y 0).val = (y 0).val; omega
  | ⟨1, _⟩ => show win4_5.index t (1 : Fin 2) * 64 + 1 * (y 1).val = (y 1).val; omega

/-! ## What the region computes, as one function of the arrays it finds -/

/-- The perceptron of the whole inputs. -/
abbrev zOf4 (c : Dev nD) : Mat 50000 64 :=
  mlp (n := 50000) (V c main_v101) (V c main_v86) (V c main_arg15) (V c main_v102) (V c main_arg17) (V c main_v103)

/-- The perceptron of the blocks at point t is tile t of the perceptron of the whole inputs. -/
theorem blockIsTile4 (c : Dev nD) (t : Fin cfg4.N) :
    mlp (n := 5000) (iblk4 V c 0 t) (iblk4 V c 1 t) (iblk4 V c 2 t) (iblk4 V c 3 t) (iblk4 V c 4 t) (iblk4 V c 5 t)
      = rowTile (zOf4 V c) (tileOf4 t) := by
  have e2 := waBlock4 V c t
  have e3 := baBlock4 V c t
  have e4 := wbBlock4 V c t
  have e5 := bbBlock4 V c t
  rw [e2, e3, e4, e5]
  exact Cert.Stage1Tile.mlp_rowTile (V c main_v101) (V c main_v86) (V c main_arg15) (V c main_v102) (V c main_arg17) (V c main_v103) (tileOf4 t)
    (iblk4 V c 0 t) (iblk4 V c 1 t) (aggBlock4 V c t) (hBlock4 V c t)

/-! ## What each point writes back -/

/-- Point t writes tile t of the result. -/
theorem wrote4_6 (c : Dev nD) (t : Fin cfg4.N) :
    (dat4 V c).flushed 6 t = ((cfg4.win 6).blk t).view.read (Elt Ideal) (zOf4 V c) := by
  show (cfg4.win 6).cut (grid4.coords t) ((dat4 V c).after 6 t) = _
  rw [after4_6]
  unfold out4_6
  rw [View.canon_unit_zero zero24]
  simp only [View.ld_unit_zero (S := S5000x64) zero24, View.ld_unit_zero (S := S64x64) zero24, View.ld_unit_zero (S := S1x64) zero24]
  rw [pay2_same4, pay2_eq, blockIsTile4 V c t]
  obtain ⟨-, -, -, -, -, -, -, -, -, -, -, -, e0, e1, -⟩ := index4 t
  refine Cert.Stage1Tile.rows_block (zOf4 V c) (tileOf4 t) _ rfl (fun y => ((cfg4.win 6).blk t).view.emb y) fun r k => ?_
  funext a; apply Fin.ext
  match a with
  | ⟨0, _⟩ => show win4_6.index t (0 : Fin 2) * 5000 + 1 * r.val = 5000 * t.val + r.val; omega
  | ⟨1, _⟩ => show win4_6.index t (1 : Fin 2) * 64 + 1 * k.val = k.val; omega

/-- Point t writes slab t of the column sums. -/
theorem wrote4_7 (c : Dev nD) (t : Fin cfg4.N) :
    (dat4 V c).flushed 7 t = ((cfg4.win 7).blk t).view.read (Elt Ideal) (tileSums (zOf4 V c)) := by
  show (cfg4.win 7).cut (grid4.coords t) ((dat4 V c).after 7 t) = _
  rw [after4_7]
  unfold out4_7
  rw [View.canon_unit_zero zero34]
  simp only [View.ld_unit_zero (S := S5000x64) zero24, View.ld_unit_zero (S := S64x64) zero24, View.ld_unit_zero (S := S1x64) zero24]
  obtain ⟨-, -, -, -, -, -, -, -, -, -, -, -, -, -, e0, e1, e2, -⟩ := index4 t
  refine Cert.Stage1Tile.sums_block (zOf4 V c) (tileOf4 t) _ (fun s q => ?_) (fun y => ((cfg4.win 7).blk t).view.emb y) fun u s q => ?_
  · rw [pay4_same4]
    refine (pay4_apply _ _ _ _ _ _ s q).trans ?_
    rw [blockIsTile4 V c t]
  · have hu : u.val = 0 := by omega
    funext a; apply Fin.ext
    match a with
    | ⟨0, _⟩ => show win4_7.index t (0 : Fin 3) * 1 + 1 * u.val = t.val; omega
    | ⟨1, _⟩ => show win4_7.index t (1 : Fin 3) * 8 + 1 * s.val = s.val; omega
    | ⟨2, _⟩ => show win4_7.index t (2 : Fin 3) * 64 + 1 * q.val = q.val; omega

/-- Point t writes slab t of the column sums of squares. -/
theorem wrote4_8 (c : Dev nD) (t : Fin cfg4.N) :
    (dat4 V c).flushed 8 t = ((cfg4.win 8).blk t).view.read (Elt Ideal) (tileSumSqs (zOf4 V c)) := by
  show (cfg4.win 8).cut (grid4.coords t) ((dat4 V c).after 8 t) = _
  rw [after4_8]
  unfold out4_8
  rw [View.canon_unit_zero zero34]
  simp only [View.ld_unit_zero (S := S5000x64) zero24, View.ld_unit_zero (S := S64x64) zero24, View.ld_unit_zero (S := S1x64) zero24]
  obtain ⟨-, -, -, -, -, -, -, -, -, -, -, -, -, -, -, -, -, e0, e1, e2⟩ := index4 t
  refine Cert.Stage1Tile.sumsqs_block (zOf4 V c) (tileOf4 t) _ (fun s q => ?_) (fun y => ((cfg4.win 8).blk t).view.emb y) fun u s q => ?_
  · rw [pay1_same4, pay3_same4]
    refine (pay1_pay3_apply _ _ _ _ _ _ s q).trans ?_
    rw [blockIsTile4 V c t]
  · have hu : u.val = 0 := by omega
    funext a; apply Fin.ext
    match a with
    | ⟨0, _⟩ => show win4_8.index t (0 : Fin 3) * 1 + 1 * u.val = t.val; omega
    | ⟨1, _⟩ => show win4_8.index t (1 : Fin 3) * 8 + 1 * s.val = s.val; omega
    | ⟨2, _⟩ => show win4_8.index t (2 : Fin 3) * 64 + 1 * q.val = q.val; omega

/-! ## The blocks cover the arrays -/

/-- An index of the result is in point t's block iff each coordinate is in the block's range on its axis. -/
theorem mem4_6 (t : Fin cfg4.N) (i : S50000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v104_0).slice (win4_6.rect t)).set ↔ _
  rw [View.set_slice_whole, Rect.mem_set_unit]
  exact Iff.rfl

theorem mem4_7 (t : Fin cfg4.N) (i : S10x8x64.Idx) :
    i ∈ ((cfg4.win 7).blk t).view.set ↔ ∀ a : Fin 3, win4_7.index t a * S1x8x64.size a ≤ (i a).val ∧ (i a).val < win4_7.index t a * S1x8x64.size a + S1x8x64.size a := by
  show i ∈ ((View.whole main_v104_1).slice (win4_7.rect t)).set ↔ _
  rw [View.set_slice_whole, Rect.mem_set_unit]
  exact Iff.rfl

theorem mem4_8 (t : Fin cfg4.N) (i : S10x8x64.Idx) :
    i ∈ ((cfg4.win 8).blk t).view.set ↔ ∀ a : Fin 3, win4_8.index t a * S1x8x64.size a ≤ (i a).val ∧ (i a).val < win4_8.index t a * S1x8x64.size a + S1x8x64.size a := by
  show i ∈ ((View.whole main_v104_2).slice (win4_8.rect t)).set ↔ _
  rw [View.set_slice_whole, Rect.mem_set_unit]
  exact Iff.rfl

/-- Row r of the result lies in tile r / 5000. -/
theorem covered4_6 (i : S50000x64.Idx) :
    ∃ t : Fin cfg4.N, (cfg4.win 6).flush t = true ∧ i ∈ ((cfg4.win 6).blk t).view.set := by
  have hi0 : (i 0).val < 50000 := idx2_lt0 i
  have hi1 : (i 1).val < 64 := idx2_lt1 i
  have hN : cfg4.N = 10 := N_4
  have ht : (i 0).val / 5000 < cfg4.N := by omega
  obtain ⟨-, -, -, -, -, -, -, -, -, -, -, -, e0, e1, -⟩ := index4 ⟨(i 0).val / 5000, ht⟩
  have e0' : win4_6.index ⟨(i 0).val / 5000, ht⟩ (0 : Fin 2) = (i 0).val / 5000 := e0
  refine ⟨⟨(i 0).val / 5000, ht⟩, flush4_6 _, ?_⟩
  rw [mem4_6]
  intro a
  match a with
  | ⟨0, _⟩ => show win4_6.index ⟨(i 0).val / 5000, ht⟩ (0 : Fin 2) * 5000 ≤ (i 0).val ∧ (i 0).val < win4_6.index ⟨(i 0).val / 5000, ht⟩ (0 : Fin 2) * 5000 + 5000; omega
  | ⟨1, _⟩ => show win4_6.index ⟨(i 0).val / 5000, ht⟩ (1 : Fin 2) * 64 ≤ (i 1).val ∧ (i 1).val < win4_6.index ⟨(i 0).val / 5000, ht⟩ (1 : Fin 2) * 64 + 64; omega

/-- Slab t of the stored sums is point t's block. -/
theorem covered4_7 (i : S10x8x64.Idx) :
    ∃ t : Fin cfg4.N, (cfg4.win 7).flush t = true ∧ i ∈ ((cfg4.win 7).blk t).view.set := by
  have hi0 : (i 0).val < 10 := (i 0).isLt
  have hi1 : (i 1).val < 8 := (i 1).isLt
  have hi2 : (i 2).val < 64 := (i 2).isLt
  have hN : cfg4.N = 10 := N_4
  have ht : (i 0).val < cfg4.N := by omega
  obtain ⟨-, -, -, -, -, -, -, -, -, -, -, -, -, -, e0, e1, e2, -⟩ := index4 ⟨(i 0).val, ht⟩
  have e0' : win4_7.index ⟨(i 0).val, ht⟩ (0 : Fin 3) = (i 0).val := e0
  refine ⟨⟨(i 0).val, ht⟩, flush4_7 _, ?_⟩
  rw [mem4_7]
  intro a
  match a with
  | ⟨0, _⟩ => show win4_7.index ⟨(i 0).val, ht⟩ (0 : Fin 3) * 1 ≤ (i 0).val ∧ (i 0).val < win4_7.index ⟨(i 0).val, ht⟩ (0 : Fin 3) * 1 + 1; omega
  | ⟨1, _⟩ => show win4_7.index ⟨(i 0).val, ht⟩ (1 : Fin 3) * 8 ≤ (i 1).val ∧ (i 1).val < win4_7.index ⟨(i 0).val, ht⟩ (1 : Fin 3) * 8 + 8; omega
  | ⟨2, _⟩ => show win4_7.index ⟨(i 0).val, ht⟩ (2 : Fin 3) * 64 ≤ (i 2).val ∧ (i 2).val < win4_7.index ⟨(i 0).val, ht⟩ (2 : Fin 3) * 64 + 64; omega

theorem covered4_8 (i : S10x8x64.Idx) :
    ∃ t : Fin cfg4.N, (cfg4.win 8).flush t = true ∧ i ∈ ((cfg4.win 8).blk t).view.set := by
  have hi0 : (i 0).val < 10 := (i 0).isLt
  have hi1 : (i 1).val < 8 := (i 1).isLt
  have hi2 : (i 2).val < 64 := (i 2).isLt
  have hN : cfg4.N = 10 := N_4
  have ht : (i 0).val < cfg4.N := by omega
  obtain ⟨-, -, -, -, -, -, -, -, -, -, -, -, -, -, -, -, -, e0, e1, e2⟩ := index4 ⟨(i 0).val, ht⟩
  have e0' : win4_8.index ⟨(i 0).val, ht⟩ (0 : Fin 3) = (i 0).val := e0
  refine ⟨⟨(i 0).val, ht⟩, flush4_8 _, ?_⟩
  rw [mem4_8]
  intro a
  match a with
  | ⟨0, _⟩ => show win4_8.index ⟨(i 0).val, ht⟩ (0 : Fin 3) * 1 ≤ (i 0).val ∧ (i 0).val < win4_8.index ⟨(i 0).val, ht⟩ (0 : Fin 3) * 1 + 1; omega
  | ⟨1, _⟩ => show win4_8.index ⟨(i 0).val, ht⟩ (1 : Fin 3) * 8 ≤ (i 1).val ∧ (i 1).val < win4_8.index ⟨(i 0).val, ht⟩ (1 : Fin 3) * 8 + 8; omega
  | ⟨2, _⟩ => show win4_8.index ⟨(i 0).val, ht⟩ (2 : Fin 3) * 64 ≤ (i 2).val ∧ (i 2).val < win4_8.index ⟨(i 0).val, ht⟩ (2 : Fin 3) * 64 + 64; omega

/-! ## The arrays after the region, at any entry contents -/

theorem arr4_6 (c : Dev nD) : (dat4 V c).arrAt 6 cfg4.N = zOf4 V c :=
  (dat4 V c).arrAt_eq_of_cover 6 (zOf4 V c) (fun t _ => wrote4_6 V c t) covered4_6

theorem arr4_7 (c : Dev nD) : (dat4 V c).arrAt 7 cfg4.N = tileSums (zOf4 V c) :=
  (dat4 V c).arrAt_eq_of_cover 7 (tileSums (zOf4 V c)) (fun t _ => wrote4_7 V c t) covered4_7

theorem arr4_8 (c : Dev nD) : (dat4 V c).arrAt 8 cfg4.N = tileSumSqs (zOf4 V c) :=
  (dat4 V c).arrAt_eq_of_cover 8 (tileSumSqs (zOf4 V c)) (fun t _ => wrote4_8 V c t) covered4_8

end Region4

/-! ## The region in the run -/

variable (m : (ℓ : Loc nD τ sig) → Buf (Elt Ideal) ℓ) (ρ : Dev nD → PrngReg)

/-- After the region its first output holds the perceptron of the six input arrays as the region found them. -/
theorem region4_z (c : Dev nD) :
    W10 (F := Ideal) m ρ c (Proc.devRef .tc main_v104_0)
      = mlp (n := 50000) (V9 m ρ c main_v101) (V9 m ρ c main_v86) (V9 m ρ c main_arg15) (V9 m ρ c main_v102) (V9 m ρ c main_arg17) (V9 m ρ c main_v103) :=
  (W10_arr m ρ c 6).trans (arr4_6 (V9 m ρ) c)

/-- Its second output holds each tile's column sums, eight copies each. -/
theorem region4_sums (c : Dev nD) :
    W10 (F := Ideal) m ρ c (Proc.devRef .tc main_v104_1)
      = tileSums (mlp (n := 50000) (V9 m ρ c main_v101) (V9 m ρ c main_v86) (V9 m ρ c main_arg15) (V9 m ρ c main_v102) (V9 m ρ c main_arg17) (V9 m ρ c main_v103)) :=
  (W10_arr m ρ c 7).trans (arr4_7 (V9 m ρ) c)

/-- Its third output holds each tile's column sums of squares, eight copies each. -/
theorem region4_sumsqs (c : Dev nD) :
    W10 (F := Ideal) m ρ c (Proc.devRef .tc main_v104_2)
      = tileSumSqs (mlp (n := 50000) (V9 m ρ c main_v101) (V9 m ρ c main_v86) (V9 m ρ c main_arg15) (V9 m ρ c main_v102) (V9 m ρ c main_arg17) (V9 m ρ c main_v103)) :=
  (W10_arr m ρ c 8).trans (arr4_8 (V9 m ρ) c)

end Cert.KernelIdeal.Stage1

end
-- ==== Proof.Stage1Value.lean ====
/-
  The three stage-1 regions of the run (regions 0, 2 and 4), each as whole-array equalities: after the region its
  first output holds the perceptron of the six input arrays as the region found them, and its second and third
  outputs hold the column sums of that result, and of its squares, over each tile of 5000 rows, eight copies each.
  The three regions run the same body on the same grid; only the arrays differ.
-/
import proofs.«177788_j17205638988409_2_alg».proof.Proof.Stage1Region0
import proofs.«177788_j17205638988409_2_alg».proof.Proof.Stage1Region2
import proofs.«177788_j17205638988409_2_alg».proof.Proof.Stage1Region4
-- ==== Proof.Stage2Value.lean ====
/-
  The three normalisation regions of the kernel program, each as one whole-array equality.

  A normalisation region walks the lane-dense matrix `Z2` (25000 rows of 128: two node rows side by side) in five tiles
  of 5000 rows. At a tile it reads the tile of `Z2` and the four parameter rows `[1, 128]` whole (mean, variance, scale,
  shift), and leaves in the tile of the result `(z - mean) * rsqrt (variance + eps) * scale + shift`, entry by entry; the
  closing change of format is the identity on extended reals. Row `r` of the result lies in tile `r / 5000`, so the five
  tiles fill the array and the region's result is `Cert.GinSpec.normDense` of the five arrays as the region finds them.
-/
import proofs.«177788_j17205638988409_2_alg».proof.Proof.Gen.KernelIdeal.Frame
import proofs.«177788_j17205638988409_2_alg».proof.Proof.GinSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage2

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The body's arithmetic at an entry -/

theorem hz : (![0, 0] : Fin 2 → Nat) = fun _ => 0 := funext fun a => by fin_cases a <;> rfl

/-- The body's stored value at row `p`, column `q` of the tile: the tile's entry less the mean row's, times the
    reciprocal square root of the variance row's plus the offset, times the scale row's, plus the shift row's. The body
    loads the variance row before the mean row, so they are its second and third operands. -/
theorem pay_apply (x0 : Vec Ideal S5000x128 .f32) (x1 x2 x3 x4 : Vec Ideal S1x128 .f32) (p : Fin 5000) (q : Fin 128) :
    k1_pay1 (F := Ideal) x0 x1 x2 x3 x4 (ix2 p q)
      = (x0 (ix2 p q) - x2 (ix2 0 q)) * Ideal.rsqrt (x1 (ix2 0 q) + Cert.GinSpec.epsW) * x3 (ix2 0 q) + x4 (ix2 0 q) := by
  unfold k1_pay1
  simp only [shapeCast_self, truncf_apply, addf_apply, mulf_apply, subf_apply, broadcastTo_1b_ab_apply]
  rfl

/-- The three normalisation bodies are one text. -/
theorem pay3_eq : @k3_pay1 = @k1_pay1 := rfl
theorem pay5_eq : @k5_pay1 = @k1_pay1 := rfl

/-- The same entry-wise reading for the body of region 3. -/
theorem pay3_apply (x0 : Vec Ideal S5000x128 .f32) (x1 x2 x3 x4 : Vec Ideal S1x128 .f32) (p : Fin 5000) (q : Fin 128) :
    k3_pay1 (F := Ideal) x0 x1 x2 x3 x4 (ix2 p q)
      = (x0 (ix2 p q) - x2 (ix2 0 q)) * Ideal.rsqrt (x1 (ix2 0 q) + Cert.GinSpec.epsW) * x3 (ix2 0 q) + x4 (ix2 0 q) := by
  rw [pay3_eq]; exact pay_apply x0 x1 x2 x3 x4 p q

/-- The same entry-wise reading for the body of region 5. -/
theorem pay5_apply (x0 : Vec Ideal S5000x128 .f32) (x1 x2 x3 x4 : Vec Ideal S1x128 .f32) (p : Fin 5000) (q : Fin 128) :
    k5_pay1 (F := Ideal) x0 x1 x2 x3 x4 (ix2 p q)
      = (x0 (ix2 p q) - x2 (ix2 0 q)) * Ideal.rsqrt (x1 (ix2 0 q) + Cert.GinSpec.epsW) * x3 (ix2 0 q) + x4 (ix2 0 q) := by
  rw [pay5_eq]; exact pay_apply x0 x1 x2 x3 x4 p q

/-- The specification's normalisation at an entry whose column is `q`. -/
theorem norm_at (Z : Cert.GinSpec.Mat 25000 128) (M V G B : Cert.GinSpec.Mat 1 128) (k : S25000x128.Idx) (q : Fin 128)
    (hq : (k 1).val = q.val) :
    Cert.GinSpec.normDense Z M V G B k
      = (Z k - M (ix2 0 q)) * Ideal.rsqrt (V (ix2 0 q) + Cert.GinSpec.epsW) * G (ix2 0 q) + B (ix2 0 q) := by
  obtain ⟨r, q', rfl⟩ : ∃ (r : Fin 25000) (q' : Fin 128), k = ix2 r q' := ⟨k 0, k 1, eq_ix2 k⟩
  obtain rfl : q' = q := Fin.ext hq
  rfl

/-! ## Region 1 -/

/-- The result of region 1 as one function of the arrays the region finds. -/
abbrev G1 (c : Dev nD) : Cert.GinSpec.Mat 25000 128 :=
  Cert.GinSpec.normDense (V3 m ρ c main_v33) (V3 m ρ c main_v35) (V3 m ρ c main_v37) (V3 m ρ c main_v39) (V3 m ρ c main_v41)

/-- The printed index maps over the five points: the matrix window and the result window sit at tile `t`, the four
    parameter windows at their one block. -/
theorem idx_facts1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The matrix window's block at point `t` is rows `5000 t … 5000 t + 4999` of the matrix. -/
theorem blk1_0_apply (c : Dev nD) (t : Fin cfg1.N) (p : Fin 5000) (q : Fin 128) (k : S25000x128.Idx)
    (hk0 : (k 0).val = 5000 * t.val + p.val) (hk1 : (k 1).val = q.val) :
    (iblk1 (V3 m ρ) c 0 t : Vec Ideal S5000x128 .f32) (ix2 p q) = (V3 m ρ c main_v33 : S25000x128.Idx → EReal) k := by
  obtain ⟨e0, e1, -⟩ := idx_facts1 t
  unfold iblk1
  rw [View.read_apply]
  show V3 m ρ c main_v33 _ = V3 m ρ c main_v33 _
  congr 1
  funext a
  apply Fin.ext
  match a with
  | ⟨0, _⟩ => show win1_0.index t 0 * 5000 + 1 * p.val = (k 0).val; rw [e0, hk0]; omega
  | ⟨1, _⟩ => show win1_0.index t 1 * 128 + 1 * q.val = (k 1).val; rw [e1, hk1]; omega

/-- A parameter window's block at any point is its one row. -/
theorem blk1_1_apply (c : Dev nD) (t : Fin cfg1.N) (q : Fin 128) :
    (iblk1 (V3 m ρ) c 1 t : Vec Ideal S1x128 .f32) (ix2 0 q) = (V3 m ρ c main_v35 : S1x128.Idx → EReal) (ix2 0 q) := by
  obtain ⟨-, -, e0, e1, -⟩ := idx_facts1 t
  unfold iblk1
  rw [View.read_apply]
  show V3 m ρ c main_v35 _ = V3 m ρ c main_v35 _
  congr 1
  funext a
  apply Fin.ext
  match a with
  | ⟨0, _⟩ => show win1_1.index t 0 * 1 + 1 * 0 = 0; rw [e0]
  | ⟨1, _⟩ => show win1_1.index t 1 * 128 + 1 * q.val = q.val; rw [e1]; omega
theorem blk1_2_apply (c : Dev nD) (t : Fin cfg1.N) (q : Fin 128) :
    (iblk1 (V3 m ρ) c 2 t : Vec Ideal S1x128 .f32) (ix2 0 q) = (V3 m ρ c main_v37 : S1x128.Idx → EReal) (ix2 0 q) := by
  obtain ⟨-, -, -, -, e0, e1, -⟩ := idx_facts1 t
  unfold iblk1
  rw [View.read_apply]
  show V3 m ρ c main_v37 _ = V3 m ρ c main_v37 _
  congr 1
  funext a
  apply Fin.ext
  match a with
  | ⟨0, _⟩ => show win1_2.index t 0 * 1 + 1 * 0 = 0; rw [e0]
  | ⟨1, _⟩ => show win1_2.index t 1 * 128 + 1 * q.val = q.val; rw [e1]; omega
theorem blk1_3_apply (c : Dev nD) (t : Fin cfg1.N) (q : Fin 128) :
    (iblk1 (V3 m ρ) c 3 t : Vec Ideal S1x128 .f32) (ix2 0 q) = (V3 m ρ c main_v39 : S1x128.Idx → EReal) (ix2 0 q) := by
  obtain ⟨-, -, -, -, -, -, e0, e1, -⟩ := idx_facts1 t
  unfold iblk1
  rw [View.read_apply]
  show V3 m ρ c main_v39 _ = V3 m ρ c main_v39 _
  congr 1
  funext a
  apply Fin.ext
  match a with
  | ⟨0, _⟩ => show win1_3.index t 0 * 1 + 1 * 0 = 0; rw [e0]
  | ⟨1, _⟩ => show win1_3.index t 1 * 128 + 1 * q.val = q.val; rw [e1]; omega
theorem blk1_4_apply (c : Dev nD) (t : Fin cfg1.N) (q : Fin 128) :
    (iblk1 (V3 m ρ) c 4 t : Vec Ideal S1x128 .f32) (ix2 0 q) = (V3 m ρ c main_v41 : S1x128.Idx → EReal) (ix2 0 q) := by
  obtain ⟨-, -, -, -, -, -, -, -, e0, e1, -⟩ := idx_facts1 t
  unfold iblk1
  rw [View.read_apply]
  show V3 m ρ c main_v41 _ = V3 m ρ c main_v41 _
  congr 1
  funext a
  apply Fin.ext
  match a with
  | ⟨0, _⟩ => show win1_4.index t 0 * 1 + 1 * 0 = 0; rw [e0]
  | ⟨1, _⟩ => show win1_4.index t 1 * 128 + 1 * q.val = q.val; rw [e1]; omega

/-- WHAT POINT `t` WRITES BACK is tile `t` of `G1`. -/
theorem flushed1_eq (c : Dev nD) (t : Fin cfg1.N) :
    (dat1 (V3 m ρ) c).flushed 5 t = ((cfg1.win 5).blk t).view.read (Elt Ideal) (G1 m ρ c) := by
  show (cfg1.win 5).cut (grid1.coords t) ((dat1 (V3 m ρ) c).after 5 t) = _
  rw [after1_5]
  unfold out1_5
  rw [View.canon_unit_zero hz]
  simp only [View.ld_unit_zero (S := S5000x128) hz, View.ld_unit_zero (S := S1x128) hz]
  obtain ⟨-, -, -, -, -, -, -, -, -, -, e0, e1⟩ := idx_facts1 t
  funext j
  obtain ⟨p, q, rfl⟩ : ∃ (p : Fin 5000) (q : Fin 128), j = ix2 p q := ⟨j 0, j 1, eq_ix2 j⟩
  show k1_pay1 (F := Ideal) (iblk1 (V3 m ρ) c 0 t) (iblk1 (V3 m ρ) c 2 t) (iblk1 (V3 m ρ) c 1 t) (iblk1 (V3 m ρ) c 3 t) (iblk1 (V3 m ρ) c 4 t) (ix2 p q)
      = G1 m ρ c (((cfg1.win 5).blk t).view.emb (ix2 p q))
  have hk0 : ((((cfg1.win 5).blk t).view.emb (ix2 p q) : S25000x128.Idx) 0).val = 5000 * t.val + p.val := by
    show win1_5.index t 0 * 5000 + 1 * p.val = _; rw [e0]; omega
  have hk1 : ((((cfg1.win 5).blk t).view.emb (ix2 p q) : S25000x128.Idx) 1).val = q.val := by
    show win1_5.index t 1 * 128 + 1 * q.val = _; rw [e1]; omega
  refine (pay_apply (iblk1 (V3 m ρ) c 0 t) (iblk1 (V3 m ρ) c 2 t) (iblk1 (V3 m ρ) c 1 t) (iblk1 (V3 m ρ) c 3 t) (iblk1 (V3 m ρ) c 4 t) p q).trans ?_
  rw [blk1_0_apply m ρ c t p q _ hk0 hk1, blk1_1_apply m ρ c t q, blk1_2_apply m ρ c t q, blk1_3_apply m ρ c t q, blk1_4_apply m ρ c t q]
  exact (norm_at _ _ _ _ _ _ q hk1).symm

/-- An index of the array is in point `t`'s block iff each coordinate is in the block's range on its axis. -/
theorem mem_blk1 (t : Fin cfg1.N) (i : S25000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v42).slice (win1_5.rect t)).set ↔ _
  rw [View.set_slice_whole, Rect.mem_set_unit]
  exact Iff.rfl

/-- Row `r` of the result lies in tile `r / 5000`: the five tiles fill the array. -/
theorem cover1 (i : S25000x128.Idx) :
    ∃ t : Fin cfg1.N, (cfg1.win 5).flush t = true ∧ i ∈ ((cfg1.win 5).blk t).view.set := by
  have hi0 : (i 0).val < 25000 := (i 0).isLt
  have hi1 : (i 1).val < 128 := (i 1).isLt
  have hN : cfg1.N = 5 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx_facts1 t
  refine ⟨t, flush1_5 t, ?_⟩
  rw [mem_blk1]
  intro a
  match a with
  | ⟨0, _⟩ => show win1_5.index t 0 * 5000 ≤ (i 0).val ∧ (i 0).val < win1_5.index t 0 * 5000 + 5000; rw [e0, ht]; omega
  | ⟨1, _⟩ => show win1_5.index t 1 * 128 ≤ (i 1).val ∧ (i 1).val < win1_5.index t 1 * 128 + 128; rw [e1]; omega

/-- THE ARRAY after region 1: the normalisation of the arrays the region finds. -/
theorem final1 (c : Dev nD) : (dat1 (V3 m ρ) c).arrAt 5 cfg1.N = G1 m ρ c :=
  (dat1 (V3 m ρ) c).arrAt_eq_of_cover 5 (G1 m ρ c) (fun t _ => flushed1_eq m ρ c t) cover1

theorem region1_out (c : Dev nD) :
    W4 (F := Ideal) m ρ c (Proc.devRef .tc main_v42)
      = Cert.GinSpec.normDense (V3 m ρ c main_v33) (V3 m ρ c main_v35) (V3 m ρ c main_v37) (V3 m ρ c main_v39) (V3 m ρ c main_v41) :=
  (W4_arr m ρ c 5).trans (final1 m ρ c)

/-! ## Region 3 -/

/-- The result of region 3 as one function of the arrays the region finds. -/
abbrev G3 (c : Dev nD) : Cert.GinSpec.Mat 25000 128 :=
  Cert.GinSpec.normDense (V7 m ρ c main_v76) (V7 m ρ c main_v78) (V7 m ρ c main_v80) (V7 m ρ c main_v82) (V7 m ρ c main_v84)

/-- The printed index maps over the five points: the matrix window and the result window sit at tile `t`, the four
    parameter windows at their one block. -/
theorem idx_facts3 : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The matrix window's block at point `t` is rows `5000 t … 5000 t + 4999` of the matrix. -/
theorem blk3_0_apply (c : Dev nD) (t : Fin cfg3.N) (p : Fin 5000) (q : Fin 128) (k : S25000x128.Idx)
    (hk0 : (k 0).val = 5000 * t.val + p.val) (hk1 : (k 1).val = q.val) :
    (iblk3 (V7 m ρ) c 0 t : Vec Ideal S5000x128 .f32) (ix2 p q) = (V7 m ρ c main_v76 : S25000x128.Idx → EReal) k := by
  obtain ⟨e0, e1, -⟩ := idx_facts3 t
  unfold iblk3
  rw [View.read_apply]
  show V7 m ρ c main_v76 _ = V7 m ρ c main_v76 _
  congr 1
  funext a
  apply Fin.ext
  match a with
  | ⟨0, _⟩ => show win3_0.index t 0 * 5000 + 1 * p.val = (k 0).val; rw [e0, hk0]; omega
  | ⟨1, _⟩ => show win3_0.index t 1 * 128 + 1 * q.val = (k 1).val; rw [e1, hk1]; omega

/-- A parameter window's block at any point is its one row. -/
theorem blk3_1_apply (c : Dev nD) (t : Fin cfg3.N) (q : Fin 128) :
    (iblk3 (V7 m ρ) c 1 t : Vec Ideal S1x128 .f32) (ix2 0 q) = (V7 m ρ c main_v78 : S1x128.Idx → EReal) (ix2 0 q) := by
  obtain ⟨-, -, e0, e1, -⟩ := idx_facts3 t
  unfold iblk3
  rw [View.read_apply]
  show V7 m ρ c main_v78 _ = V7 m ρ c main_v78 _
  congr 1
  funext a
  apply Fin.ext
  match a with
  | ⟨0, _⟩ => show win3_1.index t 0 * 1 + 1 * 0 = 0; rw [e0]
  | ⟨1, _⟩ => show win3_1.index t 1 * 128 + 1 * q.val = q.val; rw [e1]; omega
theorem blk3_2_apply (c : Dev nD) (t : Fin cfg3.N) (q : Fin 128) :
    (iblk3 (V7 m ρ) c 2 t : Vec Ideal S1x128 .f32) (ix2 0 q) = (V7 m ρ c main_v80 : S1x128.Idx → EReal) (ix2 0 q) := by
  obtain ⟨-, -, -, -, e0, e1, -⟩ := idx_facts3 t
  unfold iblk3
  rw [View.read_apply]
  show V7 m ρ c main_v80 _ = V7 m ρ c main_v80 _
  congr 1
  funext a
  apply Fin.ext
  match a with
  | ⟨0, _⟩ => show win3_2.index t 0 * 1 + 1 * 0 = 0; rw [e0]
  | ⟨1, _⟩ => show win3_2.index t 1 * 128 + 1 * q.val = q.val; rw [e1]; omega
theorem blk3_3_apply (c : Dev nD) (t : Fin cfg3.N) (q : Fin 128) :
    (iblk3 (V7 m ρ) c 3 t : Vec Ideal S1x128 .f32) (ix2 0 q) = (V7 m ρ c main_v82 : S1x128.Idx → EReal) (ix2 0 q) := by
  obtain ⟨-, -, -, -, -, -, e0, e1, -⟩ := idx_facts3 t
  unfold iblk3
  rw [View.read_apply]
  show V7 m ρ c main_v82 _ = V7 m ρ c main_v82 _
  congr 1
  funext a
  apply Fin.ext
  match a with
  | ⟨0, _⟩ => show win3_3.index t 0 * 1 + 1 * 0 = 0; rw [e0]
  | ⟨1, _⟩ => show win3_3.index t 1 * 128 + 1 * q.val = q.val; rw [e1]; omega
theorem blk3_4_apply (c : Dev nD) (t : Fin cfg3.N) (q : Fin 128) :
    (iblk3 (V7 m ρ) c 4 t : Vec Ideal S1x128 .f32) (ix2 0 q) = (V7 m ρ c main_v84 : S1x128.Idx → EReal) (ix2 0 q) := by
  obtain ⟨-, -, -, -, -, -, -, -, e0, e1, -⟩ := idx_facts3 t
  unfold iblk3
  rw [View.read_apply]
  show V7 m ρ c main_v84 _ = V7 m ρ c main_v84 _
  congr 1
  funext a
  apply Fin.ext
  match a with
  | ⟨0, _⟩ => show win3_4.index t 0 * 1 + 1 * 0 = 0; rw [e0]
  | ⟨1, _⟩ => show win3_4.index t 1 * 128 + 1 * q.val = q.val; rw [e1]; omega

/-- WHAT POINT `t` WRITES BACK is tile `t` of `G3`. -/
theorem flushed3_eq (c : Dev nD) (t : Fin cfg3.N) :
    (dat3 (V7 m ρ) c).flushed 5 t = ((cfg3.win 5).blk t).view.read (Elt Ideal) (G3 m ρ c) := by
  show (cfg3.win 5).cut (grid3.coords t) ((dat3 (V7 m ρ) c).after 5 t) = _
  rw [after3_5]
  unfold out3_5
  rw [View.canon_unit_zero hz]
  simp only [View.ld_unit_zero (S := S5000x128) hz, View.ld_unit_zero (S := S1x128) hz]
  obtain ⟨-, -, -, -, -, -, -, -, -, -, e0, e1⟩ := idx_facts3 t
  funext j
  obtain ⟨p, q, rfl⟩ : ∃ (p : Fin 5000) (q : Fin 128), j = ix2 p q := ⟨j 0, j 1, eq_ix2 j⟩
  show k3_pay1 (F := Ideal) (iblk3 (V7 m ρ) c 0 t) (iblk3 (V7 m ρ) c 2 t) (iblk3 (V7 m ρ) c 1 t) (iblk3 (V7 m ρ) c 3 t) (iblk3 (V7 m ρ) c 4 t) (ix2 p q)
      = G3 m ρ c (((cfg3.win 5).blk t).view.emb (ix2 p q))
  have hk0 : ((((cfg3.win 5).blk t).view.emb (ix2 p q) : S25000x128.Idx) 0).val = 5000 * t.val + p.val := by
    show win3_5.index t 0 * 5000 + 1 * p.val = _; rw [e0]; omega
  have hk1 : ((((cfg3.win 5).blk t).view.emb (ix2 p q) : S25000x128.Idx) 1).val = q.val := by
    show win3_5.index t 1 * 128 + 1 * q.val = _; rw [e1]; omega
  refine (pay3_apply (iblk3 (V7 m ρ) c 0 t) (iblk3 (V7 m ρ) c 2 t) (iblk3 (V7 m ρ) c 1 t) (iblk3 (V7 m ρ) c 3 t) (iblk3 (V7 m ρ) c 4 t) p q).trans ?_
  rw [blk3_0_apply m ρ c t p q _ hk0 hk1, blk3_1_apply m ρ c t q, blk3_2_apply m ρ c t q, blk3_3_apply m ρ c t q, blk3_4_apply m ρ c t q]
  exact (norm_at _ _ _ _ _ _ q hk1).symm

/-- An index of the array is in point `t`'s block iff each coordinate is in the block's range on its axis. -/
theorem mem_blk3 (t : Fin cfg3.N) (i : S25000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v85).slice (win3_5.rect t)).set ↔ _
  rw [View.set_slice_whole, Rect.mem_set_unit]
  exact Iff.rfl

/-- Row `r` of the result lies in tile `r / 5000`: the five tiles fill the array. -/
theorem cover3 (i : S25000x128.Idx) :
    ∃ t : Fin cfg3.N, (cfg3.win 5).flush t = true ∧ i ∈ ((cfg3.win 5).blk t).view.set := by
  have hi0 : (i 0).val < 25000 := (i 0).isLt
  have hi1 : (i 1).val < 128 := (i 1).isLt
  have hN : cfg3.N = 5 := N_3
  obtain ⟨t, ht⟩ : ∃ t : Fin cfg3.N, t.val = (i 0).val / 5000 := ⟨⟨(i 0).val / 5000, by rw [hN]; omega⟩, rfl⟩
  obtain ⟨-, -, -, -, -, -, -, -, -, -, e0, e1⟩ := idx_facts3 t
  refine ⟨t, flush3_5 t, ?_⟩
  rw [mem_blk3]
  intro a
  match a with
  | ⟨0, _⟩ => show win3_5.index t 0 * 5000 ≤ (i 0).val ∧ (i 0).val < win3_5.index t 0 * 5000 + 5000; rw [e0, ht]; omega
  | ⟨1, _⟩ => show win3_5.index t 1 * 128 ≤ (i 1).val ∧ (i 1).val < win3_5.index t 1 * 128 + 128; rw [e1]; omega

/-- THE ARRAY after region 3: the normalisation of the arrays the region finds. -/
theorem final3 (c : Dev nD) : (dat3 (V7 m ρ) c).arrAt 5 cfg3.N = G3 m ρ c :=
  (dat3 (V7 m ρ) c).arrAt_eq_of_cover 5 (G3 m ρ c) (fun t _ => flushed3_eq m ρ c t) cover3

theorem region3_out (c : Dev nD) :
    W8 (F := Ideal) m ρ c (Proc.devRef .tc main_v85)
      = Cert.GinSpec.normDense (V7 m ρ c main_v76) (V7 m ρ c main_v78) (V7 m ρ c main_v80) (V7 m ρ c main_v82) (V7 m ρ c main_v84) :=
  (W8_arr m ρ c 5).trans (final3 m ρ c)

/-! ## Region 5 -/

/-- The result of region 5 as one function of the arrays the region finds. -/
abbrev G5 (c : Dev nD) : Cert.GinSpec.Mat 25000 128 :=
  Cert.GinSpec.normDense (V11 m ρ c main_v119) (V11 m ρ c main_v121) (V11 m ρ c main_v123) (V11 m ρ c main_v125) (V11 m ρ c main_v127)

/-- The printed index maps over the five points: the matrix window and the result window sit at tile `t`, the four
    parameter windows at their one block. -/
theorem idx_facts5 : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The matrix window's block at point `t` is rows `5000 t … 5000 t + 4999` of the matrix. -/
theorem blk5_0_apply (c : Dev nD) (t : Fin cfg5.N) (p : Fin 5000) (q : Fin 128) (k : S25000x128.Idx)
    (hk0 : (k 0).val = 5000 * t.val + p.val) (hk1 : (k 1).val = q.val) :
    (iblk5 (V11 m ρ) c 0 t : Vec Ideal S5000x128 .f32) (ix2 p q) = (V11 m ρ c main_v119 : S25000x128.Idx → EReal) k := by
  obtain ⟨e0, e1, -⟩ := idx_facts5 t
  unfold iblk5
  rw [View.read_apply]
  show V11 m ρ c main_v119 _ = V11 m ρ c main_v119 _
  congr 1
  funext a
  apply Fin.ext
  match a with
  | ⟨0, _⟩ => show win5_0.index t 0 * 5000 + 1 * p.val = (k 0).val; rw [e0, hk0]; omega
  | ⟨1, _⟩ => show win5_0.index t 1 * 128 + 1 * q.val = (k 1).val; rw [e1, hk1]; omega

/-- A parameter window's block at any point is its one row. -/
theorem blk5_1_apply (c : Dev nD) (t : Fin cfg5.N) (q : Fin 128) :
    (iblk5 (V11 m ρ) c 1 t : Vec Ideal S1x128 .f32) (ix2 0 q) = (V11 m ρ c main_v121 : S1x128.Idx → EReal) (ix2 0 q) := by
  obtain ⟨-, -, e0, e1, -⟩ := idx_facts5 t
  unfold iblk5
  rw [View.read_apply]
  show V11 m ρ c main_v121 _ = V11 m ρ c main_v121 _
  congr 1
  funext a
  apply Fin.ext
  match a with
  | ⟨0, _⟩ => show win5_1.index t 0 * 1 + 1 * 0 = 0; rw [e0]
  | ⟨1, _⟩ => show win5_1.index t 1 * 128 + 1 * q.val = q.val; rw [e1]; omega
theorem blk5_2_apply (c : Dev nD) (t : Fin cfg5.N) (q : Fin 128) :
    (iblk5 (V11 m ρ) c 2 t : Vec Ideal S1x128 .f32) (ix2 0 q) = (V11 m ρ c main_v123 : S1x128.Idx → EReal) (ix2 0 q) := by
  obtain ⟨-, -, -, -, e0, e1, -⟩ := idx_facts5 t
  unfold iblk5
  rw [View.read_apply]
  show V11 m ρ c main_v123 _ = V11 m ρ c main_v123 _
  congr 1
  funext a
  apply Fin.ext
  match a with
  | ⟨0, _⟩ => show win5_2.index t 0 * 1 + 1 * 0 = 0; rw [e0]
  | ⟨1, _⟩ => show win5_2.index t 1 * 128 + 1 * q.val = q.val; rw [e1]; omega
theorem blk5_3_apply (c : Dev nD) (t : Fin cfg5.N) (q : Fin 128) :
    (iblk5 (V11 m ρ) c 3 t : Vec Ideal S1x128 .f32) (ix2 0 q) = (V11 m ρ c main_v125 : S1x128.Idx → EReal) (ix2 0 q) := by
  obtain ⟨-, -, -, -, -, -, e0, e1, -⟩ := idx_facts5 t
  unfold iblk5
  rw [View.read_apply]
  show V11 m ρ c main_v125 _ = V11 m ρ c main_v125 _
  congr 1
  funext a
  apply Fin.ext
  match a with
  | ⟨0, _⟩ => show win5_3.index t 0 * 1 + 1 * 0 = 0; rw [e0]
  | ⟨1, _⟩ => show win5_3.index t 1 * 128 + 1 * q.val = q.val; rw [e1]; omega
theorem blk5_4_apply (c : Dev nD) (t : Fin cfg5.N) (q : Fin 128) :
    (iblk5 (V11 m ρ) c 4 t : Vec Ideal S1x128 .f32) (ix2 0 q) = (V11 m ρ c main_v127 : S1x128.Idx → EReal) (ix2 0 q) := by
  obtain ⟨-, -, -, -, -, -, -, -, e0, e1, -⟩ := idx_facts5 t
  unfold iblk5
  rw [View.read_apply]
  show V11 m ρ c main_v127 _ = V11 m ρ c main_v127 _
  congr 1
  funext a
  apply Fin.ext
  match a with
  | ⟨0, _⟩ => show win5_4.index t 0 * 1 + 1 * 0 = 0; rw [e0]
  | ⟨1, _⟩ => show win5_4.index t 1 * 128 + 1 * q.val = q.val; rw [e1]; omega

/-- WHAT POINT `t` WRITES BACK is tile `t` of `G5`. -/
theorem flushed5_eq (c : Dev nD) (t : Fin cfg5.N) :
    (dat5 (V11 m ρ) c).flushed 5 t = ((cfg5.win 5).blk t).view.read (Elt Ideal) (G5 m ρ c) := by
  show (cfg5.win 5).cut (grid5.coords t) ((dat5 (V11 m ρ) c).after 5 t) = _
  rw [after5_5]
  unfold out5_5
  rw [View.canon_unit_zero hz]
  simp only [View.ld_unit_zero (S := S5000x128) hz, View.ld_unit_zero (S := S1x128) hz]
  obtain ⟨-, -, -, -, -, -, -, -, -, -, e0, e1⟩ := idx_facts5 t
  funext j
  obtain ⟨p, q, rfl⟩ : ∃ (p : Fin 5000) (q : Fin 128), j = ix2 p q := ⟨j 0, j 1, eq_ix2 j⟩
  show k5_pay1 (F := Ideal) (iblk5 (V11 m ρ) c 0 t) (iblk5 (V11 m ρ) c 2 t) (iblk5 (V11 m ρ) c 1 t) (iblk5 (V11 m ρ) c 3 t) (iblk5 (V11 m ρ) c 4 t) (ix2 p q)
      = G5 m ρ c (((cfg5.win 5).blk t).view.emb (ix2 p q))
  have hk0 : ((((cfg5.win 5).blk t).view.emb (ix2 p q) : S25000x128.Idx) 0).val = 5000 * t.val + p.val := by
    show win5_5.index t 0 * 5000 + 1 * p.val = _; rw [e0]; omega
  have hk1 : ((((cfg5.win 5).blk t).view.emb (ix2 p q) : S25000x128.Idx) 1).val = q.val := by
    show win5_5.index t 1 * 128 + 1 * q.val = _; rw [e1]; omega
  refine (pay5_apply (iblk5 (V11 m ρ) c 0 t) (iblk5 (V11 m ρ) c 2 t) (iblk5 (V11 m ρ) c 1 t) (iblk5 (V11 m ρ) c 3 t) (iblk5 (V11 m ρ) c 4 t) p q).trans ?_
  rw [blk5_0_apply m ρ c t p q _ hk0 hk1, blk5_1_apply m ρ c t q, blk5_2_apply m ρ c t q, blk5_3_apply m ρ c t q, blk5_4_apply m ρ c t q]
  exact (norm_at _ _ _ _ _ _ q hk1).symm

/-- An index of the array is in point `t`'s block iff each coordinate is in the block's range on its axis. -/
theorem mem_blk5 (t : Fin cfg5.N) (i : S25000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v128).slice (win5_5.rect t)).set ↔ _
  rw [View.set_slice_whole, Rect.mem_set_unit]
  exact Iff.rfl

/-- Row `r` of the result lies in tile `r / 5000`: the five tiles fill the array. -/
theorem cover5 (i : S25000x128.Idx) :
    ∃ t : Fin cfg5.N, (cfg5.win 5).flush t = true ∧ i ∈ ((cfg5.win 5).blk t).view.set := by
  have hi0 : (i 0).val < 25000 := (i 0).isLt
  have hi1 : (i 1).val < 128 := (i 1).isLt
  have hN : cfg5.N = 5 := N_5
  obtain ⟨t, ht⟩ : ∃ t : Fin cfg5.N, t.val = (i 0).val / 5000 := ⟨⟨(i 0).val / 5000, by rw [hN]; omega⟩, rfl⟩
  obtain ⟨-, -, -, -, -, -, -, -, -, -, e0, e1⟩ := idx_facts5 t
  refine ⟨t, flush5_5 t, ?_⟩
  rw [mem_blk5]
  intro a
  match a with
  | ⟨0, _⟩ => show win5_5.index t 0 * 5000 ≤ (i 0).val ∧ (i 0).val < win5_5.index t 0 * 5000 + 5000; rw [e0, ht]; omega
  | ⟨1, _⟩ => show win5_5.index t 1 * 128 ≤ (i 1).val ∧ (i 1).val < win5_5.index t 1 * 128 + 128; rw [e1]; omega

/-- THE ARRAY after region 5: the normalisation of the arrays the region finds. -/
theorem final5 (c : Dev nD) : (dat5 (V11 m ρ) c).arrAt 5 cfg5.N = G5 m ρ c :=
  (dat5 (V11 m ρ) c).arrAt_eq_of_cover 5 (G5 m ρ c) (fun t _ => flushed5_eq m ρ c t) cover5

theorem region5_out (c : Dev nD) :
    W12 (F := Ideal) m ρ c (Proc.devRef .tc main_v128)
      = Cert.GinSpec.normDense (V11 m ρ c main_v119) (V11 m ρ c main_v121) (V11 m ρ c main_v123) (V11 m ρ c main_v125) (V11 m ρ c main_v127) :=
  (W12_arr m ρ c 5).trans (final5 m ρ c)

end Cert.KernelIdeal.Stage2

end
-- ==== Proof.LibRowCast.lean ====
/-
  A vector of n entries written as a one-row matrix, two ways: reshaping [n] to [1, n] keeps the entries in row-major
  order, so entry (0, t) is entry t; broadcasting the vector along axis 1 of [1, n] puts entry t at every (r, t), and
  there is only the row r = 0. The two one-row matrices are therefore equal, for every n and any entries.
-/
import Idealize.ShloMosaic.Lib.Pipeline.Value
import Idealize.ShloMosaic.Lib.ValueIdx

namespace Cert.LibRowCast

open Idealize.ShloMosaic Idealize.ShloMosaic.ValueIdx

/-- The reshape of a vector of n entries to a [1, n] matrix is its broadcast along axis 1 of that shape. -/
theorem shapeCast_row_eq_broadcastInDim {α : Type} {n : ℕ} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val = 0 := by have h : (i 0).val < 1 := (i 0).isLt; omega
  have e2 := shapeCast_apply x h1 i (ix1 (i 1 : Fin n)) (by
    rw [Shape.rowMajor_val_two, Shape.rowMajor_val_one]
    show (i 1).val = (i 0).val * n + (i 1).val
    rw [h0]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Cert.LibRowCast
-- ==== Proof.KAggArgs.lean ====
/-
  The arguments as each later stretch of the kernel program finds them.

  No host operation and no region of the program writes an argument's buffer: a region reads it through an input window or
  leaves it alone, and every host stretch writes its own result buffers only. So the contents of an argument's buffer at
  the entry of the second, third and fourth aggregation stretch are the launch contents, read back through the regions
  and stretches before it one step at a time.
-/
import proofs.«177788_j17205638988409_2_alg».proof.Proof.Gen.KernelIdeal.Frame
import Idealize.ShloMosaic.Lib.StableHlo.Run
import Idealize.ShloMosaic.PureOps.Ideal

noncomputable section

namespace Cert.KernelIdeal.AggValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- A stretch of host operations leaves a buffer none of them writes as it found it: the buffer is compared with each
    operation's result buffer in turn. -/
macro "stretch_keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## At the entry of the second aggregation stretch (after region 1) -/

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by stretch_keeps hostOps1
    _ = W1 m ρ c (Proc.devRef .tc main_arg1) := W2_of_ne m ρ c main_arg1 (by decide)
    _ = W0 m ρ c (Proc.devRef .tc main_arg1) := by stretch_keeps hostOps0
    _ = m ((c : Thread nD τ).loc main_arg1) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by stretch_keeps hostOps1
    _ = W1 m ρ c (Proc.devRef .tc main_arg9) := W2_of_ne m ρ c main_arg9 (by decide)
    _ = W0 m ρ c (Proc.devRef .tc main_arg9) := by stretch_keeps hostOps0
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by stretch_keeps hostOps1
    _ = W1 m ρ c (Proc.devRef .tc main_arg10) := W2_of_ne m ρ c main_arg10 (by decide)
    _ = W0 m ρ c (Proc.devRef .tc main_arg10) := by stretch_keeps hostOps0
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by stretch_keeps hostOps1
    _ = W1 m ρ c (Proc.devRef .tc main_arg11) := W2_of_ne m ρ c main_arg11 (by decide)
    _ = W0 m ρ c (Proc.devRef .tc main_arg11) := by stretch_keeps hostOps0
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by stretch_keeps hostOps1
    _ = W1 m ρ c (Proc.devRef .tc main_arg12) := W2_of_ne m ρ c main_arg12 (by decide)
    _ = W0 m ρ c (Proc.devRef .tc main_arg12) := by stretch_keeps hostOps0
    _ = m ((c : Thread nD τ).loc main_arg12) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := by stretch_keeps hostOps1
    _ = W1 m ρ c (Proc.devRef .tc main_arg15) := W2_of_ne m ρ c main_arg15 (by decide)
    _ = W0 m ρ c (Proc.devRef .tc main_arg15) := by stretch_keeps hostOps0
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := by stretch_keeps hostOps1
    _ = W1 m ρ c (Proc.devRef .tc main_arg16) := W2_of_ne m ρ c main_arg16 (by decide)
    _ = W0 m ρ c (Proc.devRef .tc main_arg16) := by stretch_keeps hostOps0
    _ = m ((c : Thread nD τ).loc main_arg16) := rfl
theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := by stretch_keeps hostOps1
    _ = W1 m ρ c (Proc.devRef .tc main_arg17) := W2_of_ne m ρ c main_arg17 (by decide)
    _ = W0 m ρ c (Proc.devRef .tc main_arg17) := by stretch_keeps hostOps0
    _ = m ((c : Thread nD τ).loc main_arg17) := rfl
theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := by stretch_keeps hostOps1
    _ = W1 m ρ c (Proc.devRef .tc main_arg18) := W2_of_ne m ρ c main_arg18 (by decide)
    _ = W0 m ρ c (Proc.devRef .tc main_arg18) := by stretch_keeps hostOps0
    _ = m ((c : Thread nD τ).loc main_arg18) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by stretch_keeps hostOps1
    _ = W1 m ρ c (Proc.devRef .tc main_arg2) := W2_of_ne m ρ c main_arg2 (by decide)
    _ = W0 m ρ c (Proc.devRef .tc main_arg2) := by stretch_keeps hostOps0
    _ = m ((c : Thread nD τ).loc main_arg2) := rfl
theorem W4_main_arg21 (c : Dev nD) : W4 m ρ c (Proc.devRef .tc main_arg21) = m ((c : Thread nD τ).loc main_arg21) :=
  calc W4 m ρ c (Proc.devRef .tc main_arg21)
    _ = W3 m ρ c (Proc.devRef .tc main_arg21) := W4_of_ne m ρ c main_arg21 (by decide)
    _ = W2 m ρ c (Proc.devRef .tc main_arg21) := by stretch_keeps hostOps1
    _ = W1 m ρ c (Proc.devRef .tc main_arg21) := W2_of_ne m ρ c main_arg21 (by decide)
    _ = W0 m ρ c (Proc.devRef .tc main_arg21) := by stretch_keeps hostOps0
    _ = m ((c : Thread nD τ).loc main_arg21) := rfl
theorem W4_main_arg22 (c : Dev nD) : W4 m ρ c (Proc.devRef .tc main_arg22) = m ((c : Thread nD τ).loc main_arg22) :=
  calc W4 m ρ c (Proc.devRef .tc main_arg22)
    _ = W3 m ρ c (Proc.devRef .tc main_arg22) := W4_of_ne m ρ c main_arg22 (by decide)
    _ = W2 m ρ c (Proc.devRef .tc main_arg22) := by stretch_keeps hostOps1
    _ = W1 m ρ c (Proc.devRef .tc main_arg22) := W2_of_ne m ρ c main_arg22 (by decide)
    _ = W0 m ρ c (Proc.devRef .tc main_arg22) := by stretch_keeps hostOps0
    _ = m ((c : Thread nD τ).loc main_arg22) := rfl
theorem W4_main_arg23 (c : Dev nD) : W4 m ρ c (Proc.devRef .tc main_arg23) = m ((c : Thread nD τ).loc main_arg23) :=
  calc W4 m ρ c (Proc.devRef .tc main_arg23)
    _ = W3 m ρ c (Proc.devRef .tc main_arg23) := W4_of_ne m ρ c main_arg23 (by decide)
    _ = W2 m ρ c (Proc.devRef .tc main_arg23) := by stretch_keeps hostOps1
    _ = W1 m ρ c (Proc.devRef .tc main_arg23) := W2_of_ne m ρ c main_arg23 (by decide)
    _ = W0 m ρ c (Proc.devRef .tc main_arg23) := by stretch_keeps hostOps0
    _ = m ((c : Thread nD τ).loc main_arg23) := rfl
theorem W4_main_arg24 (c : Dev nD) : W4 m ρ c (Proc.devRef .tc main_arg24) = m ((c : Thread nD τ).loc main_arg24) :=
  calc W4 m ρ c (Proc.devRef .tc main_arg24)
    _ = W3 m ρ c (Proc.devRef .tc main_arg24) := W4_of_ne m ρ c main_arg24 (by decide)
    _ = W2 m ρ c (Proc.devRef .tc main_arg24) := by stretch_keeps hostOps1
    _ = W1 m ρ c (Proc.devRef .tc main_arg24) := W2_of_ne m ρ c main_arg24 (by decide)
    _ = W0 m ρ c (Proc.devRef .tc main_arg24) := by stretch_keeps hostOps0
    _ = m ((c : Thread nD τ).loc main_arg24) := rfl

/-! ## At the entry of the third aggregation stretch (after region 3) -/

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := by stretch_keeps hostOps3
    _ = W5 m ρ c (Proc.devRef .tc main_arg1) := W6_of_ne m ρ c main_arg1 (by decide)
    _ = W4 m ρ c (Proc.devRef .tc main_arg1) := by stretch_keeps hostOps2
    _ = m ((c : Thread nD τ).loc main_arg1) := W4_main_arg1 m ρ c
theorem W8_main_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := by stretch_keeps hostOps3
    _ = W5 m ρ c (Proc.devRef .tc main_arg15) := W6_of_ne m ρ c main_arg15 (by decide)
    _ = W4 m ρ c (Proc.devRef .tc main_arg15) := by stretch_keeps hostOps2
    _ = m ((c : Thread nD τ).loc main_arg15) := W4_main_arg15 m ρ c
theorem W8_main_arg16 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := by stretch_keeps hostOps3
    _ = W5 m ρ c (Proc.devRef .tc main_arg16) := W6_of_ne m ρ c main_arg16 (by decide)
    _ = W4 m ρ c (Proc.devRef .tc main_arg16) := by stretch_keeps hostOps2
    _ = m ((c : Thread nD τ).loc main_arg16) := W4_main_arg16 m ρ c
theorem W8_main_arg17 (c : Dev nD) : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = W6 m ρ c (Proc.devRef .tc main_arg17) := by stretch_keeps hostOps3
    _ = W5 m ρ c (Proc.devRef .tc main_arg17) := W6_of_ne m ρ c main_arg17 (by decide)
    _ = W4 m ρ c (Proc.devRef .tc main_arg17) := by stretch_keeps hostOps2
    _ = m ((c : Thread nD τ).loc main_arg17) := W4_main_arg17 m ρ c
theorem W8_main_arg18 (c : Dev nD) : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = W6 m ρ c (Proc.devRef .tc main_arg18) := by stretch_keeps hostOps3
    _ = W5 m ρ c (Proc.devRef .tc main_arg18) := W6_of_ne m ρ c main_arg18 (by decide)
    _ = W4 m ρ c (Proc.devRef .tc main_arg18) := by stretch_keeps hostOps2
    _ = m ((c : Thread nD τ).loc main_arg18) := W4_main_arg18 m ρ c
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by stretch_keeps hostOps3
    _ = W5 m ρ c (Proc.devRef .tc main_arg2) := W6_of_ne m ρ c main_arg2 (by decide)
    _ = W4 m ρ c (Proc.devRef .tc main_arg2) := by stretch_keeps hostOps2
    _ = m ((c : Thread nD τ).loc main_arg2) := W4_main_arg2 m ρ c
theorem W8_main_arg21 (c : Dev nD) : W8 m ρ c (Proc.devRef .tc main_arg21) = m ((c : Thread nD τ).loc main_arg21) :=
  calc W8 m ρ c (Proc.devRef .tc main_arg21)
    _ = W7 m ρ c (Proc.devRef .tc main_arg21) := W8_of_ne m ρ c main_arg21 (by decide)
    _ = W6 m ρ c (Proc.devRef .tc main_arg21) := by stretch_keeps hostOps3
    _ = W5 m ρ c (Proc.devRef .tc main_arg21) := W6_of_ne m ρ c main_arg21 (by decide)
    _ = W4 m ρ c (Proc.devRef .tc main_arg21) := by stretch_keeps hostOps2
    _ = m ((c : Thread nD τ).loc main_arg21) := W4_main_arg21 m ρ c
theorem W8_main_arg22 (c : Dev nD) : W8 m ρ c (Proc.devRef .tc main_arg22) = m ((c : Thread nD τ).loc main_arg22) :=
  calc W8 m ρ c (Proc.devRef .tc main_arg22)
    _ = W7 m ρ c (Proc.devRef .tc main_arg22) := W8_of_ne m ρ c main_arg22 (by decide)
    _ = W6 m ρ c (Proc.devRef .tc main_arg22) := by stretch_keeps hostOps3
    _ = W5 m ρ c (Proc.devRef .tc main_arg22) := W6_of_ne m ρ c main_arg22 (by decide)
    _ = W4 m ρ c (Proc.devRef .tc main_arg22) := by stretch_keeps hostOps2
    _ = m ((c : Thread nD τ).loc main_arg22) := W4_main_arg22 m ρ c
theorem W8_main_arg23 (c : Dev nD) : W8 m ρ c (Proc.devRef .tc main_arg23) = m ((c : Thread nD τ).loc main_arg23) :=
  calc W8 m ρ c (Proc.devRef .tc main_arg23)
    _ = W7 m ρ c (Proc.devRef .tc main_arg23) := W8_of_ne m ρ c main_arg23 (by decide)
    _ = W6 m ρ c (Proc.devRef .tc main_arg23) := by stretch_keeps hostOps3
    _ = W5 m ρ c (Proc.devRef .tc main_arg23) := W6_of_ne m ρ c main_arg23 (by decide)
    _ = W4 m ρ c (Proc.devRef .tc main_arg23) := by stretch_keeps hostOps2
    _ = m ((c : Thread nD τ).loc main_arg23) := W4_main_arg23 m ρ c
theorem W8_main_arg24 (c : Dev nD) : W8 m ρ c (Proc.devRef .tc main_arg24) = m ((c : Thread nD τ).loc main_arg24) :=
  calc W8 m ρ c (Proc.devRef .tc main_arg24)
    _ = W7 m ρ c (Proc.devRef .tc main_arg24) := W8_of_ne m ρ c main_arg24 (by decide)
    _ = W6 m ρ c (Proc.devRef .tc main_arg24) := by stretch_keeps hostOps3
    _ = W5 m ρ c (Proc.devRef .tc main_arg24) := W6_of_ne m ρ c main_arg24 (by decide)
    _ = W4 m ρ c (Proc.devRef .tc main_arg24) := by stretch_keeps hostOps2
    _ = m ((c : Thread nD τ).loc main_arg24) := W4_main_arg24 m ρ c

/-! ## At the entry of the pooling stretch (after region 5) -/

theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := by stretch_keeps hostOps5
    _ = W9 m ρ c (Proc.devRef .tc main_arg2) := W10_of_ne m ρ c main_arg2 (by decide)
    _ = W8 m ρ c (Proc.devRef .tc main_arg2) := by stretch_keeps hostOps4
    _ = m ((c : Thread nD τ).loc main_arg2) := W8_main_arg2 m ρ c
theorem W12_main_arg21 (c : Dev nD) : W12 m ρ c (Proc.devRef .tc main_arg21) = m ((c : Thread nD τ).loc main_arg21) :=
  calc W12 m ρ c (Proc.devRef .tc main_arg21)
    _ = W11 m ρ c (Proc.devRef .tc main_arg21) := W12_of_ne m ρ c main_arg21 (by decide)
    _ = W10 m ρ c (Proc.devRef .tc main_arg21) := by stretch_keeps hostOps5
    _ = W9 m ρ c (Proc.devRef .tc main_arg21) := W10_of_ne m ρ c main_arg21 (by decide)
    _ = W8 m ρ c (Proc.devRef .tc main_arg21) := by stretch_keeps hostOps4
    _ = m ((c : Thread nD τ).loc main_arg21) := W8_main_arg21 m ρ c
theorem W12_main_arg22 (c : Dev nD) : W12 m ρ c (Proc.devRef .tc main_arg22) = m ((c : Thread nD τ).loc main_arg22) :=
  calc W12 m ρ c (Proc.devRef .tc main_arg22)
    _ = W11 m ρ c (Proc.devRef .tc main_arg22) := W12_of_ne m ρ c main_arg22 (by decide)
    _ = W10 m ρ c (Proc.devRef .tc main_arg22) := by stretch_keeps hostOps5
    _ = W9 m ρ c (Proc.devRef .tc main_arg22) := W10_of_ne m ρ c main_arg22 (by decide)
    _ = W8 m ρ c (Proc.devRef .tc main_arg22) := by stretch_keeps hostOps4
    _ = m ((c : Thread nD τ).loc main_arg22) := W8_main_arg22 m ρ c
theorem W12_main_arg23 (c : Dev nD) : W12 m ρ c (Proc.devRef .tc main_arg23) = m ((c : Thread nD τ).loc main_arg23) :=
  calc W12 m ρ c (Proc.devRef .tc main_arg23)
    _ = W11 m ρ c (Proc.devRef .tc main_arg23) := W12_of_ne m ρ c main_arg23 (by decide)
    _ = W10 m ρ c (Proc.devRef .tc main_arg23) := by stretch_keeps hostOps5
    _ = W9 m ρ c (Proc.devRef .tc main_arg23) := W10_of_ne m ρ c main_arg23 (by decide)
    _ = W8 m ρ c (Proc.devRef .tc main_arg23) := by stretch_keeps hostOps4
    _ = m ((c : Thread nD τ).loc main_arg23) := W8_main_arg23 m ρ c
theorem W12_main_arg24 (c : Dev nD) : W12 m ρ c (Proc.devRef .tc main_arg24) = m ((c : Thread nD τ).loc main_arg24) :=
  calc W12 m ρ c (Proc.devRef .tc main_arg24)
    _ = W11 m ρ c (Proc.devRef .tc main_arg24) := W12_of_ne m ρ c main_arg24 (by decide)
    _ = W10 m ρ c (Proc.devRef .tc main_arg24) := by stretch_keeps hostOps5
    _ = W9 m ρ c (Proc.devRef .tc main_arg24) := W10_of_ne m ρ c main_arg24 (by decide)
    _ = W8 m ρ c (Proc.devRef .tc main_arg24) := by stretch_keeps hostOps4
    _ = m ((c : Thread nD τ).loc main_arg24) := W8_main_arg24 m ρ c

end Cert.KernelIdeal.AggValue

end
-- ==== Proof.KAgg.lean ====
/-
  The aggregation stretches of the kernel program: what each host stretch before a perceptron region, and the pooling
  stretch before the head, leaves in the buffers the next region reads.

  A layer's aggregation takes the node features `h` (50000 × 64) and the edge list `e` (2 × 800000): row 0 of `e` names
  each edge's source node (a negative index counted from the end), row 1 its destination; the features of the sources are
  gathered edge by edge and added into a zero matrix at the destinations. The pooling adds the node features into a zero
  matrix of 512 rows at each node's graph index. Beside it each stretch recasts bias vectors `[64]` as rows `[1, 64]` and
  leaves the weight arguments alone.
-/
import proofs.«177788_j17205638988409_2_alg».proof.Proof.Gen.KernelIdeal.Frame
import proofs.«177788_j17205638988409_2_alg».proof.Proof.LibRowCast
import proofs.«177788_j17205638988409_2_alg».proof.Proof.KAggArgs
import Idealize.ShloMosaic.Lib.StableHlo.Run
import Idealize.ShloMosaic.PureOps.Ideal
import Idealize.ShloMosaic.PureOps.Ideal.Laws

noncomputable section

namespace Cert.KernelIdeal.AggValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The operations of an aggregation, as functions of the features and the edge list -/

/-- The source node of each edge, as the gather's start indices `[800000, 1]`: row 0 of the edge list, flattened, a
    negative index counted from the end of the 50000 nodes. -/
def srcIdx (e : IVec S2x800000 32) : IVec S800000x1 32 :=
  broadcastInDim S800000x1 ![0] bcast_S800000_S800000x1_0
    (select
      (cmpi .slt
        (shapeCast S800000 (extractStridedSlice S1x800000 ![0, 0] e slices_S2x800000_S1x800000_0_0) shapeCasts_S1x800000_S800000)
        (broadcastInDim S800000 ![] bcast_S_S800000 (constantI S_ 32 0#32)))
      (addi
        (shapeCast S800000 (extractStridedSlice S1x800000 ![0, 0] e slices_S2x800000_S1x800000_0_0) shapeCasts_S1x800000_S800000)
        (broadcastInDim S800000 ![] bcast_S_S800000 (constantI S_ 32 50000#32)))
      (shapeCast S800000 (extractStridedSlice S1x800000 ![0, 0] e slices_S2x800000_S1x800000_0_0) shapeCasts_S1x800000_S800000))

/-- The destination node of each edge, as the scatter's indices `[800000, 1]`: row 1 of the edge list, flattened. -/
def dstIdx (e : IVec S2x800000 32) : IVec S800000x1 32 :=
  broadcastInDim S800000x1 ![0] bcast_S800000_S800000x1_0
    (shapeCast S800000 (extractStridedSlice S1x800000 ![1, 0] e slices_S2x800000_S1x800000_1_0) shapeCasts_S1x800000_S800000)

/-- The neighbour sums: the features of each edge's source, added into a zero matrix at the edge's destination. -/
def aggK (h : FVec Ideal S50000x64 .bf16) (e : IVec S2x800000 32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (dstIdx e)
    (extf .f32 (Host.gather gather_S50000x64_S800000x1_S800000x64_1_0_n_n_0_1_164 h (srcIdx e)) bitsLt_bf16_f32)

/-- The pooling: the node features added into a zero matrix of 512 rows at each node's graph index. -/
def poolK (b : IVec S50000 32) (h : FVec Ideal S50000x64 .bf16) : FVec Ideal S512x64 .f32 :=
  Host.scatterAdd (F := Ideal) scatter_S512x64_S50000x1_S50000x64_1_0_0_1
    (broadcastInDim S512x64 ![] bcast_S_S512x64 (constant (F := Ideal) S_ .f32 0x00000000#32))
    (broadcastInDim S50000x1 ![0] bcast_S50000_S50000x1_0 b)
    (extf .f32 h bitsLt_bf16_f32)

/-- On extended reals a change of format is the identity, narrowing or widening. -/
theorem truncf_eq {s : Shape} {φ ψ : FTy} (x : FVec Ideal s φ) (h : ψ.bits < φ.bits) :
    (truncf ψ x h : s.Idx → EReal) = x := funext fun _ => rfl
theorem extf_eq {s : Shape} {φ ψ : FTy} (x : FVec Ideal s φ) (h : φ.bits < ψ.bits) :
    (extf ψ x h : s.Idx → EReal) = x := funext fun _ => rfl

/-! ## Stretch 0: before the first perceptron region -/

theorem V1_main_v0 (c : Dev nD) :
    @Eq (FVec Ideal S50000x64 .bf16) (V1 m ρ c main_v0) (truncf .bf16 (m ((c : Thread nD τ).loc main_arg0)) bitsLt_bf16_f32) := by
  show StableHlo.after hostOps0 (W0 m ρ c) (Proc.devRef .tc main_v0) = _
  after_results

set_option maxHeartbeats 2000000 in
theorem V1_main_v15 (c : Dev nD) :
    @Eq (FVec Ideal S50000x64 .f32) (V1 m ρ c main_v15)
      (aggK (truncf .bf16 (m ((c : Thread nD τ).loc main_arg0)) bitsLt_bf16_f32) (m ((c : Thread nD τ).loc main_arg1))) := by
  show StableHlo.after hostOps0 (W0 m ρ c) (Proc.devRef .tc main_v15) = _
  simp only [hostOps0]
  after_results_simp
  rfl

theorem V1_main_v16 (c : Dev nD) :
    @Eq (FVec Ideal S1x64 .f32) (V1 m ρ c main_v16) (shapeCast S1x64 (m ((c : Thread nD τ).loc main_arg4)) shapeCasts_S64_S1x64) := by
  show StableHlo.after hostOps0 (W0 m ρ c) (Proc.devRef .tc main_v16) = _
  after_results
  rfl

theorem V1_main_v17 (c : Dev nD) :
    @Eq (FVec Ideal S1x64 .f32) (V1 m ρ c main_v17) (shapeCast S1x64 (m ((c : Thread nD τ).loc main_arg6)) shapeCasts_S64_S1x64) := by
  show StableHlo.after hostOps0 (W0 m ρ c) (Proc.devRef .tc main_v17) = _
  after_results
  rfl

theorem V1_main_arg3 (c : Dev nD) : V1 m ρ c main_arg3 = m ((c : Thread nD τ).loc main_arg3) := by
  show StableHlo.after hostOps0 (W0 m ρ c) (Proc.devRef .tc main_arg3) = _
  after_results

theorem V1_main_arg5 (c : Dev nD) : V1 m ρ c main_arg5 = m ((c : Thread nD τ).loc main_arg5) := by
  show StableHlo.after hostOps0 (W0 m ρ c) (Proc.devRef .tc main_arg5) = _
  after_results

/-! ## Stretch 2: before the second perceptron region -/

theorem V5_main_v43 (c : Dev nD) :
    @Eq (FVec Ideal S50000x64 .bf16) (V5 m ρ c main_v43)
      (shapeCast S50000x64 (W4 m ρ c (Proc.devRef .tc main_v42) : FVec Ideal S25000x128 .bf16) shapeCasts_S25000x128_S50000x64) := by
  show StableHlo.after hostOps2 (W4 m ρ c) (Proc.devRef .tc main_v43) = _
  after_results
  rfl

set_option maxHeartbeats 2000000 in
theorem V5_main_v58 (c : Dev nD) :
    @Eq (FVec Ideal S50000x64 .f32) (V5 m ρ c main_v58)
      (aggK (shapeCast S50000x64 (W4 m ρ c (Proc.devRef .tc main_v42) : FVec Ideal S25000x128 .bf16) shapeCasts_S25000x128_S50000x64)
        (m ((c : Thread nD τ).loc main_arg1))) := by
  show StableHlo.after hostOps2 (W4 m ρ c) (Proc.devRef .tc main_v58) = _
  simp only [hostOps2]
  after_results_simp
  rw [W4_main_arg1 m ρ c]
  rfl

theorem V5_main_v59 (c : Dev nD) :
    @Eq (FVec Ideal S1x64 .f32) (V5 m ρ c main_v59) (shapeCast S1x64 (m ((c : Thread nD τ).loc main_arg10)) shapeCasts_S64_S1x64) := by
  show StableHlo.after hostOps2 (W4 m ρ c) (Proc.devRef .tc main_v59) = _
  after_results
  rw [W4_main_arg10 m ρ c]
  rfl

theorem V5_main_v60 (c : Dev nD) :
    @Eq (FVec Ideal S1x64 .f32) (V5 m ρ c main_v60) (shapeCast S1x64 (m ((c : Thread nD τ).loc main_arg12)) shapeCasts_S64_S1x64) := by
  show StableHlo.after hostOps2 (W4 m ρ c) (Proc.devRef .tc main_v60) = _
  after_results
  rw [W4_main_arg12 m ρ c]
  rfl

theorem V5_main_arg9 (c : Dev nD) : V5 m ρ c main_arg9 = m ((c : Thread nD τ).loc main_arg9) := by
  show StableHlo.after hostOps2 (W4 m ρ c) (Proc.devRef .tc main_arg9) = _
  after_results
  exact W4_main_arg9 m ρ c

theorem V5_main_arg11 (c : Dev nD) : V5 m ρ c main_arg11 = m ((c : Thread nD τ).loc main_arg11) := by
  show StableHlo.after hostOps2 (W4 m ρ c) (Proc.devRef .tc main_arg11) = _
  after_results
  exact W4_main_arg11 m ρ c

/-! ## Stretch 4: before the third perceptron region -/

theorem V9_main_v86 (c : Dev nD) :
    @Eq (FVec Ideal S50000x64 .bf16) (V9 m ρ c main_v86)
      (shapeCast S50000x64 (W8 m ρ c (Proc.devRef .tc main_v85) : FVec Ideal S25000x128 .bf16) shapeCasts_S25000x128_S50000x64) := by
  show StableHlo.after hostOps4 (W8 m ρ c) (Proc.devRef .tc main_v86) = _
  after_results
  rfl

set_option maxHeartbeats 2000000 in
theorem V9_main_v101 (c : Dev nD) :
    @Eq (FVec Ideal S50000x64 .f32) (V9 m ρ c main_v101)
      (aggK (shapeCast S50000x64 (W8 m ρ c (Proc.devRef .tc main_v85) : FVec Ideal S25000x128 .bf16) shapeCasts_S25000x128_S50000x64)
        (m ((c : Thread nD τ).loc main_arg1))) := by
  show StableHlo.after hostOps4 (W8 m ρ c) (Proc.devRef .tc main_v101) = _
  simp only [hostOps4]
  after_results_simp
  rw [W8_main_arg1 m ρ c]
  rfl

theorem V9_main_v102 (c : Dev nD) :
    @Eq (FVec Ideal S1x64 .f32) (V9 m ρ c main_v102) (shapeCast S1x64 (m ((c : Thread nD τ).loc main_arg16)) shapeCasts_S64_S1x64) := by
  show StableHlo.after hostOps4 (W8 m ρ c) (Proc.devRef .tc main_v102) = _
  after_results
  rw [W8_main_arg16 m ρ c]
  rfl

theorem V9_main_v103 (c : Dev nD) :
    @Eq (FVec Ideal S1x64 .f32) (V9 m ρ c main_v103) (shapeCast S1x64 (m ((c : Thread nD τ).loc main_arg18)) shapeCasts_S64_S1x64) := by
  show StableHlo.after hostOps4 (W8 m ρ c) (Proc.devRef .tc main_v103) = _
  after_results
  rw [W8_main_arg18 m ρ c]
  rfl

theorem V9_main_arg15 (c : Dev nD) : V9 m ρ c main_arg15 = m ((c : Thread nD τ).loc main_arg15) := by
  show StableHlo.after hostOps4 (W8 m ρ c) (Proc.devRef .tc main_arg15) = _
  after_results
  exact W8_main_arg15 m ρ c

theorem V9_main_arg17 (c : Dev nD) : V9 m ρ c main_arg17 = m ((c : Thread nD τ).loc main_arg17) := by
  show StableHlo.after hostOps4 (W8 m ρ c) (Proc.devRef .tc main_arg17) = _
  after_results
  exact W8_main_arg17 m ρ c

/-! ## Stretch 6: the pooling, before the head region -/

theorem V13_main_v133 (c : Dev nD) :
    @Eq (FVec Ideal S512x64 .f32) (V13 m ρ c main_v133)
      (poolK (m ((c : Thread nD τ).loc main_arg2))
        (shapeCast S50000x64 (W12 m ρ c (Proc.devRef .tc main_v128) : FVec Ideal S25000x128 .bf16) shapeCasts_S25000x128_S50000x64)) := by
  show StableHlo.after hostOps6 (W12 m ρ c) (Proc.devRef .tc main_v133) = _
  after_results
  rw [W12_main_arg2 m ρ c]
  rfl

theorem V13_main_v134 (c : Dev nD) :
    @Eq (FVec Ideal S1x128 .f32) (V13 m ρ c main_v134) (shapeCast S1x128 (m ((c : Thread nD τ).loc main_arg22)) shapeCasts_S128_S1x128) := by
  show StableHlo.after hostOps6 (W12 m ρ c) (Proc.devRef .tc main_v134) = _
  after_results
  rw [W12_main_arg22 m ρ c]
  rfl

theorem V13_main_v135 (c : Dev nD) :
    @Eq (FVec Ideal S1x64 .f32) (V13 m ρ c main_v135) (shapeCast S1x64 (m ((c : Thread nD τ).loc main_arg24)) shapeCasts_S64_S1x64) := by
  show StableHlo.after hostOps6 (W12 m ρ c) (Proc.devRef .tc main_v135) = _
  after_results
  rw [W12_main_arg24 m ρ c]
  rfl

theorem V13_main_arg21 (c : Dev nD) : V13 m ρ c main_arg21 = m ((c : Thread nD τ).loc main_arg21) := by
  show StableHlo.after hostOps6 (W12 m ρ c) (Proc.devRef .tc main_arg21) = _
  after_results
  exact W12_main_arg21 m ρ c

theorem V13_main_arg23 (c : Dev nD) : V13 m ρ c main_arg23 = m ((c : Thread nD τ).loc main_arg23) := by
  show StableHlo.after hostOps6 (W12 m ρ c) (Proc.devRef .tc main_arg23) = _
  after_results
  exact W12_main_arg23 m ρ c

end Cert.KernelIdeal.AggValue

end
-- ==== Proof.LayoutLaws.lean ====
/-
  Layout facts, free of any program.

  * A 50000 × 64 matrix viewed row-major as 25000 × 128 puts node rows 2r and 2r+1 side by side; a vector of 64
    per-column parameters doubled to 128 entries then meets every entry at its own column (index mod 64).  So
    normalising in the wide view and viewing the result back as 50000 × 64 is the normalisation itself.
  * The host's sum of a [10, 8, 64] array over its first two axes, read at a column, is the double sum over tiles
    and copies.
-/
import proofs.«177788_j17205638988409_2_alg».proof.Proof.GinSpec
import Idealize.ShloMosaic.Lib.Pipeline.Value
import Idealize.ShloMosaic.Lib.ValueLayout

noncomputable section

namespace Cert.GinSpec.Layout

open Idealize.ShloMosaic Idealize.ShloMosaic.ValueIdx Cert.GinSpec
open scoped BigOperators

/-- Column `q` of a doubled parameter vector is column `q mod 64` of the vector. -/
def colOf (q : Fin 128) : Fin 64 := ⟨q.val % 64, Nat.mod_lt _ (by decide)⟩

/-- A vector of 64 entries concatenated with itself, read at `q`. -/
theorem concat_self_apply {α : Type} (f : (⟨1, ![64]⟩ : Shape).Idx → α)
    (hc : Shape.Concatenates [(⟨1, ![64]⟩ : Shape), ⟨1, ![64]⟩] ⟨1, ![128]⟩ 0) (q : Fin 128) :
    concatenate (⟨1, ![128]⟩ : Shape) 0 [⟨⟨1, ![64]⟩, f⟩, ⟨⟨1, ![64]⟩, f⟩] hc (ix1 q) = f (ix1 (colOf q)) := by
  by_cases hq : q.val < 64
  · refine concatenate_pair_apply_left (0 : Fin 1) f f hc (ix1 q) rfl (ix1 (colOf q)) ?_
    intro b
    match b with
    | ⟨0, _⟩ => show q.val % 64 = q.val; omega
  · refine concatenate_pair_apply_right (0 : Fin 1) f f hc (ix1 q) rfl rfl (ix1 (colOf q)) ?_ ?_
    · intro b hb
      match b with
      | ⟨0, _⟩ => exact absurd rfl hb
    · show q.val % 64 + 64 = q.val
      have := q.isLt; omega

/-- A vector of 128 entries viewed as one row, read at `(0, q)`. -/
theorem row_cast_apply {α : Type} (g : (⟨1, ![128]⟩ : Shape).Idx → α)
    (hs : (⟨1, ![128]⟩ : Shape).ShapeCasts ⟨2, ![1, 128]⟩) (q : Fin 128) :
    shapeCast (⟨2, ![1, 128]⟩ : Shape) g hs (ix2 (0 : Fin 1) q) = g (ix1 q) := by
  refine shapeCast_apply g hs _ (ix1 q) ?_
  rw [Shape.rowMajor_val_two, Shape.rowMajor_val_one]
  show q.val = 0 * 128 + q.val
  omega

/-- The doubled parameter row, read at `(0, q)`. -/
theorem doubled_row_apply {α : Type} (f : (⟨1, ![64]⟩ : Shape).Idx → α)
    (hc : Shape.Concatenates [(⟨1, ![64]⟩ : Shape), ⟨1, ![64]⟩] ⟨1, ![128]⟩ 0)
    (hs : (⟨1, ![128]⟩ : Shape).ShapeCasts ⟨2, ![1, 128]⟩) (q : Fin 128) :
    shapeCast (⟨2, ![1, 128]⟩ : Shape) (concatenate (⟨1, ![128]⟩ : Shape) 0 [⟨⟨1, ![64]⟩, f⟩, ⟨⟨1, ![64]⟩, f⟩] hc) hs (ix2 (0 : Fin 1) q)
      = f (ix1 (colOf q)) :=
  (row_cast_apply _ hs q).trans (concat_self_apply f hc q)

/-- Where entry `(r, c)` of the 50000 × 64 matrix sits in the 25000 × 128 view. -/
def wideRow (r : Fin 50000) (c : Fin 64) : Fin 25000 := ⟨(r.val * 64 + c.val) / 128, by have := r.isLt; have := c.isLt; omega⟩
def wideCol (r : Fin 50000) (c : Fin 64) : Fin 128 := ⟨(r.val * 64 + c.val) % 128, Nat.mod_lt _ (by decide)⟩

theorem colOf_wideCol (r : Fin 50000) (c : Fin 64) : colOf (wideCol r c) = c := by
  apply Fin.ext
  show (r.val * 64 + c.val) % 128 % 64 = c.val
  have := c.isLt; omega

/-- Normalising in the wide view with doubled parameter rows, viewed back, is the normalisation. -/
theorem dense_roundtrip (Z : Mat 50000 64) (M2 V2 G2 B2 : Mat 1 128) (μ v g b : Fin 64 → EReal)
    (h1 : (⟨2, ![50000, 64]⟩ : Shape).ShapeCasts ⟨2, ![25000, 128]⟩)
    (h2 : (⟨2, ![25000, 128]⟩ : Shape).ShapeCasts ⟨2, ![50000, 64]⟩)
    (hM : ∀ q : Fin 128, M2 (ix2 (0 : Fin 1) q) = μ (colOf q)) (hV : ∀ q : Fin 128, V2 (ix2 (0 : Fin 1) q) = v (colOf q))
    (hG : ∀ q : Fin 128, G2 (ix2 (0 : Fin 1) q) = g (colOf q)) (hB : ∀ q : Fin 128, B2 (ix2 (0 : Fin 1) q) = b (colOf q)) :
    shapeCast (⟨2, ![50000, 64]⟩ : Shape) (normDense (shapeCast (⟨2, ![25000, 128]⟩ : Shape) Z h1) M2 V2 G2 B2) h2
      = normWith Z μ v g b := by
  funext i
  obtain ⟨r, c, rfl⟩ : ∃ (r : Fin 50000) (c : Fin 64), i = ix2 r c := ⟨i 0, i 1, eq_ix2 i⟩
  have hrm : ((⟨2, ![25000, 128]⟩ : Shape).rowMajor (ix2 (wideRow r c) (wideCol r c))).val
      = ((⟨2, ![50000, 64]⟩ : Shape).rowMajor (ix2 r c)).val := by
    rw [Shape.rowMajor_val_two, Shape.rowMajor_val_two]
    show (r.val * 64 + c.val) / 128 * 128 + (r.val * 64 + c.val) % 128 = r.val * 64 + c.val
    omega
  rw [shapeCast_apply _ h2 (ix2 r c) (ix2 (wideRow r c) (wideCol r c)) hrm]
  have hz : shapeCast (⟨2, ![25000, 128]⟩ : Shape) Z h1 (ix2 (wideRow r c) (wideCol r c)) = Z (ix2 r c) :=
    shapeCast_apply Z h1 _ (ix2 r c) hrm.symm
  show (shapeCast (⟨2, ![25000, 128]⟩ : Shape) Z h1 (ix2 (wideRow r c) (wideCol r c)) - M2 (ix2 (0 : Fin 1) (wideCol r c)))
      * Ideal.rsqrt (V2 (ix2 (0 : Fin 1) (wideCol r c)) + epsW) * G2 (ix2 (0 : Fin 1) (wideCol r c)) + B2 (ix2 (0 : Fin 1) (wideCol r c))
    = (Z (ix2 r c) - μ c) * Ideal.rsqrt (v c + epsW) * g c + b c
  rw [hz, hM, hV, hG, hB, colOf_wideCol]

/-- The index set of a [10, 8, 64] array as a product. -/
def idx3Equiv : (⟨3, ![10, 8, 64]⟩ : Shape).Idx ≃ Fin 10 × Fin 8 × Fin 64 where
  toFun i := (i 0, i 1, i 2)
  invFun p := ix3 p.1 p.2.1 p.2.2
  left_inv i := (eq_ix3 i).symm
  right_inv p := rfl

/-- The sum over the entries of a [10, 8, 64] array that lie in column `q` (the entries picked out by any decidable
    predicate that says so) is the double sum over the first two axes. -/
theorem sum_filter_col (x : (⟨3, ![10, 8, 64]⟩ : Shape).Idx → EReal) (q : Fin 64)
    (p : (⟨3, ![10, 8, 64]⟩ : Shape).Idx → Prop) [DecidablePred p] (hp : ∀ i, p i ↔ (i 2).val = q.val) :
    ∑ i ∈ Finset.univ.filter p, x i = ∑ t : Fin 10, ∑ s : Fin 8, x (ix3 t s q) := by
  rw [Finset.sum_filter, ← Equiv.sum_comp idx3Equiv.symm, Fintype.sum_prod_type]
  refine Finset.sum_congr rfl fun t _ => ?_
  rw [Fintype.sum_prod_type]
  refine Finset.sum_congr rfl fun s _ => ?_
  show ∑ c : Fin 64, (if p (ix3 t s c) then x (ix3 t s c) else 0) = x (ix3 t s q)
  rw [Finset.sum_eq_single q]
  · exact if_pos ((hp _).mpr rfl)
  · intro c _ hc
    exact if_neg fun h => hc (Fin.ext ((hp _).mp h))
  · intro h; exact absurd (Finset.mem_univ q) h

end Cert.GinSpec.Layout

end
-- ==== Proof.HostStats.lean ====
import proofs.«177788_j17205638988409_2_alg».proof.Proof.GinSpec
import proofs.«177788_j17205638988409_2_alg».proof.Proof.LayoutLaws
import Idealize.ShloMosaic.Lib.IdealHost
import Idealize.ShloMosaic.Lib.ValueIdx
import Idealize.ShloMosaic.PureOps.Ideal.Laws

/-!
# The column statistics formed from the stored partial sums, read at a column

The partial column sums of `z` and of `z²` sit in two arrays `[10, 8, 64]` (ten tiles, each tile's sums stored
eight times).  Summing such an array over its first two axes, dividing by eight and then by the row count gives the
column mean; the same tree on the sums of squares, minus the squared mean, clamped below at zero, gives the column
variance.  This file reads both trees at a column `c` as the closed forms of the specification.  No program is
involved: the arrays and every shape side condition are variables.
-/

noncomputable section

namespace Cert.GinSpec.HostStats

open Idealize.ShloMosaic Idealize.ShloMosaic.ValueIdx Cert.GinSpec
open scoped BigOperators

/-- Dropping the first two coordinates of an index of a `[10, 8, 64]` array leaves its column. -/
theorem drop_eq (hred : (⟨3, ![10, 8, 64]⟩ : Shape).ReducesTo [0, 1] ⟨1, ![64]⟩)
    (i : (⟨3, ![10, 8, 64]⟩ : Shape).Idx) : hred.drop i = ix1 (i 2) := by
  funext b
  match b with
  | ⟨0, _⟩ => exact Fin.ext rfl

/-- The sum of a `[10, 8, 64]` array over its first two axes, from an initial value, at column `c`: the initial
    value plus the double sum over tiles and copies. -/
theorem colsum_apply (X : Arr3 10 8 64) (init : EReal)
    (hred : (⟨3, ![10, 8, 64]⟩ : Shape).ReducesTo [0, 1] ⟨1, ![64]⟩) (c : Fin 64) :
    Ideal.hostReduceAdd hred X init (ix1 c) = init + ∑ t : Fin 10, ∑ s : Fin 8, X (ix3 t s c) := by
  unfold Ideal.hostReduceAdd
  congr 1
  refine Layout.sum_filter_col X c _ fun i => ?_
  rw [drop_eq]
  constructor
  · intro h
    exact congrArg Fin.val (congrFun h (0 : Fin 1))
  · intro h
    obtain rfl : c = i 2 := Fin.ext h.symm
    rfl

variable (S Q : Arr3 10 8 64)
  (hred : (⟨3, ![10, 8, 64]⟩ : Shape).ReducesTo [0, 1] ⟨1, ![64]⟩)
  (hS : 0 < (⟨0, ![]⟩ : Shape).numel)
  (hb : (⟨0, ![]⟩ : Shape).BroadcastsInDim ⟨1, ![64]⟩ (![] : Fin 0 → Fin (⟨1, ![64]⟩ : Shape).rank))

/-- The mean tree at column `c`: the total of the stored sums, over eight, over the row count. -/
theorem mean_apply (c : Fin 64) :
    Host.divf (F := Ideal)
        (Host.divf (F := Ideal)
          (Host.reduceAdd (F := Ideal) S (constant (F := Ideal) ⟨0, ![]⟩ .f32 0x00000000#32) hred hS)
          (broadcastInDim ⟨1, ![64]⟩ ![] hb (constant (F := Ideal) ⟨0, ![]⟩ .f32 0x41000000#32)))
        (broadcastInDim ⟨1, ![64]⟩ ![] hb (constant (F := Ideal) ⟨0, ![]⟩ .f32 0x47435000#32)) (ix1 c)
      = meanOfSums S c := by
  show Ideal.div (Ideal.div (Ideal.hostReduceAdd hred S zeroW (ix1 c)) eightW) rowsW = meanOfSums S c
  rw [colsum_apply]
  rfl

/-- The variance tree at column `c`: the mean of the squares minus the squared mean, clamped below at zero. -/
theorem var_apply (c : Fin 64) :
    maximumf (F := Ideal)
        (subf (F := Ideal)
          (Host.divf (F := Ideal)
            (Host.divf (F := Ideal)
              (Host.reduceAdd (F := Ideal) Q (constant (F := Ideal) ⟨0, ![]⟩ .f32 0x00000000#32) hred hS)
              (broadcastInDim ⟨1, ![64]⟩ ![] hb (constant (F := Ideal) ⟨0, ![]⟩ .f32 0x41000000#32)))
            (broadcastInDim ⟨1, ![64]⟩ ![] hb (constant (F := Ideal) ⟨0, ![]⟩ .f32 0x47435000#32)))
          (mulf (F := Ideal)
            (Host.divf (F := Ideal)
              (Host.divf (F := Ideal)
                (Host.reduceAdd (F := Ideal) S (constant (F := Ideal) ⟨0, ![]⟩ .f32 0x00000000#32) hred hS)
                (broadcastInDim ⟨1, ![64]⟩ ![] hb (constant (F := Ideal) ⟨0, ![]⟩ .f32 0x41000000#32)))
              (broadcastInDim ⟨1, ![64]⟩ ![] hb (constant (F := Ideal) ⟨0, ![]⟩ .f32 0x47435000#32)))
            (Host.divf (F := Ideal)
              (Host.divf (F := Ideal)
                (Host.reduceAdd (F := Ideal) S (constant (F := Ideal) ⟨0, ![]⟩ .f32 0x00000000#32) hred hS)
                (broadcastInDim ⟨1, ![64]⟩ ![] hb (constant (F := Ideal) ⟨0, ![]⟩ .f32 0x41000000#32)))
              (broadcastInDim ⟨1, ![64]⟩ ![] hb (constant (F := Ideal) ⟨0, ![]⟩ .f32 0x47435000#32)))))
        (broadcastInDim ⟨1, ![64]⟩ ![] hb (constant (F := Ideal) ⟨0, ![]⟩ .f32 0x00000000#32)) (ix1 c)
      = varOfSums S Q c := by
  show max (Ideal.div (Ideal.div (Ideal.hostReduceAdd hred Q zeroW (ix1 c)) eightW) rowsW
        - Ideal.div (Ideal.div (Ideal.hostReduceAdd hred S zeroW (ix1 c)) eightW) rowsW
          * Ideal.div (Ideal.div (Ideal.hostReduceAdd hred S zeroW (ix1 c)) eightW) rowsW) zeroW = varOfSums S Q c
  rw [colsum_apply, colsum_apply]
  rfl

end Cert.GinSpec.HostStats

end
-- ==== Proof.KStats.lean ====
import proofs.«177788_j17205638988409_2_alg».proof.Proof.Gen.KernelIdeal.Frame
import Idealize.ShloMosaic.Lib.StableHlo.Run
import Idealize.ShloMosaic.PureOps.Ideal
import Idealize.ShloMosaic.PureOps.Ideal.Laws
import proofs.«177788_j17205638988409_2_alg».proof.Proof.GinSpec
import proofs.«177788_j17205638988409_2_alg».proof.Proof.LayoutLaws
import proofs.«177788_j17205638988409_2_alg».proof.Proof.HostStats

/-!
# The statistics stretches of the run, read at an index

Between a layer's first region (which leaves the perceptron's output and the per-tile column sums of it and of its
squares) and its second (which normalises in the 25000 × 128 view), the run forms on the host: the output viewed as
25000 × 128; the column means and clamped variances from the stored sums, each doubled to a row of 128; and the scale
and shift arguments doubled likewise.  Each of these is read here at an index as a term of the specification.
-/

noncomputable section

namespace Cert.KernelIdeal.StatsValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The variance tree from its two parts: if `μ` reads the mean at column `c` and `qv` the mean of the squares,
    then "mean of squares minus squared mean, clamped below at zero" reads the clamped variance. -/
theorem var_of_parts (S Q : Cert.GinSpec.Arr3 10 8 64) (μ qv : FVec Ideal S64 .f32)
    (hb : S_.BroadcastsInDim S64 (![] : Fin 0 → Fin S64.rank)) (k : Fin 64)
    (hμ : μ (ix1 k) = Cert.GinSpec.meanOfSums S k) (hq : qv (ix1 k) = Cert.GinSpec.meanOfSums Q k) :
    maximumf (F := Ideal) (subf (F := Ideal) qv (mulf (F := Ideal) μ μ))
        (broadcastInDim S64 ![] hb (constant (F := Ideal) S_ .f32 0x00000000#32)) (ix1 k)
      = Cert.GinSpec.varOfSums S Q k := by
  show max (qv (ix1 k) - μ (ix1 k) * μ (ix1 k)) Cert.GinSpec.zeroW = _
  rw [hμ, hq]
  rfl

/-! ## Stretch after region 0: the buffers region 1 is entered with -/

/-- Argument `main_arg7` is still at its launch contents when region 0 is left. -/
theorem W2_main_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results

/-- Argument `main_arg8` is still at its launch contents when region 0 is left. -/
theorem W2_main_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results

/-- The matrix entering the normalisation is the region's output viewed as 25000 × 128. -/
theorem main_v33_eq (c : Dev nD) :
    (V3 m ρ c main_v33 : FVec Ideal S25000x128 .f32)
      = shapeCast S25000x128 (W2 m ρ c (Proc.devRef .tc main_v18_0) : FVec Ideal S50000x64 .f32) shapeCasts_S50000x64_S25000x128 := by
  show StableHlo.after hostOps1 (W2 m ρ c) (Proc.devRef .tc main_v33) = _
  after_results
  rfl

/-- The doubled mean row at `(0, q)` is the column mean formed from the stored partial sums. -/
theorem main_v35_apply (c : Dev nD) (q : Fin 128) :
    (V3 m ρ c main_v35 : FVec Ideal S1x128 .f32) (ix2 (0 : Fin 1) q)
      = Cert.GinSpec.meanOfSums (W2 m ρ c (Proc.devRef .tc main_v18_1) : FVec Ideal S10x8x64 .f32) (Cert.GinSpec.Layout.colOf q) := by
  show (StableHlo.after hostOps1 (W2 m ρ c) (Proc.devRef .tc main_v35) : FVec Ideal S1x128 .f32) (ix2 (0 : Fin 1) q) = _
  after_results
  exact (Cert.GinSpec.Layout.doubled_row_apply _ concatenates_S64_S64_S128_d0 shapeCasts_S128_S1x128 q).trans
    (Cert.GinSpec.HostStats.mean_apply _ _ _ _ _)

set_option maxHeartbeats 1600000 in
/-- The doubled variance row at `(0, q)` is the clamped column variance formed from the stored partial sums. -/
theorem main_v37_apply (c : Dev nD) (q : Fin 128) :
    (V3 m ρ c main_v37 : FVec Ideal S1x128 .f32) (ix2 (0 : Fin 1) q)
      = Cert.GinSpec.varOfSums (W2 m ρ c (Proc.devRef .tc main_v18_1) : FVec Ideal S10x8x64 .f32)
          (W2 m ρ c (Proc.devRef .tc main_v18_2) : FVec Ideal S10x8x64 .f32) (Cert.GinSpec.Layout.colOf q) := by
  show (StableHlo.after hostOps1 (W2 m ρ c) (Proc.devRef .tc main_v37) : FVec Ideal S1x128 .f32) (ix2 (0 : Fin 1) q) = _
  after_results
  generalize hT : maximumf (F := Ideal) (s := S64) (φ := .f32) _ _ = T
  refine (Cert.GinSpec.Layout.doubled_row_apply T concatenates_S64_S64_S128_d0 shapeCasts_S128_S1x128 q).trans ?_
  rw [← hT]
  exact var_of_parts _ _ _ _ _ _ (Cert.GinSpec.HostStats.mean_apply _ _ _ _ _) (Cert.GinSpec.HostStats.mean_apply _ _ _ _ _)

/-- The doubled scale row at `(0, q)` is the scale argument at column `q mod 64`. -/
theorem main_v39_apply (c : Dev nD) (q : Fin 128) :
    (V3 m ρ c main_v39 : FVec Ideal S1x128 .f32) (ix2 (0 : Fin 1) q)
      = (m ((c : Thread nD τ).loc main_arg7) : FVec Ideal S64 .f32) (ix1 (Cert.GinSpec.Layout.colOf q)) := by
  show (StableHlo.after hostOps1 (W2 m ρ c) (Proc.devRef .tc main_v39) : FVec Ideal S1x128 .f32) (ix2 (0 : Fin 1) q) = _
  after_results
  refine (Cert.GinSpec.Layout.doubled_row_apply _ concatenates_S64_S64_S128_d0 shapeCasts_S128_S1x128 q).trans ?_
  rw [W2_main_arg7]

/-- The doubled shift row at `(0, q)` is the shift argument at column `q mod 64`. -/
theorem main_v41_apply (c : Dev nD) (q : Fin 128) :
    (V3 m ρ c main_v41 : FVec Ideal S1x128 .f32) (ix2 (0 : Fin 1) q)
      = (m ((c : Thread nD τ).loc main_arg8) : FVec Ideal S64 .f32) (ix1 (Cert.GinSpec.Layout.colOf q)) := by
  show (StableHlo.after hostOps1 (W2 m ρ c) (Proc.devRef .tc main_v41) : FVec Ideal S1x128 .f32) (ix2 (0 : Fin 1) q) = _
  after_results
  refine (Cert.GinSpec.Layout.doubled_row_apply _ concatenates_S64_S64_S128_d0 shapeCasts_S128_S1x128 q).trans ?_
  rw [W2_main_arg8]

end Cert.KernelIdeal.StatsValue

end
-- ==== Proof.LayerStep.lean ====
/-
  One layer, from the equations a program supplies to the layer of the specification.

  A program that computes a layer in two passes hands over: the aggregated neighbours `A`, the perceptron output
  `Z` of `A` and `h`, the stored tile sums `S`, `Q` of `Z` and of its squares, the wide view of `Z`, four doubled
  parameter rows read off the sums and the scale and shift, the wide normalised matrix, and its narrow view `H'`.
  When `Z` has only finite entries, `H'` is the layer of the specification at `h`: the wide view and back is the
  identity on entries, the doubled rows meet each entry at its own column, and on finite entries the statistics from
  tile sums are the statistics from centred squares.
-/
import proofs.«177788_j17205638988409_2_alg».proof.Proof.NetSpec
import proofs.«177788_j17205638988409_2_alg».proof.Proof.LayoutLaws
import proofs.«177788_j17205638988409_2_alg».proof.Proof.BatchNormLaw

noncomputable section

namespace Cert.GinSpec.Step

open Idealize.ShloMosaic Idealize.ShloMosaic.ValueIdx Cert.GinSpec Cert.GinSpec.Layout Cert.GinSpec.Law

/-- Reading an array through a map of indices keeps its entries finite. -/
theorem finite_broadcastInDim {s t : Shape} (dims : Fin s.rank → Fin t.rank) (h : s.BroadcastsInDim t dims)
    (v : s.Idx → EReal) (hv : FiniteArr v) : FiniteArr (broadcastInDim t dims h v) := by
  intro j
  unfold broadcastInDim
  exact hv _

theorem finite_shapeCast {s t : Shape} (v : s.Idx → EReal) (h : s.ShapeCasts t) (hv : FiniteArr v) :
    FiniteArr (shapeCast t v h) := by
  intro j
  unfold shapeCast
  exact hv _

theorem finite_vec (v : (⟨1, ![64]⟩ : Shape).Idx → EReal) (hv : FiniteArr v) : FiniteArr (fun c : Fin 64 => v (ix1 c)) :=
  fun c => hv _

/-- The step. -/
theorem layer_step (agg : Mat 50000 64 → Mat 50000 64) (h : Mat 50000 64) (wa : Mat 64 64) (ba : Mat 1 64)
    (wb : Mat 64 64) (bb : Mat 1 64) (g be : Fin 64 → EReal)
    (A Z : Mat 50000 64) (S Q : Arr3 10 8 64) (Zw : Mat 25000 128) (M2 V2 G2 B2 : Mat 1 128) (Ow : Mat 25000 128)
    (H' : Mat 50000 64)
    (h1 : (⟨2, ![50000, 64]⟩ : Shape).ShapeCasts ⟨2, ![25000, 128]⟩)
    (h2 : (⟨2, ![25000, 128]⟩ : Shape).ShapeCasts ⟨2, ![50000, 64]⟩)
    (hA : A = agg h) (hZ : Z = mlp A h wa ba wb bb) (hS : S = tileSums Z) (hQ : Q = tileSumSqs Z)
    (hZw : Zw = shapeCast (⟨2, ![25000, 128]⟩ : Shape) Z h1)
    (hM : ∀ q : Fin 128, M2 (ix2 (0 : Fin 1) q) = meanOfSums S (colOf q))
    (hV : ∀ q : Fin 128, V2 (ix2 (0 : Fin 1) q) = varOfSums S Q (colOf q))
    (hG : ∀ q : Fin 128, G2 (ix2 (0 : Fin 1) q) = g (colOf q))
    (hB : ∀ q : Fin 128, B2 (ix2 (0 : Fin 1) q) = be (colOf q))
    (hO : Ow = normDense Zw M2 V2 G2 B2) (hH : H' = shapeCast (⟨2, ![50000, 64]⟩ : Shape) Ow h2)
    (hfin : FiniteArr Z) : H' = layer agg h wa ba wb bb g be := by
  have hZ' : Z = layerZ agg h wa ba wb bb := by rw [hZ, hA]; rfl
  rw [hH, hO, hZw, dense_roundtrip Z M2 V2 G2 B2 (meanOfSums S) (varOfSums S Q) g be h1 h2 hM hV hG hB, hS, hQ,
    normWith_law Z hfin g be]
  unfold layer
  rw [← hZ']

end Cert.GinSpec.Step

end
-- ==== Proof.Bridge1.lean ====
/-
  The first layer of the kernel program is the layer of the specification.

  After the first normalising region and the view back to 50000 × 64, the node matrix the kernel program holds is
  the specification's layer at the input features: its aggregation is the reference's aggregation (the same host
  operations; a change of float format is the identity on extended reals), its perceptron region computes the
  perceptron tile by tile, its statistics stretch reads mean and variance off the tile sums, and its normalising
  region works in the wide view.  The entries of the perceptron output are finite because the inputs are.
-/
import proofs.«177788_j17205638988409_2_alg».proof.Proof.Stage1Value
import proofs.«177788_j17205638988409_2_alg».proof.Proof.Stage2Value
import proofs.«177788_j17205638988409_2_alg».proof.Proof.KAgg
import proofs.«177788_j17205638988409_2_alg».proof.Proof.KStats
import proofs.«177788_j17205638988409_2_alg».proof.Proof.RefNet
import proofs.«177788_j17205638988409_2_alg».proof.Proof.LayerStep
import proofs.«177788_j17205638988409_2_alg».proof.Proof.LibRowCast

set_option maxRecDepth 16384

noncomputable section

namespace Cert.Bridge

open Cert.KernelIdeal Cert.KernelIdeal.Gen Idealize.ShloMosaic Idealize.ShloMosaic.TcCoe Idealize.SL.Sem
open Idealize.ShloMosaic.ValueIdx
open Cert.GinSpec Cert.GinSpec.Law Cert.GinSpec.Layout Cert.GinSpec.Step

variable (m : (ℓ : Loc nD τ sig) → Buf (Elt Ideal) ℓ) (ρ : Dev nD → PrngReg)

/-- A vector of 64 entries as a row, spelt with the reference's side condition. -/
abbrev rowR (v : (⟨1, ![64]⟩ : Shape).Idx → EReal) : Mat 1 64 :=
  broadcastInDim Cert.ReferenceIdeal.S1x64 ![1] Cert.ReferenceIdeal.Gen.bcast_S64_S1x64_1 v

/-- The kernel's row view of a bias is the reference's. -/
theorem row_eq (v : (⟨1, ![64]⟩ : Shape).Idx → EReal) :
    @Eq (Mat 1 64) (shapeCast S1x64 v shapeCasts_S64_S1x64) (rowR v) :=
  Cert.LibRowCast.shapeCast_row_eq_broadcastInDim v _ _

/-- The kernel's aggregation, which gathers rows stored in the narrower format, is the reference's. -/
theorem agg_eq (h : (⟨2, ![50000, 64]⟩ : Shape).Idx → EReal) (e : IVec S2x800000 32) :
    @Eq (Mat 50000 64) (Cert.KernelIdeal.AggValue.aggK h e) (Cert.ReferenceIdeal.RefValue.aggR e h) := rfl

theorem layer1 (c : Dev nD)
    (f0 : FiniteArr (m ((c : Thread nD τ).loc main_arg0) : Mat 50000 64))
    (f3 : FiniteArr (m ((c : Thread nD τ).loc main_arg3) : Mat 64 64))
    (f4 : FiniteArr (m ((c : Thread nD τ).loc main_arg4) : (⟨1, ![64]⟩ : Shape).Idx → EReal))
    (f5 : FiniteArr (m ((c : Thread nD τ).loc main_arg5) : Mat 64 64))
    (f6 : FiniteArr (m ((c : Thread nD τ).loc main_arg6) : (⟨1, ![64]⟩ : Shape).Idx → EReal)) :
    @Eq (Mat 50000 64) (V5 m ρ c main_v43)
      (layer (Cert.ReferenceIdeal.RefValue.aggR (m ((c : Thread nD τ).loc main_arg1))) (m ((c : Thread nD τ).loc main_arg0))
        (m ((c : Thread nD τ).loc main_arg3)) (rowR (m ((c : Thread nD τ).loc main_arg4)))
        (m ((c : Thread nD τ).loc main_arg5)) (rowR (m ((c : Thread nD τ).loc main_arg6)))
        (fun k => (m ((c : Thread nD τ).loc main_arg7) : (⟨1, ![64]⟩ : Shape).Idx → EReal) (ix1 k))
        (fun k => (m ((c : Thread nD τ).loc main_arg8) : (⟨1, ![64]⟩ : Shape).Idx → EReal) (ix1 k))) := by
  have e0 : @Eq (Mat 50000 64) (V1 m ρ c main_v0) (m ((c : Thread nD τ).loc main_arg0)) :=
    (Cert.KernelIdeal.AggValue.V1_main_v0 m ρ c).trans (Cert.KernelIdeal.AggValue.truncf_eq _ _)
  have e15 : @Eq (Mat 50000 64) (V1 m ρ c main_v15)
      (Cert.ReferenceIdeal.RefValue.aggR (m ((c : Thread nD τ).loc main_arg1)) (m ((c : Thread nD τ).loc main_arg0))) :=
    (Cert.KernelIdeal.AggValue.V1_main_v15 m ρ c).trans rfl
  have e16 : @Eq (Mat 1 64) (V1 m ρ c main_v16) (rowR (m ((c : Thread nD τ).loc main_arg4))) :=
    (Cert.KernelIdeal.AggValue.V1_main_v16 m ρ c).trans (row_eq _)
  have e17 : @Eq (Mat 1 64) (V1 m ρ c main_v17) (rowR (m ((c : Thread nD τ).loc main_arg6))) :=
    (Cert.KernelIdeal.AggValue.V1_main_v17 m ρ c).trans (row_eq _)
  have e3 : @Eq (Mat 64 64) (V1 m ρ c main_arg3) (m ((c : Thread nD τ).loc main_arg3)) := Cert.KernelIdeal.AggValue.V1_main_arg3 m ρ c
  have e5 : @Eq (Mat 64 64) (V1 m ρ c main_arg5) (m ((c : Thread nD τ).loc main_arg5)) := Cert.KernelIdeal.AggValue.V1_main_arg5 m ρ c
  have hZ : @Eq (Mat 50000 64) (W2 m ρ c (Proc.devRef .tc main_v18_0))
      (mlp (V1 m ρ c main_v15) (m ((c : Thread nD τ).loc main_arg0)) (m ((c : Thread nD τ).loc main_arg3))
        (rowR (m ((c : Thread nD τ).loc main_arg4))) (m ((c : Thread nD τ).loc main_arg5)) (rowR (m ((c : Thread nD τ).loc main_arg6)))) := by
    rw [Cert.KernelIdeal.Stage1.region0_z m ρ c, e0, e3, e16, e5, e17]
  have hS : @Eq (Arr3 10 8 64) (W2 m ρ c (Proc.devRef .tc main_v18_1)) (tileSums (W2 m ρ c (Proc.devRef .tc main_v18_0))) := by
    rw [Cert.KernelIdeal.Stage1.region0_sums m ρ c, Cert.KernelIdeal.Stage1.region0_z m ρ c]
  have hQ : @Eq (Arr3 10 8 64) (W2 m ρ c (Proc.devRef .tc main_v18_2)) (tileSumSqs (W2 m ρ c (Proc.devRef .tc main_v18_0))) := by
    rw [Cert.KernelIdeal.Stage1.region0_sumsqs m ρ c, Cert.KernelIdeal.Stage1.region0_z m ρ c]
  have hfin : FiniteArr (W2 m ρ c (Proc.devRef .tc main_v18_0) : Mat 50000 64) := by
    rw [hZ, e15]
    exact finite_mlp _ _ _ _ _ _ (Cert.ReferenceIdeal.RefValue.finite_aggR _ _ f0) f0 f3
      (finite_broadcastInDim _ _ _ f4) f5 (finite_broadcastInDim _ _ _ f6)
  exact layer_step (Cert.ReferenceIdeal.RefValue.aggR (m ((c : Thread nD τ).loc main_arg1))) (m ((c : Thread nD τ).loc main_arg0))
    (m ((c : Thread nD τ).loc main_arg3)) (rowR (m ((c : Thread nD τ).loc main_arg4)))
    (m ((c : Thread nD τ).loc main_arg5)) (rowR (m ((c : Thread nD τ).loc main_arg6))) _ _
    (V1 m ρ c main_v15) (W2 m ρ c (Proc.devRef .tc main_v18_0)) (W2 m ρ c (Proc.devRef .tc main_v18_1))
    (W2 m ρ c (Proc.devRef .tc main_v18_2)) (V3 m ρ c main_v33) (V3 m ρ c main_v35) (V3 m ρ c main_v37) (V3 m ρ c main_v39)
    (V3 m ρ c main_v41) (W4 m ρ c (Proc.devRef .tc main_v42)) (V5 m ρ c main_v43)
    shapeCasts_S50000x64_S25000x128 shapeCasts_S25000x128_S50000x64
    e15 hZ hS hQ (Cert.KernelIdeal.StatsValue.main_v33_eq m ρ c)
    (Cert.KernelIdeal.StatsValue.main_v35_apply m ρ c) (Cert.KernelIdeal.StatsValue.main_v37_apply m ρ c)
    (Cert.KernelIdeal.StatsValue.main_v39_apply m ρ c) (Cert.KernelIdeal.StatsValue.main_v41_apply m ρ c)
    (Cert.KernelIdeal.Stage2.region1_out m ρ c) (Cert.KernelIdeal.AggValue.V5_main_v43 m ρ c) hfin

end Cert.Bridge

end
-- ==== Proof.KStats3.lean ====
import proofs.«177788_j17205638988409_2_alg».proof.Proof.KStats

/-!
# The statistics stretch of layer two, read at an index

The same host stretch as the first layer's, on this layer's buffers: the region's output viewed as 25000 × 128, the
doubled mean and variance rows from the stored partial sums, and the doubled scale and shift rows from the arguments.
-/

noncomputable section

namespace Cert.KernelIdeal.StatsValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## Stretch after region 2: the buffers region 3 is entered with -/

set_option maxHeartbeats 1600000 in
/-- Argument `main_arg13` is still at its launch contents when region 2 is left. -/
theorem W6_main_arg13 (c : Dev nD) : W6 m ρ c (Proc.devRef .tc main_arg13) = m ((c : Thread nD τ).loc main_arg13) := by
  refine (W6_of_ne m ρ c main_arg13 (by decide)).trans ?_
  refine (show StableHlo.after hostOps2 (W4 m ρ c) (Proc.devRef .tc main_arg13) = W4 m ρ c (Proc.devRef .tc main_arg13) by
    after_results).trans ?_
  refine (W4_of_ne m ρ c main_arg13 (by decide)).trans ?_
  refine (show StableHlo.after hostOps1 (W2 m ρ c) (Proc.devRef .tc main_arg13) = W2 m ρ c (Proc.devRef .tc main_arg13) by
    after_results).trans ?_
  refine (W2_of_ne m ρ c main_arg13 (by decide)).trans ?_
  show StableHlo.after hostOps0 (W0 m ρ c) (Proc.devRef .tc main_arg13) = _
  after_results

set_option maxHeartbeats 1600000 in
/-- Argument `main_arg14` is still at its launch contents when region 2 is left. -/
theorem W6_main_arg14 (c : Dev nD) : W6 m ρ c (Proc.devRef .tc main_arg14) = m ((c : Thread nD τ).loc main_arg14) := by
  refine (W6_of_ne m ρ c main_arg14 (by decide)).trans ?_
  refine (show StableHlo.after hostOps2 (W4 m ρ c) (Proc.devRef .tc main_arg14) = W4 m ρ c (Proc.devRef .tc main_arg14) by
    after_results).trans ?_
  refine (W4_of_ne m ρ c main_arg14 (by decide)).trans ?_
  refine (show StableHlo.after hostOps1 (W2 m ρ c) (Proc.devRef .tc main_arg14) = W2 m ρ c (Proc.devRef .tc main_arg14) by
    after_results).trans ?_
  refine (W2_of_ne m ρ c main_arg14 (by decide)).trans ?_
  show StableHlo.after hostOps0 (W0 m ρ c) (Proc.devRef .tc main_arg14) = _
  after_results

/-- The matrix entering the normalisation is the region's output viewed as 25000 × 128. -/
theorem main_v76_eq (c : Dev nD) :
    (V7 m ρ c main_v76 : FVec Ideal S25000x128 .f32)
      = shapeCast S25000x128 (W6 m ρ c (Proc.devRef .tc main_v61_0) : FVec Ideal S50000x64 .f32) shapeCasts_S50000x64_S25000x128 := by
  show StableHlo.after hostOps3 (W6 m ρ c) (Proc.devRef .tc main_v76) = _
  after_results
  rfl

/-- The doubled mean row at `(0, q)` is the column mean formed from the stored partial sums. -/
theorem main_v78_apply (c : Dev nD) (q : Fin 128) :
    (V7 m ρ c main_v78 : FVec Ideal S1x128 .f32) (ix2 (0 : Fin 1) q)
      = Cert.GinSpec.meanOfSums (W6 m ρ c (Proc.devRef .tc main_v61_1) : FVec Ideal S10x8x64 .f32) (Cert.GinSpec.Layout.colOf q) := by
  show (StableHlo.after hostOps3 (W6 m ρ c) (Proc.devRef .tc main_v78) : FVec Ideal S1x128 .f32) (ix2 (0 : Fin 1) q) = _
  after_results
  exact (Cert.GinSpec.Layout.doubled_row_apply _ concatenates_S64_S64_S128_d0 shapeCasts_S128_S1x128 q).trans
    (Cert.GinSpec.HostStats.mean_apply _ _ _ _ _)

set_option maxHeartbeats 1600000 in
/-- The doubled variance row at `(0, q)` is the clamped column variance formed from the stored partial sums. -/
theorem main_v80_apply (c : Dev nD) (q : Fin 128) :
    (V7 m ρ c main_v80 : FVec Ideal S1x128 .f32) (ix2 (0 : Fin 1) q)
      = Cert.GinSpec.varOfSums (W6 m ρ c (Proc.devRef .tc main_v61_1) : FVec Ideal S10x8x64 .f32)
          (W6 m ρ c (Proc.devRef .tc main_v61_2) : FVec Ideal S10x8x64 .f32) (Cert.GinSpec.Layout.colOf q) := by
  show (StableHlo.after hostOps3 (W6 m ρ c) (Proc.devRef .tc main_v80) : FVec Ideal S1x128 .f32) (ix2 (0 : Fin 1) q) = _
  after_results
  generalize hT : maximumf (F := Ideal) (s := S64) (φ := .f32) _ _ = T
  refine (Cert.GinSpec.Layout.doubled_row_apply T concatenates_S64_S64_S128_d0 shapeCasts_S128_S1x128 q).trans ?_
  rw [← hT]
  exact var_of_parts _ _ _ _ _ _ (Cert.GinSpec.HostStats.mean_apply _ _ _ _ _) (Cert.GinSpec.HostStats.mean_apply _ _ _ _ _)

/-- The doubled scale row at `(0, q)` is the scale argument at column `q mod 64`. -/
theorem main_v82_apply (c : Dev nD) (q : Fin 128) :
    (V7 m ρ c main_v82 : FVec Ideal S1x128 .f32) (ix2 (0 : Fin 1) q)
      = (m ((c : Thread nD τ).loc main_arg13) : FVec Ideal S64 .f32) (ix1 (Cert.GinSpec.Layout.colOf q)) := by
  show (StableHlo.after hostOps3 (W6 m ρ c) (Proc.devRef .tc main_v82) : FVec Ideal S1x128 .f32) (ix2 (0 : Fin 1) q) = _
  after_results
  refine (Cert.GinSpec.Layout.doubled_row_apply _ concatenates_S64_S64_S128_d0 shapeCasts_S128_S1x128 q).trans ?_
  rw [W6_main_arg13]

/-- The doubled shift row at `(0, q)` is the shift argument at column `q mod 64`. -/
theorem main_v84_apply (c : Dev nD) (q : Fin 128) :
    (V7 m ρ c main_v84 : FVec Ideal S1x128 .f32) (ix2 (0 : Fin 1) q)
      = (m ((c : Thread nD τ).loc main_arg14) : FVec Ideal S64 .f32) (ix1 (Cert.GinSpec.Layout.colOf q)) := by
  show (StableHlo.after hostOps3 (W6 m ρ c) (Proc.devRef .tc main_v84) : FVec Ideal S1x128 .f32) (ix2 (0 : Fin 1) q) = _
  after_results
  refine (Cert.GinSpec.Layout.doubled_row_apply _ concatenates_S64_S64_S128_d0 shapeCasts_S128_S1x128 q).trans ?_
  rw [W6_main_arg14]

end Cert.KernelIdeal.StatsValue

end
-- ==== Proof.Bridge2.lean ====
/-
  The second layer of the kernel program is the layer of the specification.

  After the second normalising region and the view back to 50000 × 64, the node matrix the kernel program holds is
  the specification's layer at the node matrix the first layer left: its aggregation is the reference's aggregation
  of that matrix (the same host operations; a change of float format is the identity on extended reals), its
  perceptron region computes the perceptron tile by tile, its statistics stretch reads mean and variance off the tile
  sums, and its normalising region works in the wide view.  The entries of the perceptron output are finite because
  the entries of the first layer's result and of the weights are.
-/
import proofs.«177788_j17205638988409_2_alg».proof.Proof.Bridge1
import proofs.«177788_j17205638988409_2_alg».proof.Proof.KStats3

set_option maxRecDepth 16384

noncomputable section

namespace Cert.Bridge

open Cert.KernelIdeal Cert.KernelIdeal.Gen Idealize.ShloMosaic Idealize.ShloMosaic.TcCoe Idealize.SL.Sem
open Idealize.ShloMosaic.ValueIdx
open Cert.GinSpec Cert.GinSpec.Law Cert.GinSpec.Layout Cert.GinSpec.Step

variable (m : (ℓ : Loc nD τ sig) → Buf (Elt Ideal) ℓ) (ρ : Dev nD → PrngReg)

theorem layer2 (c : Dev nD)
    (fH : FiniteArr (V5 m ρ c main_v43 : Mat 50000 64))
    (f9 : FiniteArr (m ((c : Thread nD τ).loc main_arg9) : Mat 64 64))
    (f10 : FiniteArr (m ((c : Thread nD τ).loc main_arg10) : (⟨1, ![64]⟩ : Shape).Idx → EReal))
    (f11 : FiniteArr (m ((c : Thread nD τ).loc main_arg11) : Mat 64 64))
    (f12 : FiniteArr (m ((c : Thread nD τ).loc main_arg12) : (⟨1, ![64]⟩ : Shape).Idx → EReal)) :
    @Eq (Mat 50000 64) (V9 m ρ c main_v86)
      (layer (Cert.ReferenceIdeal.RefValue.aggR (m ((c : Thread nD τ).loc main_arg1))) (V5 m ρ c main_v43)
        (m ((c : Thread nD τ).loc main_arg9)) (rowR (m ((c : Thread nD τ).loc main_arg10)))
        (m ((c : Thread nD τ).loc main_arg11)) (rowR (m ((c : Thread nD τ).loc main_arg12)))
        (fun k => (m ((c : Thread nD τ).loc main_arg13) : (⟨1, ![64]⟩ : Shape).Idx → EReal) (ix1 k))
        (fun k => (m ((c : Thread nD τ).loc main_arg14) : (⟨1, ![64]⟩ : Shape).Idx → EReal) (ix1 k))) := by
  have eA : @Eq (Mat 50000 64) (V5 m ρ c main_v58)
      (Cert.ReferenceIdeal.RefValue.aggR (m ((c : Thread nD τ).loc main_arg1)) (V5 m ρ c main_v43)) :=
    ((Cert.KernelIdeal.AggValue.V5_main_v58 m ρ c).trans
      (congrArg (fun h => Cert.KernelIdeal.AggValue.aggK h (m ((c : Thread nD τ).loc main_arg1)))
        (Cert.KernelIdeal.AggValue.V5_main_v43 m ρ c).symm)).trans (agg_eq _ _)
  have eBa : @Eq (Mat 1 64) (V5 m ρ c main_v59) (rowR (m ((c : Thread nD τ).loc main_arg10))) :=
    (Cert.KernelIdeal.AggValue.V5_main_v59 m ρ c).trans (row_eq _)
  have eBb : @Eq (Mat 1 64) (V5 m ρ c main_v60) (rowR (m ((c : Thread nD τ).loc main_arg12))) :=
    (Cert.KernelIdeal.AggValue.V5_main_v60 m ρ c).trans (row_eq _)
  have eWa : @Eq (Mat 64 64) (V5 m ρ c main_arg9) (m ((c : Thread nD τ).loc main_arg9)) := Cert.KernelIdeal.AggValue.V5_main_arg9 m ρ c
  have eWb : @Eq (Mat 64 64) (V5 m ρ c main_arg11) (m ((c : Thread nD τ).loc main_arg11)) := Cert.KernelIdeal.AggValue.V5_main_arg11 m ρ c
  have hZ : @Eq (Mat 50000 64) (W6 m ρ c (Proc.devRef .tc main_v61_0))
      (mlp (V5 m ρ c main_v58) (V5 m ρ c main_v43) (m ((c : Thread nD τ).loc main_arg9))
        (rowR (m ((c : Thread nD τ).loc main_arg10))) (m ((c : Thread nD τ).loc main_arg11)) (rowR (m ((c : Thread nD τ).loc main_arg12)))) := by
    rw [Cert.KernelIdeal.Stage1.region2_z m ρ c, eWa, eBa, eWb, eBb]
  have hS : @Eq (Arr3 10 8 64) (W6 m ρ c (Proc.devRef .tc main_v61_1)) (tileSums (W6 m ρ c (Proc.devRef .tc main_v61_0))) := by
    rw [Cert.KernelIdeal.Stage1.region2_sums m ρ c, Cert.KernelIdeal.Stage1.region2_z m ρ c]
  have hQ : @Eq (Arr3 10 8 64) (W6 m ρ c (Proc.devRef .tc main_v61_2)) (tileSumSqs (W6 m ρ c (Proc.devRef .tc main_v61_0))) := by
    rw [Cert.KernelIdeal.Stage1.region2_sumsqs m ρ c, Cert.KernelIdeal.Stage1.region2_z m ρ c]
  have hfin : FiniteArr (W6 m ρ c (Proc.devRef .tc main_v61_0) : Mat 50000 64) := by
    rw [hZ, eA]
    exact finite_mlp _ _ _ _ _ _ (Cert.ReferenceIdeal.RefValue.finite_aggR _ _ fH) fH f9
      (finite_broadcastInDim _ _ _ f10) f11 (finite_broadcastInDim _ _ _ f12)
  exact layer_step (Cert.ReferenceIdeal.RefValue.aggR (m ((c : Thread nD τ).loc main_arg1))) (V5 m ρ c main_v43)
    (m ((c : Thread nD τ).loc main_arg9)) (rowR (m ((c : Thread nD τ).loc main_arg10)))
    (m ((c : Thread nD τ).loc main_arg11)) (rowR (m ((c : Thread nD τ).loc main_arg12))) _ _
    (V5 m ρ c main_v58) (W6 m ρ c (Proc.devRef .tc main_v61_0)) (W6 m ρ c (Proc.devRef .tc main_v61_1))
    (W6 m ρ c (Proc.devRef .tc main_v61_2)) (V7 m ρ c main_v76) (V7 m ρ c main_v78) (V7 m ρ c main_v80) (V7 m ρ c main_v82)
    (V7 m ρ c main_v84) (W8 m ρ c (Proc.devRef .tc main_v85)) (V9 m ρ c main_v86)
    shapeCasts_S50000x64_S25000x128 shapeCasts_S25000x128_S50000x64
    eA hZ hS hQ (Cert.KernelIdeal.StatsValue.main_v76_eq m ρ c)
    (Cert.KernelIdeal.StatsValue.main_v78_apply m ρ c) (Cert.KernelIdeal.StatsValue.main_v80_apply m ρ c)
    (Cert.KernelIdeal.StatsValue.main_v82_apply m ρ c) (Cert.KernelIdeal.StatsValue.main_v84_apply m ρ c)
    (Cert.KernelIdeal.Stage2.region3_out m ρ c) (Cert.KernelIdeal.AggValue.V9_main_v86 m ρ c) hfin

end Cert.Bridge

end
-- ==== Proof.KStats5.lean ====
import proofs.«177788_j17205638988409_2_alg».proof.Proof.KStats

/-!
# The statistics stretch of layer three, read at an index

The same host stretch as the first layer's, on this layer's buffers: the region's output viewed as 25000 × 128, the
doubled mean and variance rows from the stored partial sums, and the doubled scale and shift rows from the arguments.
-/

noncomputable section

namespace Cert.KernelIdeal.StatsValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## Stretch after region 4: the buffers region 5 is entered with -/

set_option maxHeartbeats 1600000 in
/-- Argument `main_arg19` is still at its launch contents when region 4 is left. -/
theorem W10_main_arg19 (c : Dev nD) : W10 m ρ c (Proc.devRef .tc main_arg19) = m ((c : Thread nD τ).loc main_arg19) := by
  refine (W10_of_ne m ρ c main_arg19 (by decide)).trans ?_
  refine (show StableHlo.after hostOps4 (W8 m ρ c) (Proc.devRef .tc main_arg19) = W8 m ρ c (Proc.devRef .tc main_arg19) by
    after_results).trans ?_
  refine (W8_of_ne m ρ c main_arg19 (by decide)).trans ?_
  refine (show StableHlo.after hostOps3 (W6 m ρ c) (Proc.devRef .tc main_arg19) = W6 m ρ c (Proc.devRef .tc main_arg19) by
    after_results).trans ?_
  refine (W6_of_ne m ρ c main_arg19 (by decide)).trans ?_
  refine (show StableHlo.after hostOps2 (W4 m ρ c) (Proc.devRef .tc main_arg19) = W4 m ρ c (Proc.devRef .tc main_arg19) by
    after_results).trans ?_
  refine (W4_of_ne m ρ c main_arg19 (by decide)).trans ?_
  refine (show StableHlo.after hostOps1 (W2 m ρ c) (Proc.devRef .tc main_arg19) = W2 m ρ c (Proc.devRef .tc main_arg19) by
    after_results).trans ?_
  refine (W2_of_ne m ρ c main_arg19 (by decide)).trans ?_
  show StableHlo.after hostOps0 (W0 m ρ c) (Proc.devRef .tc main_arg19) = _
  after_results

set_option maxHeartbeats 1600000 in
/-- Argument `main_arg20` is still at its launch contents when region 4 is left. -/
theorem W10_main_arg20 (c : Dev nD) : W10 m ρ c (Proc.devRef .tc main_arg20) = m ((c : Thread nD τ).loc main_arg20) := by
  refine (W10_of_ne m ρ c main_arg20 (by decide)).trans ?_
  refine (show StableHlo.after hostOps4 (W8 m ρ c) (Proc.devRef .tc main_arg20) = W8 m ρ c (Proc.devRef .tc main_arg20) by
    after_results).trans ?_
  refine (W8_of_ne m ρ c main_arg20 (by decide)).trans ?_
  refine (show StableHlo.after hostOps3 (W6 m ρ c) (Proc.devRef .tc main_arg20) = W6 m ρ c (Proc.devRef .tc main_arg20) by
    after_results).trans ?_
  refine (W6_of_ne m ρ c main_arg20 (by decide)).trans ?_
  refine (show StableHlo.after hostOps2 (W4 m ρ c) (Proc.devRef .tc main_arg20) = W4 m ρ c (Proc.devRef .tc main_arg20) by
    after_results).trans ?_
  refine (W4_of_ne m ρ c main_arg20 (by decide)).trans ?_
  refine (show StableHlo.after hostOps1 (W2 m ρ c) (Proc.devRef .tc main_arg20) = W2 m ρ c (Proc.devRef .tc main_arg20) by
    after_results).trans ?_
  refine (W2_of_ne m ρ c main_arg20 (by decide)).trans ?_
  show StableHlo.after hostOps0 (W0 m ρ c) (Proc.devRef .tc main_arg20) = _
  after_results

/-- The matrix entering the normalisation is the region's output viewed as 25000 × 128. -/
theorem main_v119_eq (c : Dev nD) :
    (V11 m ρ c main_v119 : FVec Ideal S25000x128 .f32)
      = shapeCast S25000x128 (W10 m ρ c (Proc.devRef .tc main_v104_0) : FVec Ideal S50000x64 .f32) shapeCasts_S50000x64_S25000x128 := by
  show StableHlo.after hostOps5 (W10 m ρ c) (Proc.devRef .tc main_v119) = _
  after_results
  rfl

/-- The doubled mean row at `(0, q)` is the column mean formed from the stored partial sums. -/
theorem main_v121_apply (c : Dev nD) (q : Fin 128) :
    (V11 m ρ c main_v121 : FVec Ideal S1x128 .f32) (ix2 (0 : Fin 1) q)
      = Cert.GinSpec.meanOfSums (W10 m ρ c (Proc.devRef .tc main_v104_1) : FVec Ideal S10x8x64 .f32) (Cert.GinSpec.Layout.colOf q) := by
  show (StableHlo.after hostOps5 (W10 m ρ c) (Proc.devRef .tc main_v121) : FVec Ideal S1x128 .f32) (ix2 (0 : Fin 1) q) = _
  after_results
  exact (Cert.GinSpec.Layout.doubled_row_apply _ concatenates_S64_S64_S128_d0 shapeCasts_S128_S1x128 q).trans
    (Cert.GinSpec.HostStats.mean_apply _ _ _ _ _)

set_option maxHeartbeats 1600000 in
/-- The doubled variance row at `(0, q)` is the clamped column variance formed from the stored partial sums. -/
theorem main_v123_apply (c : Dev nD) (q : Fin 128) :
    (V11 m ρ c main_v123 : FVec Ideal S1x128 .f32) (ix2 (0 : Fin 1) q)
      = Cert.GinSpec.varOfSums (W10 m ρ c (Proc.devRef .tc main_v104_1) : FVec Ideal S10x8x64 .f32)
          (W10 m ρ c (Proc.devRef .tc main_v104_2) : FVec Ideal S10x8x64 .f32) (Cert.GinSpec.Layout.colOf q) := by
  show (StableHlo.after hostOps5 (W10 m ρ c) (Proc.devRef .tc main_v123) : FVec Ideal S1x128 .f32) (ix2 (0 : Fin 1) q) = _
  after_results
  generalize hT : maximumf (F := Ideal) (s := S64) (φ := .f32) _ _ = T
  refine (Cert.GinSpec.Layout.doubled_row_apply T concatenates_S64_S64_S128_d0 shapeCasts_S128_S1x128 q).trans ?_
  rw [← hT]
  exact var_of_parts _ _ _ _ _ _ (Cert.GinSpec.HostStats.mean_apply _ _ _ _ _) (Cert.GinSpec.HostStats.mean_apply _ _ _ _ _)

/-- The doubled scale row at `(0, q)` is the scale argument at column `q mod 64`. -/
theorem main_v125_apply (c : Dev nD) (q : Fin 128) :
    (V11 m ρ c main_v125 : FVec Ideal S1x128 .f32) (ix2 (0 : Fin 1) q)
      = (m ((c : Thread nD τ).loc main_arg19) : FVec Ideal S64 .f32) (ix1 (Cert.GinSpec.Layout.colOf q)) := by
  show (StableHlo.after hostOps5 (W10 m ρ c) (Proc.devRef .tc main_v125) : FVec Ideal S1x128 .f32) (ix2 (0 : Fin 1) q) = _
  after_results
  refine (Cert.GinSpec.Layout.doubled_row_apply _ concatenates_S64_S64_S128_d0 shapeCasts_S128_S1x128 q).trans ?_
  rw [W10_main_arg19]

/-- The doubled shift row at `(0, q)` is the shift argument at column `q mod 64`. -/
theorem main_v127_apply (c : Dev nD) (q : Fin 128) :
    (V11 m ρ c main_v127 : FVec Ideal S1x128 .f32) (ix2 (0 : Fin 1) q)
      = (m ((c : Thread nD τ).loc main_arg20) : FVec Ideal S64 .f32) (ix1 (Cert.GinSpec.Layout.colOf q)) := by
  show (StableHlo.after hostOps5 (W10 m ρ c) (Proc.devRef .tc main_v127) : FVec Ideal S1x128 .f32) (ix2 (0 : Fin 1) q) = _
  after_results
  refine (Cert.GinSpec.Layout.doubled_row_apply _ concatenates_S64_S64_S128_d0 shapeCasts_S128_S1x128 q).trans ?_
  rw [W10_main_arg20]

end Cert.KernelIdeal.StatsValue

end
-- ==== Proof.HeadValue.lean ====
/-
  The head region of the kernel program as one whole-array equality.

  The head runs at a single grid point whose blocks are the whole arrays: the pooled matrix `X` (512 × 64), the weights
  `Wl` (64 × 128) and `Wf` (128 × 64) and the bias rows `Bl`, `Bf`. It leaves `max ((X · Wl + Bl) · Wf + Bf) 0` in the
  result; both products accumulate into zero, and the changes of format before each product are the identity on
  extended reals. So the region's result is `Cert.GinSpec.head` of the five arrays as the region finds them.
-/
import proofs.«177788_j17205638988409_2_alg».proof.Proof.Gen.KernelIdeal.Frame
import proofs.«177788_j17205638988409_2_alg».proof.Proof.GinSpec
import proofs.«177788_j17205638988409_2_alg».proof.Proof.LibMatmulIdx
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HeadValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-! ## The body's arithmetic at an entry -/

theorem hz : (![0, 0] : Fin 2 → Nat) = fun _ => 0 := funext fun a => by fin_cases a <;> rfl

/-- The body's stored value at row `a`, column `b`: the two matrix products read as sums over the contracted
    coordinate, each bias row added along the rows, the rectifier last. -/
theorem pay_apply (x0 : Vec Ideal S512x64 .f32) (x1 : Vec Ideal S64x128 .f32) (x2 : Vec Ideal S1x128 .f32)
    (x3 : Vec Ideal S128x64 .f32) (x4 : Vec Ideal S1x64 .f32) (a : Fin 512) (b : Fin 64) :
    k6_pay1 (F := Ideal) x0 x1 x2 x3 x4 (ix2 a b) = Cert.GinSpec.head x0 x1 x2 x3 x4 (ix2 a b) := by
  unfold k6_pay1 dot_S512x64_S64x128_S512x128_1_0_0_1_n_n dot_S512x128_S128x64_S512x64_1_0_0_1_n_n matmul
  simp only [shapeCast_self]
  rw [maximumf_apply, addf_apply, broadcastTo_1b_ab_apply, Cert.LibMatmulIdx.matmul_rc_apply]
  simp only [truncf_apply, addf_apply, broadcastTo_1b_ab_apply]
  unfold Cert.GinSpec.head
  refine congrArg₂ max (congrArg₂ (· + ·) (Finset.sum_congr rfl fun c _ => ?_) rfl) rfl
  rw [Cert.LibMatmulIdx.matmul_rc_apply]
  rfl

/-! ## From the one block to the array -/

/-- The result of the head region as one function of the arrays the region finds. -/
abbrev G6 (c : Dev nD) : Cert.GinSpec.Mat 512 64 :=
  Cert.GinSpec.head (V13 m ρ c main_v133) (V13 m ρ c main_arg21) (V13 m ρ c main_v134) (V13 m ρ c main_arg23) (V13 m ρ c main_v135)

/-- The printed index maps at the one point: every window sits at its one block. -/
theorem idx_facts6 : ∀ t : Fin cfg6.N,
      win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Each input window's block is its whole array. -/
theorem blk6_0_eq (c : Dev nD) (t : Fin cfg6.N) :
    (iblk6 (V13 m ρ) c 0 t : Vec Ideal S512x64 .f32) = (V13 m ρ c main_v133 : S512x64.Idx → EReal) := by
  obtain ⟨e0, e1, -⟩ := idx_facts6 t
  funext y
  unfold iblk6
  rw [View.read_apply]
  show V13 m ρ c main_v133 _ = V13 m ρ c main_v133 _
  congr 1
  funext a
  apply Fin.ext
  match a with
  | ⟨0, _⟩ => show win6_0.index t 0 * 512 + 1 * (y 0).val = (y 0).val; rw [e0]; omega
  | ⟨1, _⟩ => show win6_0.index t 1 * 64 + 1 * (y 1).val = (y 1).val; rw [e1]; omega
theorem blk6_1_eq (c : Dev nD) (t : Fin cfg6.N) :
    (iblk6 (V13 m ρ) c 1 t : Vec Ideal S64x128 .f32) = (V13 m ρ c main_arg21 : S64x128.Idx → EReal) := by
  obtain ⟨-, -, e0, e1, -⟩ := idx_facts6 t
  funext y
  unfold iblk6
  rw [View.read_apply]
  show V13 m ρ c main_arg21 _ = V13 m ρ c main_arg21 _
  congr 1
  funext a
  apply Fin.ext
  match a with
  | ⟨0, _⟩ => show win6_1.index t 0 * 64 + 1 * (y 0).val = (y 0).val; rw [e0]; omega
  | ⟨1, _⟩ => show win6_1.index t 1 * 128 + 1 * (y 1).val = (y 1).val; rw [e1]; omega
theorem blk6_2_eq (c : Dev nD) (t : Fin cfg6.N) :
    (iblk6 (V13 m ρ) c 2 t : Vec Ideal S1x128 .f32) = (V13 m ρ c main_v134 : S1x128.Idx → EReal) := by
  obtain ⟨-, -, -, -, e0, e1, -⟩ := idx_facts6 t
  funext y
  unfold iblk6
  rw [View.read_apply]
  show V13 m ρ c main_v134 _ = V13 m ρ c main_v134 _
  congr 1
  funext a
  apply Fin.ext
  match a with
  | ⟨0, _⟩ => show win6_2.index t 0 * 1 + 1 * (y 0).val = (y 0).val; rw [e0]; omega
  | ⟨1, _⟩ => show win6_2.index t 1 * 128 + 1 * (y 1).val = (y 1).val; rw [e1]; omega
theorem blk6_3_eq (c : Dev nD) (t : Fin cfg6.N) :
    (iblk6 (V13 m ρ) c 3 t : Vec Ideal S128x64 .f32) = (V13 m ρ c main_arg23 : S128x64.Idx → EReal) := by
  obtain ⟨-, -, -, -, -, -, e0, e1, -⟩ := idx_facts6 t
  funext y
  unfold iblk6
  rw [View.read_apply]
  show V13 m ρ c main_arg23 _ = V13 m ρ c main_arg23 _
  congr 1
  funext a
  apply Fin.ext
  match a with
  | ⟨0, _⟩ => show win6_3.index t 0 * 128 + 1 * (y 0).val = (y 0).val; rw [e0]; omega
  | ⟨1, _⟩ => show win6_3.index t 1 * 64 + 1 * (y 1).val = (y 1).val; rw [e1]; omega
theorem blk6_4_eq (c : Dev nD) (t : Fin cfg6.N) :
    (iblk6 (V13 m ρ) c 4 t : Vec Ideal S1x64 .f32) = (V13 m ρ c main_v135 : S1x64.Idx → EReal) := by
  obtain ⟨-, -, -, -, -, -, -, -, e0, e1, -⟩ := idx_facts6 t
  funext y
  unfold iblk6
  rw [View.read_apply]
  show V13 m ρ c main_v135 _ = V13 m ρ c main_v135 _
  congr 1
  funext a
  apply Fin.ext
  match a with
  | ⟨0, _⟩ => show win6_4.index t 0 * 1 + 1 * (y 0).val = (y 0).val; rw [e0]; omega
  | ⟨1, _⟩ => show win6_4.index t 1 * 64 + 1 * (y 1).val = (y 1).val; rw [e1]; omega

/-- WHAT THE ONE POINT WRITES BACK is the whole of `G6`. -/
theorem flushed6_eq (c : Dev nD) (t : Fin cfg6.N) :
    (dat6 (V13 m ρ) c).flushed 5 t = ((cfg6.win 5).blk t).view.read (Elt Ideal) (G6 m ρ c) := by
  show (cfg6.win 5).cut (grid6.coords t) ((dat6 (V13 m ρ) c).after 5 t) = _
  rw [after6_5]
  unfold out6_5
  rw [View.canon_unit_zero hz]
  simp only [View.ld_unit_zero (S := S512x64) hz, View.ld_unit_zero (S := S64x128) hz, View.ld_unit_zero (S := S1x128) hz,
    View.ld_unit_zero (S := S128x64) hz, View.ld_unit_zero (S := S1x64) hz]
  rw [blk6_0_eq m ρ c t, blk6_1_eq m ρ c t, blk6_2_eq m ρ c t, blk6_3_eq m ρ c t, blk6_4_eq m ρ c t]
  obtain ⟨-, -, -, -, -, -, -, -, -, -, e0, e1⟩ := idx_facts6 t
  funext j
  obtain ⟨a, b, rfl⟩ : ∃ (a : Fin 512) (b : Fin 64), j = ix2 a b := ⟨j 0, j 1, eq_ix2 j⟩
  show k6_pay1 (F := Ideal) (V13 m ρ c main_v133) (V13 m ρ c main_arg21) (V13 m ρ c main_v134) (V13 m ρ c main_arg23) (V13 m ρ c main_v135) (ix2 a b)
      = G6 m ρ c (((cfg6.win 5).blk t).view.emb (ix2 a b))
  have hemb : (((cfg6.win 5).blk t).view.emb (ix2 a b) : S512x64.Idx) = ix2 a b := by
    funext ax
    apply Fin.ext
    match ax with
    | ⟨0, _⟩ => show win6_5.index t 0 * 512 + 1 * a.val = a.val; rw [e0]; omega
    | ⟨1, _⟩ => show win6_5.index t 1 * 64 + 1 * b.val = b.val; rw [e1]; omega
  rw [hemb]
  exact pay_apply _ _ _ _ _ a b

/-- An index of the array is in the point's block iff each coordinate is in the block's range on its axis. -/
theorem mem_blk6 (t : Fin cfg6.N) (i : S512x64.Idx) :
    i ∈ ((cfg6.win 5).blk t).view.set ↔ ∀ a : Fin 2, win6_5.index t a * S512x64.size a ≤ (i a).val ∧ (i a).val < win6_5.index t a * S512x64.size a + S512x64.size a := by
  show i ∈ ((View.whole main_v136).slice (win6_5.rect t)).set ↔ _
  rw [View.set_slice_whole, Rect.mem_set_unit]
  exact Iff.rfl

/-- The one block is the whole array. -/
theorem cover6 (i : S512x64.Idx) :
    ∃ t : Fin cfg6.N, (cfg6.win 5).flush t = true ∧ i ∈ ((cfg6.win 5).blk t).view.set := by
  have hi0 : (i 0).val < 512 := (i 0).isLt
  have hi1 : (i 1).val < 64 := (i 1).isLt
  obtain ⟨-, -, -, -, -, -, -, -, -, -, e0, e1⟩ := idx_facts6 t6_0
  refine ⟨t6_0, flush6_5 t6_0, ?_⟩
  rw [mem_blk6]
  intro a
  match a with
  | ⟨0, _⟩ => show win6_5.index t6_0 0 * 512 ≤ (i 0).val ∧ (i 0).val < win6_5.index t6_0 0 * 512 + 512; rw [e0]; omega
  | ⟨1, _⟩ => show win6_5.index t6_0 1 * 64 ≤ (i 1).val ∧ (i 1).val < win6_5.index t6_0 1 * 64 + 64; rw [e1]; omega

/-- THE ARRAY after the head region: the head of the arrays the region finds. -/
theorem final6 (c : Dev nD) : (dat6 (V13 m ρ) c).arrAt 5 cfg6.N = G6 m ρ c :=
  (dat6 (V13 m ρ) c).arrAt_eq_of_cover 5 (G6 m ρ c) (fun t _ => flushed6_eq m ρ c t) cover6

theorem head_out (c : Dev nD) :
    W14 (F := Ideal) m ρ c (Proc.devRef .tc main_v136)
      = Cert.GinSpec.head (V13 m ρ c main_v133) (V13 m ρ c main_arg21) (V13 m ρ c main_v134) (V13 m ρ c main_arg23) (V13 m ρ c main_v135) :=
  (W14_arr m ρ c 5).trans (final6 m ρ c)

end Cert.KernelIdeal.HeadValue

end
-- ==== Proof.Bridge3.lean ====
/-
  The third layer of the kernel program is the layer of the specification, and the head region is the head.

  After the third normalising region and the view back to 50000 × 64, the node matrix the kernel program holds is the
  specification's layer at the node matrix the third aggregation stretch starts from: the aggregation is the reference's
  (the same host operations; a change of float format is the identity on extended reals), the perceptron region computes
  the perceptron tile by tile, the statistics stretch reads mean and variance off the tile sums, and the normalising
  region works in the wide view. The entries of the perceptron output are finite because those of its inputs are.
  The head region then computes the specification's head of the pooled node matrix: the pooling stretch is the
  reference's pooling, and a bias vector recast as a row is the vector broadcast along the row.
-/
import proofs.«177788_j17205638988409_2_alg».proof.Proof.Bridge1
import proofs.«177788_j17205638988409_2_alg».proof.Proof.KStats5
import proofs.«177788_j17205638988409_2_alg».proof.Proof.HeadValue
import proofs.«177788_j17205638988409_2_alg».proof.Proof.LibRowCast

set_option maxRecDepth 16384

noncomputable section

namespace Cert.Bridge

open Cert.KernelIdeal Cert.KernelIdeal.Gen Idealize.ShloMosaic Idealize.ShloMosaic.TcCoe Idealize.SL.Sem
open Idealize.ShloMosaic.ValueIdx
open Cert.GinSpec Cert.GinSpec.Law Cert.GinSpec.Layout Cert.GinSpec.Step

variable (m : (ℓ : Loc nD τ sig) → Buf (Elt Ideal) ℓ) (ρ : Dev nD → PrngReg)

theorem layer3 (c : Dev nD)
    (fH : FiniteArr (V9 m ρ c main_v86 : Mat 50000 64))
    (f15 : FiniteArr (m ((c : Thread nD τ).loc main_arg15) : Mat 64 64))
    (f16 : FiniteArr (m ((c : Thread nD τ).loc main_arg16) : (⟨1, ![64]⟩ : Shape).Idx → EReal))
    (f17 : FiniteArr (m ((c : Thread nD τ).loc main_arg17) : Mat 64 64))
    (f18 : FiniteArr (m ((c : Thread nD τ).loc main_arg18) : (⟨1, ![64]⟩ : Shape).Idx → EReal)) :
    @Eq (Mat 50000 64)
      (shapeCast S50000x64 (W12 m ρ c (Proc.devRef .tc main_v128) : FVec Ideal S25000x128 .bf16) shapeCasts_S25000x128_S50000x64)
      (layer (Cert.ReferenceIdeal.RefValue.aggR (m ((c : Thread nD τ).loc main_arg1))) (V9 m ρ c main_v86)
        (m ((c : Thread nD τ).loc main_arg15)) (rowR (m ((c : Thread nD τ).loc main_arg16)))
        (m ((c : Thread nD τ).loc main_arg17)) (rowR (m ((c : Thread nD τ).loc main_arg18)))
        (fun k => (m ((c : Thread nD τ).loc main_arg19) : (⟨1, ![64]⟩ : Shape).Idx → EReal) (ix1 k))
        (fun k => (m ((c : Thread nD τ).loc main_arg20) : (⟨1, ![64]⟩ : Shape).Idx → EReal) (ix1 k))) := by
  have e101 : @Eq (Mat 50000 64) (V9 m ρ c main_v101)
      (Cert.ReferenceIdeal.RefValue.aggR (m ((c : Thread nD τ).loc main_arg1)) (V9 m ρ c main_v86)) :=
    (Cert.KernelIdeal.AggValue.V9_main_v101 m ρ c).trans
      ((congrArg (fun h => Cert.KernelIdeal.AggValue.aggK h (m ((c : Thread nD τ).loc main_arg1)))
        (Cert.KernelIdeal.AggValue.V9_main_v86 m ρ c).symm).trans (agg_eq _ _))
  have e102 : @Eq (Mat 1 64) (V9 m ρ c main_v102) (rowR (m ((c : Thread nD τ).loc main_arg16))) :=
    (Cert.KernelIdeal.AggValue.V9_main_v102 m ρ c).trans (row_eq _)
  have e103 : @Eq (Mat 1 64) (V9 m ρ c main_v103) (rowR (m ((c : Thread nD τ).loc main_arg18))) :=
    (Cert.KernelIdeal.AggValue.V9_main_v103 m ρ c).trans (row_eq _)
  have e15 : @Eq (Mat 64 64) (V9 m ρ c main_arg15) (m ((c : Thread nD τ).loc main_arg15)) := Cert.KernelIdeal.AggValue.V9_main_arg15 m ρ c
  have e17 : @Eq (Mat 64 64) (V9 m ρ c main_arg17) (m ((c : Thread nD τ).loc main_arg17)) := Cert.KernelIdeal.AggValue.V9_main_arg17 m ρ c
  have hZ : @Eq (Mat 50000 64) (W10 m ρ c (Proc.devRef .tc main_v104_0))
      (mlp (V9 m ρ c main_v101) (V9 m ρ c main_v86) (m ((c : Thread nD τ).loc main_arg15))
        (rowR (m ((c : Thread nD τ).loc main_arg16))) (m ((c : Thread nD τ).loc main_arg17)) (rowR (m ((c : Thread nD τ).loc main_arg18)))) := by
    rw [Cert.KernelIdeal.Stage1.region4_z m ρ c, e15, e102, e17, e103]
  have hS : @Eq (Arr3 10 8 64) (W10 m ρ c (Proc.devRef .tc main_v104_1)) (tileSums (W10 m ρ c (Proc.devRef .tc main_v104_0))) := by
    rw [Cert.KernelIdeal.Stage1.region4_sums m ρ c, Cert.KernelIdeal.Stage1.region4_z m ρ c]
  have hQ : @Eq (Arr3 10 8 64) (W10 m ρ c (Proc.devRef .tc main_v104_2)) (tileSumSqs (W10 m ρ c (Proc.devRef .tc main_v104_0))) := by
    rw [Cert.KernelIdeal.Stage1.region4_sumsqs m ρ c, Cert.KernelIdeal.Stage1.region4_z m ρ c]
  have hfin : FiniteArr (W10 m ρ c (Proc.devRef .tc main_v104_0) : Mat 50000 64) := by
    rw [hZ, e101]
    exact finite_mlp _ _ _ _ _ _ (Cert.ReferenceIdeal.RefValue.finite_aggR _ _ fH) fH f15
      (finite_broadcastInDim _ _ _ f16) f17 (finite_broadcastInDim _ _ _ f18)
  exact layer_step (Cert.ReferenceIdeal.RefValue.aggR (m ((c : Thread nD τ).loc main_arg1))) (V9 m ρ c main_v86)
    (m ((c : Thread nD τ).loc main_arg15)) (rowR (m ((c : Thread nD τ).loc main_arg16)))
    (m ((c : Thread nD τ).loc main_arg17)) (rowR (m ((c : Thread nD τ).loc main_arg18))) _ _
    (V9 m ρ c main_v101) (W10 m ρ c (Proc.devRef .tc main_v104_0)) (W10 m ρ c (Proc.devRef .tc main_v104_1))
    (W10 m ρ c (Proc.devRef .tc main_v104_2)) (V11 m ρ c main_v119) (V11 m ρ c main_v121) (V11 m ρ c main_v123) (V11 m ρ c main_v125)
    (V11 m ρ c main_v127) (W12 m ρ c (Proc.devRef .tc main_v128))
    (shapeCast S50000x64 (W12 m ρ c (Proc.devRef .tc main_v128) : FVec Ideal S25000x128 .bf16) shapeCasts_S25000x128_S50000x64)
    shapeCasts_S50000x64_S25000x128 shapeCasts_S25000x128_S50000x64
    e101 hZ hS hQ (Cert.KernelIdeal.StatsValue.main_v119_eq m ρ c)
    (Cert.KernelIdeal.StatsValue.main_v121_apply m ρ c) (Cert.KernelIdeal.StatsValue.main_v123_apply m ρ c)
    (Cert.KernelIdeal.StatsValue.main_v125_apply m ρ c) (Cert.KernelIdeal.StatsValue.main_v127_apply m ρ c)
    (Cert.KernelIdeal.Stage2.region5_out m ρ c) rfl hfin

/-- The kernel's pooling, which adds rows stored in the narrower format, is the reference's. -/
theorem pool_eq (b : IVec S50000 32) (h : (⟨2, ![50000, 64]⟩ : Shape).Idx → EReal) :
    @Eq (Mat 512 64) (Cert.KernelIdeal.AggValue.poolK b h) (Cert.ReferenceIdeal.RefValue.poolR b h) := rfl

theorem head_value (c : Dev nD) :
    @Eq (Mat 512 64) (W14 m ρ c (Proc.devRef .tc main_v136))
      (head
        (Cert.ReferenceIdeal.RefValue.poolR (m ((c : Thread nD τ).loc main_arg2))
          (shapeCast S50000x64 (W12 m ρ c (Proc.devRef .tc main_v128) : FVec Ideal S25000x128 .bf16) shapeCasts_S25000x128_S50000x64))
        (m ((c : Thread nD τ).loc main_arg21))
        (broadcastInDim Cert.ReferenceIdeal.S1x128 ![1] Cert.ReferenceIdeal.Gen.bcast_S128_S1x128_1 (m ((c : Thread nD τ).loc main_arg22)))
        (m ((c : Thread nD τ).loc main_arg23)) (rowR (m ((c : Thread nD τ).loc main_arg24)))) := by
  have e133 : @Eq (Mat 512 64) (V13 m ρ c main_v133)
      (Cert.ReferenceIdeal.RefValue.poolR (m ((c : Thread nD τ).loc main_arg2))
        (shapeCast S50000x64 (W12 m ρ c (Proc.devRef .tc main_v128) : FVec Ideal S25000x128 .bf16) shapeCasts_S25000x128_S50000x64)) :=
    (Cert.KernelIdeal.AggValue.V13_main_v133 m ρ c).trans (pool_eq _ _)
  have e134 : @Eq (Mat 1 128) (V13 m ρ c main_v134)
      (broadcastInDim Cert.ReferenceIdeal.S1x128 ![1] Cert.ReferenceIdeal.Gen.bcast_S128_S1x128_1 (m ((c : Thread nD τ).loc main_arg22))) :=
    (Cert.KernelIdeal.AggValue.V13_main_v134 m ρ c).trans (Cert.LibRowCast.shapeCast_row_eq_broadcastInDim _ _ _)
  have e135 : @Eq (Mat 1 64) (V13 m ρ c main_v135) (rowR (m ((c : Thread nD τ).loc main_arg24))) :=
    (Cert.KernelIdeal.AggValue.V13_main_v135 m ρ c).trans (row_eq _)
  have e21 : @Eq (Mat 64 128) (V13 m ρ c main_arg21) (m ((c : Thread nD τ).loc main_arg21)) := Cert.KernelIdeal.AggValue.V13_main_arg21 m ρ c
  have e23 : @Eq (Mat 128 64) (V13 m ρ c main_arg23) (m ((c : Thread nD τ).loc main_arg23)) := Cert.KernelIdeal.AggValue.V13_main_arg23 m ρ c
  rw [Cert.KernelIdeal.HeadValue.head_out m ρ c, e133, e21, e134, e23, e135]

end Cert.Bridge

end
-- ==== Proof.FiniteInputs.lean ====
import proofs.«177788_j17205638988409_2_alg».proof.Pre_finite_inputs
import Idealize.ShloMosaic.PureOps.Ideal
import Idealize.ShloMosaic.Lib.ReduceAll
import Idealize.ShloMosaic.Lib.ValueIdx

/-!
# From the all-finite predicate to real entries

The precondition is a one-bit word: the conjunction, over the float arguments, of "every entry has
absolute value strictly below plus infinity". Read over the extended reals, an entry `x` with
`max x (-x) < ⊤` is neither `⊤` nor `⊥`, hence the image of a real number. This file carries that
reading from the word being one to a statement per argument: every entry is a real.
-/

noncomputable section

namespace Cert.Pre_finite_inputs

open Idealize.ShloMosaic

namespace Finite

/-- The rank-zero shape has exactly one index. -/
instance : Subsingleton S_.Idx := ⟨fun a b => funext fun d => d.elim0⟩

/-- An extended real whose absolute value lies strictly below the top element is a real number. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  have h1 : x ≠ ⊤ := by
    rintro rfl
    simp at hlt
  have h2 : x ≠ ⊥ := by
    rintro rfl
    simp at hlt
  exact ⟨x.toReal, (EReal.coe_toReal h1 h2).symm⟩

/-- The all-finite test of one array: if the conjunction over all elements of "absolute value below
    plus infinity" is one, every element is a real number. -/
theorem real_of_all {s : Shape} {axes : List (Fin s.rank)} (v : FVec Ideal s .f32)
    (hb : S_.BroadcastsInDim s (![] : Fin 0 → Fin s.rank)) (hred : s.ReducesTo axes S_) (hS : 0 < S_.numel)
    (h : Host.reduce IntOp.andi
          (cmpf .olt (Host.absf (F := Ideal) v)
            (broadcastInDim s ![] hb (constant (F := Ideal) S_ .f32 0x7F800000#32)))
          (constantI S_ 1 1#1) hred hS ValueIdx.ix0 = 1#1) :
    ∀ i, ∃ x : ℝ, v i = (x : EReal) := by
  intro i
  have e := Host.reduce_andi_all _ _ hred hS _ h i
  exact real_of_abs_lt_top (v i) e

/-- A conjunction of two one-bit arrays is one at an index exactly when both are. -/
theorem andi_apply_eq_one {s : Shape} (x y : IVec s 1) (i : s.Idx) :
    andi x y i = 1#1 ↔ x i = 1#1 ∧ y i = 1#1 := IntOp.andi_eq_one

variable [Facts]

/-- From the all-finite predicate on the arguments: every entry of every float argument is a real number. -/
theorem finite_of_pre {a0 : FVec Ideal S50000x64 .f32} {a1 : IVec S2x800000 32} {a2 : IVec S50000 32} {a3 : FVec Ideal S64x64 .f32} {a4 : FVec Ideal S64 .f32} {a5 : FVec Ideal S64x64 .f32} {a6 : FVec Ideal S64 .f32} {a7 : FVec Ideal S64 .f32} {a8 : FVec Ideal S64 .f32} {a9 : FVec Ideal S64x64 .f32} {a10 : FVec Ideal S64 .f32} {a11 : FVec Ideal S64x64 .f32} {a12 : FVec Ideal S64 .f32} {a13 : FVec Ideal S64 .f32} {a14 : FVec Ideal S64 .f32} {a15 : FVec Ideal S64x64 .f32} {a16 : FVec Ideal S64 .f32} {a17 : FVec Ideal S64x64 .f32} {a18 : FVec Ideal S64 .f32} {a19 : FVec Ideal S64 .f32} {a20 : FVec Ideal S64 .f32} {a21 : FVec Ideal S64x128 .f32} {a22 : FVec Ideal S128 .f32} {a23 : FVec Ideal S128x64 .f32} {a24 : FVec Ideal S64 .f32}
    (h : fn (F := Ideal) a0 a1 a2 a3 a4 a5 a6 a7 a8 a9 a10 a11 a12 a13 a14 a15 a16 a17 a18 a19 a20 a21 a22 a23 a24 = fun _ => 1#1) :
    (∀ i, ∃ x : ℝ, a0 i = (x : EReal))
      ∧ (∀ i, ∃ x : ℝ, a3 i = (x : EReal))
      ∧ (∀ i, ∃ x : ℝ, a4 i = (x : EReal))
      ∧ (∀ i, ∃ x : ℝ, a5 i = (x : EReal))
      ∧ (∀ i, ∃ x : ℝ, a6 i = (x : EReal))
      ∧ (∀ i, ∃ x : ℝ, a7 i = (x : EReal))
      ∧ (∀ i, ∃ x : ℝ, a8 i = (x : EReal))
      ∧ (∀ i, ∃ x : ℝ, a9 i = (x : EReal))
      ∧ (∀ i, ∃ x : ℝ, a10 i = (x : EReal))
      ∧ (∀ i, ∃ x : ℝ, a11 i = (x : EReal))
      ∧ (∀ i, ∃ x : ℝ, a12 i = (x : EReal))
      ∧ (∀ i, ∃ x : ℝ, a13 i = (x : EReal))
      ∧ (∀ i, ∃ x : ℝ, a14 i = (x : EReal))
      ∧ (∀ i, ∃ x : ℝ, a15 i = (x : EReal))
      ∧ (∀ i, ∃ x : ℝ, a16 i = (x : EReal))
      ∧ (∀ i, ∃ x : ℝ, a17 i = (x : EReal))
      ∧ (∀ i, ∃ x : ℝ, a18 i = (x : EReal))
      ∧ (∀ i, ∃ x : ℝ, a19 i = (x : EReal))
      ∧ (∀ i, ∃ x : ℝ, a20 i = (x : EReal))
      ∧ (∀ i, ∃ x : ℝ, a21 i = (x : EReal))
      ∧ (∀ i, ∃ x : ℝ, a22 i = (x : EReal))
      ∧ (∀ i, ∃ x : ℝ, a23 i = (x : EReal))
      ∧ (∀ i, ∃ x : ℝ, a24 i = (x : EReal)) := by
  have h0 := congrFun h ValueIdx.ix0
  dsimp only [fn, fn_part1, fn_part2, fn_part3, fn_part4, fn_part5, fn_part6] at h0
  simp only [andi_apply_eq_one] at h0
  obtain ⟨⟨⟨⟨⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩ := h0
  exact ⟨real_of_all _ _ _ _ h0, real_of_all _ _ _ _ h3, real_of_all _ _ _ _ h4, real_of_all _ _ _ _ h5, real_of_all _ _ _ _ h6, real_of_all _ _ _ _ h7, real_of_all _ _ _ _ h8, real_of_all _ _ _ _ h9, real_of_all _ _ _ _ h10, real_of_all _ _ _ _ h11, real_of_all _ _ _ _ h12, real_of_all _ _ _ _ h13, real_of_all _ _ _ _ h14, real_of_all _ _ _ _ h15, real_of_all _ _ _ _ h16, real_of_all _ _ _ _ h17, real_of_all _ _ _ _ h18, real_of_all _ _ _ _ h19, real_of_all _ _ _ _ h20, real_of_all _ _ _ _ h21, real_of_all _ _ _ _ h22, real_of_all _ _ _ _ h23, real_of_all _ _ _ _ h24⟩

end Finite

end Cert.Pre_finite_inputs

end
-- ==== Proof.NetFinite.lean ====
/-
  The layers keep real entries real.

  A layer is the perceptron of `agg h + h` followed by the column normalisation with the perceptron output's own
  mean and variance.  If the aggregation maps arrays of real entries to arrays of real entries, so does the perceptron
  output (sums, products and maxima of reals), and so does the normalisation (the variance of real entries is a
  nonnegative real, so the reciprocal square root is taken of a positive real).
-/
import proofs.«177788_j17205638988409_2_alg».proof.Proof.NetSpec
import proofs.«177788_j17205638988409_2_alg».proof.Proof.BatchNormLaw

noncomputable section

namespace Cert.GinSpec.Law

open Idealize.ShloMosaic Idealize.ShloMosaic.ValueIdx Cert.GinSpec

/-- The perceptron output of a layer on real arrays is real, for an aggregation that keeps real entries real. -/
theorem finite_layerZ (agg : Mat 50000 64 → Mat 50000 64) (hagg : ∀ h, FiniteArr h → FiniteArr (agg h))
    (h : Mat 50000 64) (wa : Mat 64 64) (ba : Mat 1 64) (wb : Mat 64 64) (bb : Mat 1 64)
    (hh : FiniteArr h) (hwa : FiniteArr wa) (hba : FiniteArr ba) (hwb : FiniteArr wb) (hbb : FiniteArr bb) :
    FiniteArr (layerZ agg h wa ba wb bb) :=
  finite_mlp (agg h) h wa ba wb bb (hagg h hh) hh hwa hba hwb hbb

/-- A layer's output on real arrays, with real scale and shift, is real. -/
theorem finite_layer (agg : Mat 50000 64 → Mat 50000 64) (hagg : ∀ h, FiniteArr h → FiniteArr (agg h))
    (h : Mat 50000 64) (wa : Mat 64 64) (ba : Mat 1 64) (wb : Mat 64 64) (bb : Mat 1 64) (g be : Fin 64 → EReal)
    (hh : FiniteArr h) (hwa : FiniteArr wa) (hba : FiniteArr ba) (hwb : FiniteArr wb) (hbb : FiniteArr bb)
    (hg : FiniteArr g) (hbe : FiniteArr be) : FiniteArr (layer agg h wa ba wb bb g be) :=
  finite_normWith (layerZ agg h wa ba wb bb) g be (finite_layerZ agg hagg h wa ba wb bb hh hwa hba hwb hbb) hg hbe

end Cert.GinSpec.Law

end
-- ==== Proof.BridgeNet.lean ====
/-
  The kernel program's result is the network of the specification at the launch contents of its arguments.

  Under the precondition every float argument has only finite entries.  Finiteness passes from layer to layer (a
  gather keeps entries, an accumulating scatter adds finitely many, the perceptron and the normalisation with a
  positive variance offset stay real), so each layer's perceptron output is finite and the three layer steps apply
  in turn; the head then reads the pooled third layer.
-/
import proofs.«177788_j17205638988409_2_alg».proof.Proof.Bridge1
import proofs.«177788_j17205638988409_2_alg».proof.Proof.Bridge2
import proofs.«177788_j17205638988409_2_alg».proof.Proof.Bridge3
import proofs.«177788_j17205638988409_2_alg».proof.Proof.Claims
import proofs.«177788_j17205638988409_2_alg».proof.Proof.FiniteInputs
import proofs.«177788_j17205638988409_2_alg».proof.Proof.NetFinite

set_option maxRecDepth 16384

noncomputable section

namespace Cert.Bridge

open Cert.KernelIdeal Cert.KernelIdeal.Gen Idealize.ShloMosaic Idealize.ShloMosaic.TcCoe Idealize.SL.Sem
open Idealize.ShloMosaic.ValueIdx
open Cert.GinSpec Cert.GinSpec.Law Cert.GinSpec.Layout Cert.GinSpec.Step

theorem kernel_value (m : (ℓ : Loc nD τ sig) → Buf (Elt Ideal) ℓ) (ρ : Dev nD → PrngReg) (hpre : Cert.Pre_KernelIdeal m)
    (c : Dev nD) :
    Cert.KernelIdeal.Gen.W14 (F := Ideal) m ρ c (Proc.devRef .tc main_v136) = Cert.Proof.Parts.netOf m c := by
  obtain ⟨f0, f3, f4, f5, f6, f7, f8, f9, f10, f11, f12, f13, f14, f15, f16, f17, f18, f19, f20, f21, f22, f23, f24⟩ :=
    Cert.Pre_finite_inputs.Finite.finite_of_pre (hpre c)
  have hagg : ∀ h : Mat 50000 64, FiniteArr h →
      FiniteArr (Cert.ReferenceIdeal.RefValue.aggR (m ((c : Thread nD τ).loc main_arg1)) h) :=
    fun h hh => Cert.ReferenceIdeal.RefValue.finite_aggR _ h hh
  have h1 := layer1 m ρ c f0 f3 f4 f5 f6
  have fH1 : FiniteArr (V5 m ρ c main_v43 : Mat 50000 64) := by
    rw [h1]
    exact finite_layer _ hagg _ _ _ _ _ _ _ f0 f3 (finite_broadcastInDim _ _ _ f4) f5 (finite_broadcastInDim _ _ _ f6)
      (finite_vec _ f7) (finite_vec _ f8)
  have h2 := layer2 m ρ c fH1 f9 f10 f11 f12
  have fH2 : FiniteArr (V9 m ρ c main_v86 : Mat 50000 64) := by
    rw [h2]
    exact finite_layer _ hagg _ _ _ _ _ _ _ fH1 f9 (finite_broadcastInDim _ _ _ f10) f11 (finite_broadcastInDim _ _ _ f12)
      (finite_vec _ f13) (finite_vec _ f14)
  have h3 := layer3 m ρ c fH2 f15 f16 f17 f18
  refine (head_value m ρ c).trans ?_
  rw [h3, h2, h1]
  rfl

end Cert.Bridge

end
-- ==== Proof.lean ====
/-
  The certificate: a three-layer graph network with a pooled head, computed by seven tiled regions among host
  operations, against its plain reference.

  The three frames are the generated runs.  Nothing was rewritten in idealising the kernel program.  At exact
  arithmetic on extended reals both programs compute the network of the specification (GinSpec, NetSpec): the
  reference directly (RefNet); the kernel program region by region (Stage1Value, Stage2Value, HeadValue) and stretch by
  stretch (KAgg, KStats, KStats3, KStats5), joined layer by layer (Bridge1, Bridge2, Bridge3, BridgeNet).  The one law
  that joins the two sides is that, on finite entries, column mean and variance taken from tile sums of `z` and
  `z²` (variance as `E z² - μ²`, clamped at zero) are the mean and variance taken from centred squares
  (BatchNormLaw); finiteness of every entry follows from the precondition (FiniteInputs).
-/
import proofs.«177788_j17205638988409_2_alg».proof.Defs
import proofs.«177788_j17205638988409_2_alg».proof.Proof.Gen.Kernel
import proofs.«177788_j17205638988409_2_alg».proof.Proof.Gen.Kernel.Skeleton
import proofs.«177788_j17205638988409_2_alg».proof.Proof.Gen.Kernel.Launch
import proofs.«177788_j17205638988409_2_alg».proof.Proof.Gen.Kernel.Points
import proofs.«177788_j17205638988409_2_alg».proof.Proof.Gen.Kernel.Frame
import proofs.«177788_j17205638988409_2_alg».proof.Proof.Gen.KernelIdeal
import proofs.«177788_j17205638988409_2_alg».proof.Proof.Gen.KernelIdeal.Skeleton
import proofs.«177788_j17205638988409_2_alg».proof.Proof.Gen.KernelIdeal.Launch
import proofs.«177788_j17205638988409_2_alg».proof.Proof.Gen.KernelIdeal.Points
import proofs.«177788_j17205638988409_2_alg».proof.Proof.Gen.KernelIdeal.Frame
import proofs.«177788_j17205638988409_2_alg».proof.Proof.Gen.ReferenceIdeal
import proofs.«177788_j17205638988409_2_alg».proof.Proof.Gen.ReferenceIdeal.Run
import proofs.«177788_j17205638988409_2_alg».proof.Proof.Gen.Pre_finite_inputs
import proofs.«177788_j17205638988409_2_alg».proof.Proof.Claims
import proofs.«177788_j17205638988409_2_alg».proof.Proof.BridgeNet
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves,
    Parts.algebraic_of_value fun m ρ hpre c => Cert.Bridge.kernel_value m ρ hpre c⟩

end Cert.Proof

end
